-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v156)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v156) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg13
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg9 : FVec F S128x128 .f32) (main_arg10 : FVec F S128x128 .f32) (main_arg11 : FVec F S128 .f32) (main_arg12 : FVec F S128x40 .f32) (main_arg13 : FVec F S40 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg12
  let main_cst_18 : FVec F S_ .f32 := constant S_ .f32 0x7F800000#32
  let main_v50 : FVec F S128x40 .f32 := broadcastInDim S128x40 ![] bcast_S_S128x40 main_cst_18
  fn_part3 (F := F) main_arg13 main_v48 main_v49 main_v50

def fn_part1 {F : FTy → Type} [FloatOps F] (main_arg6 : FVec F S128x128 .f32) (main_arg7 : FVec F S128 .f32) (main_arg8 : FVec F S128 .f32) (main_arg9 : FVec F S128x128 .f32) (main_arg10 : FVec F S128x128 .f32) (main_arg11 : FVec F S128 .f32) (main_arg12 : FVec F S128x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x640000 32) (main_arg2 : IVec S100000 32) (main_arg3 : FVec F S128x128 .f32) (main_arg4 : FVec F S128 .f32) (main_arg5 : FVec F S128 .f32) (main_arg6 : FVec F S128x128 .f32) (main_arg7 : FVec F S128 .f32) (main_arg8 : FVec F S128 .f32) (main_arg9 : FVec F S128x128 .f32) (main_arg10 : FVec F S128x128 .f32) (main_arg11 : FVec F S128 .f32) (main_arg12 : FVec F S128x40 .f32) (main_arg13 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S10000x128 : Shape := ⟨2, ![10000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S100000x1 : Shape := ⟨2, ![100000, 1]⟩
abbrev S128x1 : Shape := ⟨2, ![128, 1]⟩
abbrev S1x40 : Shape := ⟨2, ![1, 40]⟩

abbrev nBuf : Space → Nat
  | .hbm => 230
  | .vmem => 39
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S128x128, .f32⟩
  | 4 => ⟨S128, .f32⟩
  | 5 => ⟨S128, .f32⟩
  | 6 => ⟨S128x128, .f32⟩
  | 7 => ⟨S128, .f32⟩
  | 8 => ⟨S128, .f32⟩
  | 9 => ⟨S128x128, .f32⟩
  | 10 => ⟨S128x128, .f32⟩
  | 11 => ⟨S128, .f32⟩
  | 12 => ⟨S128x40, .f32⟩
  | 13 => ⟨S40, .f32⟩
  | 14 => ⟨S1x640000, .i32⟩
  | 15 => ⟨S640000, .i32⟩
  | 16 => ⟨S1x640000, .i32⟩
  | 17 => ⟨S640000, .i32⟩
  | 18 => ⟨S100000x128, .f32⟩
  | 19 => ⟨S_, .f32⟩
  | 20 => ⟨S640000, .f32⟩
  | 21 => ⟨S_, .f32⟩
  | 22 => ⟨S100000, .f32⟩
  | 23 => ⟨S640000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S640000, .f32⟩
  | 49 => ⟨S640000, .f32⟩
  | 50 => ⟨S640000x1, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x128, .f32⟩
  | 61 => ⟨S640000x128, .f32⟩
  | 62 => ⟨S_, .f32⟩
  | 63 => ⟨S100000x128, .f32⟩
  | 64 => ⟨S640000x1, .i32⟩
  | 65 => ⟨S100000x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S1x128, .f32⟩
  | 78 => ⟨S100000x128, .f32⟩
  | 79 => ⟨S100000x128, .f32⟩
  | 80 => ⟨S_, .f32⟩
  | 81 => ⟨S640000, .f32⟩
  | 82 => ⟨S_, .f32⟩
  | 83 => ⟨S100000, .f32⟩
  | 84 => ⟨S640000x1, .i32⟩
  | 85 => ⟨S100000, .f32⟩
  | 86 => ⟨S_, .f32⟩
  | 87 => ⟨S100000, .f32⟩
  | 88 => ⟨S100000, .f32⟩
  | 89 => ⟨S_, .f32⟩
  | 90 => ⟨S100000, .f32⟩
  | 91 => ⟨S100000, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000, .f32⟩
  | 110 => ⟨S640000, .f32⟩
  | 111 => ⟨S640000x1, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000x128, .f32⟩
  | 121 => ⟨S640000x128, .f32⟩
  | 122 => ⟨S640000x128, .f32⟩
  | 123 => ⟨S_, .f32⟩
  | 124 => ⟨S100000x128, .f32⟩
  | 125 => ⟨S640000x1, .i32⟩
  | 126 => ⟨S100000x128, .f32⟩
  | 127 => ⟨S1x128, .f32⟩
  | _ => ⟨S100000x128, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S100000x128, .f32⟩
  | 12 => ⟨S100000x128, .f32⟩
  | 13 => ⟨S_, .f32⟩
  | 14 => ⟨S640000, .f32⟩
  | 15 => ⟨S_, .f32⟩
  | 16 => ⟨S100000, .f32⟩
  | 17 => ⟨S640000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000, .f32⟩
  | 43 => ⟨S640000, .f32⟩
  | 44 => ⟨S640000x1, .f32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000x128, .f32⟩
  | 54 => ⟨S640000x128, .f32⟩
  | 55 => ⟨S640000x128, .f32⟩
  | 56 => ⟨S_, .f32⟩
  | 57 => ⟨S100000x128, .f32⟩
  | 58 => ⟨S640000x1, .i32⟩
  | 59 => ⟨S100000x128, .f32⟩
  | 60 => ⟨S_, .f32⟩
  | 61 => ⟨S128x128, .f32⟩
  | 62 => ⟨S100000x1, .i32⟩
  | 63 => ⟨S128x128, .f32⟩
  | 64 => ⟨S_, .f32⟩
  | 65 => ⟨S100000, .f32⟩
  | 66 => ⟨S_, .f32⟩
  | 67 => ⟨S128, .f32⟩
  | 68 => ⟨S100000x1, .i32⟩
  | 69 => ⟨S128, .f32⟩
  | 70 => ⟨S_, .f32⟩
  | 71 => ⟨S128, .f32⟩
  | 72 => ⟨S128, .f32⟩
  | 73 => ⟨S128x1, .f32⟩
  | 74 => ⟨S128x128, .f32⟩
  | 75 => ⟨S128x128, .f32⟩
  | 76 => ⟨S128x128, .f32⟩
  | 77 => ⟨S1x128, .f32⟩
  | 78 => ⟨S128x128, .f32⟩
  | 79 => ⟨S128x128, .f32⟩
  | 80 => ⟨S_, .f32⟩
  | 81 => ⟨S128x128, .f32⟩
  | 82 => ⟨S128x128, .f32⟩
  | 83 => ⟨S128x40, .f32⟩
  | 84 => ⟨S1x40, .f32⟩
  | 85 => ⟨S128x40, .f32⟩
  | 86 => ⟨S128x40, .f32⟩
  | 87 => ⟨S_, .f32⟩
  | 88 => ⟨S128, .f32⟩
  | 89 => ⟨S_, .f32⟩
  | 90 => ⟨S128, .f32⟩
  | 91 => ⟨S128, .f32⟩
  | 92 => ⟨S128x1, .f32⟩
  | 93 => ⟨S128x40, .f32⟩
  | 94 => ⟨S128x40, .f32⟩
  | 95 => ⟨S128x40, .f32⟩
  | 96 => ⟨S_, .f32⟩
  | 97 => ⟨S128, .f32⟩
  | 98 => ⟨S128x1, .f32⟩
  | 99 => ⟨S128x1, .f32⟩
  | 100 => ⟨S128x40, .f32⟩
  | 101 => ⟨S128x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S128x128, .f32⟩
  | .local _ .vmem, ⟨37, _⟩ => ⟨S10000x128, .f32⟩
  | .local _ .vmem, ⟨38, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41_0 : Ref sig .tc := ⟨.hbm, 66, rfl⟩
abbrev main_v41_1 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_cst_14 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_c_16 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_17 : Ref sig .tc := ⟨.hbm, 101, rfl⟩
abbrev main_v67 : Ref sig .tc := ⟨.hbm, 102, rfl⟩
abbrev main_v68 : Ref sig .tc := ⟨.hbm, 103, rfl⟩
abbrev main_c_18 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_19 : Ref sig .tc := ⟨.hbm, 112, rfl⟩
abbrev main_v76 : Ref sig .tc := ⟨.hbm, 113, rfl⟩
abbrev main_v77 : Ref sig .tc := ⟨.hbm, 114, rfl⟩
abbrev main_c_20 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_21 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88_0 : Ref sig .tc := ⟨.hbm, 127, rfl⟩
abbrev main_v88_1 : Ref sig .tc := ⟨.hbm, 128, rfl⟩
abbrev main_cst_22 : Ref sig .tc := ⟨.hbm, 129, rfl⟩
abbrev main_v89 : Ref sig .tc := ⟨.hbm, 130, rfl⟩
abbrev main_v90 : Ref sig .tc := ⟨.hbm, 131, rfl⟩
abbrev main_cst_23 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_24 : Ref sig .tc := ⟨.hbm, 141, rfl⟩
abbrev main_v99 : Ref sig .tc := ⟨.hbm, 142, rfl⟩
abbrev main_cst_25 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_26 : Ref sig .tc := ⟨.hbm, 147, rfl⟩
abbrev main_v103 : Ref sig .tc := ⟨.hbm, 148, rfl⟩
abbrev main_v104 : Ref sig .tc := ⟨.hbm, 149, rfl⟩
abbrev main_cst_27 : Ref sig .tc := ⟨.hbm, 150, rfl⟩
abbrev main_v105 : Ref sig .tc := ⟨.hbm, 151, rfl⟩
abbrev main_v106 : Ref sig .tc := ⟨.hbm, 152, rfl⟩
abbrev main_c_28 : Ref sig .tc := ⟨.hbm, 153, rfl⟩
abbrev main_v107 : Ref sig .tc := ⟨.hbm, 154, rfl⟩
abbrev main_v108 : Ref sig .tc := ⟨.hbm, 155, rfl⟩
abbrev main_c_29 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_c_30 : Ref sig .tc := ⟨.hbm, 162, rfl⟩
abbrev main_v114 : Ref sig .tc := ⟨.hbm, 163, rfl⟩
abbrev main_v115 : Ref sig .tc := ⟨.hbm, 164, rfl⟩
abbrev main_c_31 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_c_32 : Ref sig .tc := ⟨.hbm, 173, rfl⟩
abbrev main_v123 : Ref sig .tc := ⟨.hbm, 174, rfl⟩
abbrev main_v124 : Ref sig .tc := ⟨.hbm, 175, rfl⟩
abbrev main_c_33 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_34 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_35 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_36 : Ref sig .tc := ⟨.hbm, 192, rfl⟩
abbrev main_v138 : Ref sig .tc := ⟨.hbm, 193, rfl⟩
abbrev main_cst_37 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_cst_38 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_call0_cst : Ref sig .tc := ⟨.hbm, 208, rfl⟩
abbrev main_call0_v0 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_call1_cst : Ref sig .tc := ⟨.hbm, 215, rfl⟩
abbrev main_call1_v0 : Ref sig .tc := ⟨.hbm, 216, rfl⟩
abbrev main_call1_cst_0 : Ref sig .tc := ⟨.hbm, 217, rfl⟩
abbrev main_call1_v1 : Ref sig .tc := ⟨.hbm, 218, rfl⟩
abbrev main_call1_v2 : Ref sig .tc := ⟨.hbm, 219, rfl⟩
abbrev main_call1_v3 : Ref sig .tc := ⟨.hbm, 220, rfl⟩
abbrev main_call1_v4 : Ref sig .tc := ⟨.hbm, 221, rfl⟩
abbrev main_call1_v5 : Ref sig .tc := ⟨.hbm, 222, rfl⟩
abbrev main_call1_v6 : Ref sig .tc := ⟨.hbm, 223, rfl⟩
abbrev main_call1_cst_1 : Ref sig .tc := ⟨.hbm, 224, rfl⟩
abbrev main_call1_v7 : Ref sig .tc := ⟨.hbm, 225, rfl⟩
abbrev main_call1_v8 : Ref sig .tc := ⟨.hbm, 226, rfl⟩
abbrev main_call1_v9 : Ref sig .tc := ⟨.hbm, 227, rfl⟩
abbrev main_call1_v10 : Ref sig .tc := ⟨.hbm, 228, rfl⟩
abbrev main_v156 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  reduces_S10000x128_S128 : S10000x128.Reduces [0] S128
  shapeCasts_S128_S1x128 : S128.ShapeCasts S1x128
  bcast_S_S1x128 : S_.BroadcastsInDim S1x128 (![] : Fin 0 → Fin S1x128.rank)
  broadcasts_S1x128_S10000x128 : S1x128.Broadcasts S10000x128
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S40_S1x40_1 : S40.BroadcastsInDim S1x40 (![1] : Fin 1 → Fin S1x40.rank)
  bcast_S1x40_S128x40_0_1 : S1x40.BroadcastsInDim S128x40 (![0, 1] : Fin 2 → Fin S128x40.rank)
  reducesTo_S128x40_S128_d1 : S128x40.ReducesTo [1] S128
  h_S_ : 0 < S_.numel
  bcast_S128x1_S128x40_0_1 : S128x1.BroadcastsInDim S128x40 (![0, 1] : Fin 2 → Fin S128x40.rank)
  dot_S10000x128_S128x128_S10000x128_1_0_0_1_n_n_wf : DotDims.WF S10000x128 S128x128 S10000x128 [1] [0] [0] [1] [] []
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x40_S128x40_1_0_0_1_n_n_wf : DotDims.WF S128x128 S128x40 S128x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x40_S128x40_1_0_0_1_n_n : DotDims S128x128 S128x40 S128x40 where
  lhsContracting := [1]
  rhsContracting := [0]
  lhsNonContracting := [0]
  rhsNonContracting := [1]
  lhsBatch := []
  rhsBatch := []
  wf := dot_S128x128_S128x40_S128x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v87) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v98) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S100000x1 : Shape := ⟨2, ![100000, 1]⟩
abbrev S128x1 : Shape := ⟨2, ![128, 1]⟩
abbrev S1x40 : Shape := ⟨2, ![1, 40]⟩

abbrev nBuf : Space → Nat
  | .hbm => 270
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S128x128, .f32⟩
  | 4 => ⟨S128, .f32⟩
  | 5 => ⟨S128, .f32⟩
  | 6 => ⟨S128x128, .f32⟩
  | 7 => ⟨S128, .f32⟩
  | 8 => ⟨S128, .f32⟩
  | 9 => ⟨S128x128, .f32⟩
  | 10 => ⟨S128x128, .f32⟩
  | 11 => ⟨S128, .f32⟩
  | 12 => ⟨S128x40, .f32⟩
  | 13 => ⟨S40, .f32⟩
  | 14 => ⟨S1x640000, .i32⟩
  | 15 => ⟨S640000, .i32⟩
  | 16 => ⟨S1x640000, .i32⟩
  | 17 => ⟨S640000, .i32⟩
  | 18 => ⟨S100000x128, .f32⟩
  | 19 => ⟨S_, .f32⟩
  | 20 => ⟨S640000, .f32⟩
  | 21 => ⟨S_, .f32⟩
  | 22 => ⟨S100000, .f32⟩
  | 23 => ⟨S640000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S640000, .f32⟩
  | 49 => ⟨S640000, .f32⟩
  | 50 => ⟨S640000x1, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x128, .f32⟩
  | 61 => ⟨S640000x128, .f32⟩
  | 62 => ⟨S_, .f32⟩
  | 63 => ⟨S100000x128, .f32⟩
  | 64 => ⟨S640000x1, .i32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S128, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .f32⟩
  | 101 => ⟨S640000, .f32⟩
  | 102 => ⟨S_, .f32⟩
  | 103 => ⟨S100000, .f32⟩
  | 104 => ⟨S640000x1, .i32⟩
  | 105 => ⟨S100000, .f32⟩
  | 106 => ⟨S_, .f32⟩
  | 107 => ⟨S100000, .f32⟩
  | 108 => ⟨S100000, .f32⟩
  | 109 => ⟨S_, .f32⟩
  | 110 => ⟨S100000, .f32⟩
  | 111 => ⟨S100000, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S100000x128, .f32⟩

abbrev hbmTy0_1 (i : Nat) : BufTy := match i % 128 with
  | 0 => ⟨S640000x1, .i32⟩
  | 1 => ⟨S640000, .f32⟩
  | 2 => ⟨S640000, .f32⟩
  | 3 => ⟨S640000x1, .f32⟩
  | 4 => ⟨S_, .i32⟩
  | 5 => ⟨S640000, .i32⟩
  | 6 => ⟨S640000, .i1⟩
  | 7 => ⟨S_, .i32⟩
  | 8 => ⟨S640000, .i32⟩
  | 9 => ⟨S640000, .i32⟩
  | 10 => ⟨S640000, .i32⟩
  | 11 => ⟨S640000x1, .i32⟩
  | 12 => ⟨S640000x128, .f32⟩
  | 13 => ⟨S640000x128, .f32⟩
  | 14 => ⟨S640000x128, .f32⟩
  | 15 => ⟨S_, .f32⟩
  | 16 => ⟨S100000x128, .f32⟩
  | 17 => ⟨S640000x1, .i32⟩
  | 18 => ⟨S100000x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S100000x128, .f32⟩
  | 28 => ⟨S_, .f32⟩
  | 29 => ⟨S128, .f32⟩
  | 30 => ⟨S_, .f32⟩
  | 31 => ⟨S128, .f32⟩
  | 32 => ⟨S128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S_, .f32⟩
  | 54 => ⟨S640000, .f32⟩
  | 55 => ⟨S_, .f32⟩
  | 56 => ⟨S100000, .f32⟩
  | 57 => ⟨S640000x1, .i32⟩
  | 58 => ⟨S100000, .f32⟩
  | 59 => ⟨S_, .f32⟩
  | 60 => ⟨S100000, .f32⟩
  | 61 => ⟨S100000, .f32⟩
  | 62 => ⟨S_, .f32⟩
  | 63 => ⟨S100000, .f32⟩
  | 64 => ⟨S100000, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000, .f32⟩
  | 83 => ⟨S640000, .f32⟩
  | 84 => ⟨S640000x1, .f32⟩
  | 85 => ⟨S_, .i32⟩
  | 86 => ⟨S640000, .i32⟩
  | 87 => ⟨S640000, .i1⟩
  | 88 => ⟨S_, .i32⟩
  | 89 => ⟨S640000, .i32⟩
  | 90 => ⟨S640000, .i32⟩
  | 91 => ⟨S640000, .i32⟩
  | 92 => ⟨S640000x1, .i32⟩
  | 93 => ⟨S640000x128, .f32⟩
  | 94 => ⟨S640000x128, .f32⟩
  | 95 => ⟨S640000x128, .f32⟩
  | 96 => ⟨S_, .f32⟩
  | 97 => ⟨S100000x128, .f32⟩
  | 98 => ⟨S640000x1, .i32⟩
  | 99 => ⟨S100000x128, .f32⟩
  | 100 => ⟨S_, .f32⟩
  | 101 => ⟨S128x128, .f32⟩
  | 102 => ⟨S100000x1, .i32⟩
  | 103 => ⟨S128x128, .f32⟩
  | 104 => ⟨S_, .f32⟩
  | 105 => ⟨S100000, .f32⟩
  | 106 => ⟨S_, .f32⟩
  | 107 => ⟨S128, .f32⟩
  | 108 => ⟨S100000x1, .i32⟩
  | 109 => ⟨S128, .f32⟩
  | 110 => ⟨S_, .f32⟩
  | 111 => ⟨S128, .f32⟩
  | 112 => ⟨S128, .f32⟩
  | 113 => ⟨S128x1, .f32⟩
  | 114 => ⟨S128x128, .f32⟩
  | 115 => ⟨S128x128, .f32⟩
  | 116 => ⟨S128x128, .f32⟩
  | 117 => ⟨S1x128, .f32⟩
  | 118 => ⟨S128x128, .f32⟩
  | 119 => ⟨S128x128, .f32⟩
  | 120 => ⟨S_, .f32⟩
  | 121 => ⟨S128x128, .f32⟩
  | 122 => ⟨S128x128, .f32⟩
  | 123 => ⟨S128x40, .f32⟩
  | 124 => ⟨S1x40, .f32⟩
  | 125 => ⟨S128x40, .f32⟩
  | 126 => ⟨S128x40, .f32⟩
  | 127 => ⟨S_, .f32⟩
  | _ => ⟨S100000x128, .f32⟩

abbrev hbmTy0_2 (i : Nat) : BufTy := match i % 128 with
  | 0 => ⟨S128, .f32⟩
  | 1 => ⟨S_, .f32⟩
  | 2 => ⟨S128, .f32⟩
  | 3 => ⟨S128, .f32⟩
  | 4 => ⟨S128x1, .f32⟩
  | 5 => ⟨S128x40, .f32⟩
  | 6 => ⟨S128x40, .f32⟩
  | 7 => ⟨S128x40, .f32⟩
  | 8 => ⟨S_, .f32⟩
  | 9 => ⟨S128, .f32⟩
  | 10 => ⟨S128x1, .f32⟩
  | 11 => ⟨S128x1, .f32⟩
  | 12 => ⟨S128x40, .f32⟩
  | 13 => ⟨S128x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call0_cst : Ref sig .tc := ⟨.hbm, 96, rfl⟩
abbrev main_call0_v0 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_16 : Ref sig .tc := ⟨.hbm, 106, rfl⟩
abbrev main_v72 : Ref sig .tc := ⟨.hbm, 107, rfl⟩
abbrev main_v73 : Ref sig .tc := ⟨.hbm, 108, rfl⟩
abbrev main_cst_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_c_19 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_20 : Ref sig .tc := ⟨.hbm, 121, rfl⟩
abbrev main_v83 : Ref sig .tc := ⟨.hbm, 122, rfl⟩
abbrev main_v84 : Ref sig .tc := ⟨.hbm, 123, rfl⟩
abbrev main_c_21 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_22 : Ref sig .tc := ⟨.hbm, 132, rfl⟩
abbrev main_v92 : Ref sig .tc := ⟨.hbm, 133, rfl⟩
abbrev main_v93 : Ref sig .tc := ⟨.hbm, 134, rfl⟩
abbrev main_c_23 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_24 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_25 : Ref sig .tc := ⟨.hbm, 147, rfl⟩
abbrev main_v104 : Ref sig .tc := ⟨.hbm, 148, rfl⟩
abbrev main_cst_26 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_27 : Ref sig .tc := ⟨.hbm, 156, rfl⟩
abbrev main_v111 : Ref sig .tc := ⟨.hbm, 157, rfl⟩
abbrev main_cst_28 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_29 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_call1_cst : Ref sig .tc := ⟨.hbm, 177, rfl⟩
abbrev main_call1_v0 : Ref sig .tc := ⟨.hbm, 178, rfl⟩
abbrev main_v129 : Ref sig .tc := ⟨.hbm, 179, rfl⟩
abbrev main_v130 : Ref sig .tc := ⟨.hbm, 180, rfl⟩
abbrev main_cst_30 : Ref sig .tc := ⟨.hbm, 181, rfl⟩
abbrev main_v131 : Ref sig .tc := ⟨.hbm, 182, rfl⟩
abbrev main_cst_31 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_32 : Ref sig .tc := ⟨.hbm, 187, rfl⟩
abbrev main_v135 : Ref sig .tc := ⟨.hbm, 188, rfl⟩
abbrev main_v136 : Ref sig .tc := ⟨.hbm, 189, rfl⟩
abbrev main_cst_33 : Ref sig .tc := ⟨.hbm, 190, rfl⟩
abbrev main_v137 : Ref sig .tc := ⟨.hbm, 191, rfl⟩
abbrev main_v138 : Ref sig .tc := ⟨.hbm, 192, rfl⟩
abbrev main_c_34 : Ref sig .tc := ⟨.hbm, 193, rfl⟩
abbrev main_v139 : Ref sig .tc := ⟨.hbm, 194, rfl⟩
abbrev main_v140 : Ref sig .tc := ⟨.hbm, 195, rfl⟩
abbrev main_c_35 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_c_36 : Ref sig .tc := ⟨.hbm, 202, rfl⟩
abbrev main_v146 : Ref sig .tc := ⟨.hbm, 203, rfl⟩
abbrev main_v147 : Ref sig .tc := ⟨.hbm, 204, rfl⟩
abbrev main_c_37 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_c_38 : Ref sig .tc := ⟨.hbm, 213, rfl⟩
abbrev main_v155 : Ref sig .tc := ⟨.hbm, 214, rfl⟩
abbrev main_v156 : Ref sig .tc := ⟨.hbm, 215, rfl⟩
abbrev main_c_39 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_cst_40 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_cst_41 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_42 : Ref sig .tc := ⟨.hbm, 232, rfl⟩
abbrev main_v170 : Ref sig .tc := ⟨.hbm, 233, rfl⟩
abbrev main_cst_43 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_cst_44 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_call2_cst : Ref sig .tc := ⟨.hbm, 248, rfl⟩
abbrev main_call2_v0 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_call3_cst : Ref sig .tc := ⟨.hbm, 255, rfl⟩
abbrev main_call3_v0 : Ref sig .tc := ⟨.hbm, 256, rfl⟩
abbrev main_call3_cst_0 : Ref sig .tc := ⟨.hbm, 257, rfl⟩
abbrev main_call3_v1 : Ref sig .tc := ⟨.hbm, 258, rfl⟩
abbrev main_call3_v2 : Ref sig .tc := ⟨.hbm, 259, rfl⟩
abbrev main_call3_v3 : Ref sig .tc := ⟨.hbm, 260, rfl⟩
abbrev main_call3_v4 : Ref sig .tc := ⟨.hbm, 261, rfl⟩
abbrev main_call3_v5 : Ref sig .tc := ⟨.hbm, 262, rfl⟩
abbrev main_call3_v6 : Ref sig .tc := ⟨.hbm, 263, rfl⟩
abbrev main_call3_cst_1 : Ref sig .tc := ⟨.hbm, 264, rfl⟩
abbrev main_call3_v7 : Ref sig .tc := ⟨.hbm, 265, rfl⟩
abbrev main_call3_v8 : Ref sig .tc := ⟨.hbm, 266, rfl⟩
abbrev main_call3_v9 : Ref sig .tc := ⟨.hbm, 267, rfl⟩
abbrev main_call3_v10 : Ref sig .tc := ⟨.hbm, 268, rfl⟩
abbrev main_v188 : Ref sig .tc := ⟨.hbm, 269, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S40_S1x40_1 : S40.BroadcastsInDim S1x40 (![1] : Fin 1 → Fin S1x40.rank)
  bcast_S1x40_S128x40_0_1 : S1x40.BroadcastsInDim S128x40 (![0, 1] : Fin 2 → Fin S128x40.rank)
  reducesTo_S128x40_S128_d1 : S128x40.ReducesTo [1] S128
  bcast_S128x1_S128x40_0_1 : S128x1.BroadcastsInDim S128x40 (![0, 1] : Fin 2 → Fin S128x40.rank)
  dot_S100000x128_S128x128_S100000x128_1_0_0_1_n_n_wf : DotDims.WF S100000x128 S128x128 S100000x128 [1] [0] [0] [1] [] []
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x40_S128x40_1_0_0_1_n_n_wf : DotDims.WF S128x128 S128x40 S128x40 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x40_S128x40_1_0_0_1_n_n : DotDims S128x128 S128x40 S128x40 where
  lhsContracting := [1]
  rhsContracting := [0]
  lhsNonContracting := [0]
  rhsNonContracting := [1]
  lhsBatch := []
  rhsBatch := []
  wf := dot_S128x128_S128x40_S128x40_1_0_0_1_n_n_wf

class Facts : Prop extends Facts₀ where

variable [Facts]
-- ==== Proof.KernelRun.lean ====
/-
  The idealized kernel's run, with what it leaves in memory.

  @main is sixteen segments: stretches of host operations and seven kernel launches. Run from a memory `m`, every
  weakly fair execution terminates without a fault, and at the end every buffer that outlives @main holds the
  contents `W16 m ρ c` — the launch memory carried through the segments in order: a stretch applies its operations,
  a launch replaces its output arrays by what its grid points wrote back and leaves every other buffer alone.
  In particular the result buffer ends at `W16 m ρ c` of itself and the fourteen arguments end as launched.
-/
import proofs.«107305_j88502096101881_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that outlives @main ends at
    the contents the sixteen segments leave in it. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun _ h => h)

/-- The same run read at the result and the arguments: the result buffer ends at what the segments leave in it, each
    argument as launched. -/
theorem run_result : θ_run defs (onTc (τ := τ) (main (F := F))) ⟨m, fun _ => 0, ρ⟩ (fun r => ∀ c : Dev nD,
      r.2.mem ((c.tc : Thread nD τ).loc main_v156) = W16 m ρ c (Proc.devRef .tc main_v156)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v156 (by decide)),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c),
     (h c _ (mem_uc main_arg11 (by decide))).trans (W16_main_arg11 m ρ c),
     (h c _ (mem_uc main_arg12 (by decide))).trans (W16_main_arg12 m ρ c),
     (h c _ (mem_uc main_arg13 (by decide))).trans (W16_main_arg13 m ρ c)⟩) (run_all m ρ)

end Cert.KernelRun

end
-- ==== Proof.Layers.lean ====
/-
  The network both programs compute, layer by layer, as functions of a layer's input.

  One graph-convolution layer is  agg E (mm x W) : the node features times the weight matrix (`mm`), then for every
  edge (row, col) of E the row node's feature vector scaled by  d(row)^(-1/2) · d(col)^(-1/2)  (d = 1 + the number of edges
  whose row is that node) and summed into the col node (`agg`). Negative node indices are wrapped by adding the node count,
  exactly as the indexing does. `bnRelu` is batch normalisation over the node axis in its centred form — the mean of each
  feature column, the mean of the squared deviations from it — followed by scale, shift and `max · 0`. `tail` pools the
  node features of each graph (sums divided by the clamped node counts), applies the two dense layers and the
  log-softmax. `net` is their composition, three convolutions deep.

  Every function is spelt with the host operations themselves, so that it IS, by unfolding, the corresponding stretch of
  either program.
-/
import proofs.«107305_j88502096101881_1_alg».proof.Proof.Gen.ReferenceIdeal

noncomputable section

namespace Cert.Layers

open Cert.ReferenceIdeal Cert.ReferenceIdeal.Gen Idealize.ShloMosaic Idealize.ShloMosaic.TcCoe Idealize.SL.Sem Idealize.ShloMosaic.StableHlo

variable {F : FTy → Type} [FloatOps F]

/-- Node features times a weight matrix: entry (n, j) is the sum over k of x (n, k) · w (k, j). -/
def mm (x0 : (⟨S100000x128, .f32⟩ : BufTy).Contents (Elt F)) (x3 : (⟨S128x128, .f32⟩ : BufTy).Contents (Elt F)) : (⟨S100000x128, .f32⟩ : BufTy).Contents (Elt F) :=
  Host.dotGeneral dot_S100000x128_S128x128_S100000x128_1_0_0_1_n_n none (x0) (x3)

/-- The degree-normalised sum over edges of a layer's features `h`: into each node, the scaled features of the
    row nodes of the edges that end in it. -/
def agg (x1 : (⟨S2x640000, .i32⟩ : BufTy).Contents (Elt F)) (h : (⟨S100000x128, .f32⟩ : BufTy).Contents (Elt F)) : (⟨S100000x128, .f32⟩ : BufTy).Contents (Elt F) :=
  (Host.scatterAdd scatter_S100000x128_S640000x1_S640000x128_1_0_0_1 (broadcastInDim S100000x128 ![] bcast_S_S100000x128 (constant S_ .f32 0x00000000#32)) (broadcastInDim S640000x1 ![0] bcast_S640000_S640000x1_0 (shapeCast _ (extractStridedSlice S1x640000 ![1, 0] (x1) slices_S2x640000_S1x640000_1_0) shapeCasts_S1x640000_S640000)) (mulf (broadcastInDim S640000x128 ![0, 1] bcast_S640000x1_S640000x128_0_1 (broadcastInDim S640000x1 ![0] bcast_S640000_S640000x1_0 (mulf (Host.gather gather_S100000_S640000x1_S640000_n_0_n_n_0_1_1 (Host.powf (addf (Host.scatterAdd scatter_S100000_S640000x1_S640000_n_0_0_1 (broadcastInDim S100000 ![] bcast_S_S100000 (constant S_ .f32 0x00000000#32)) (broadcastInDim S640000x1 ![0] bcast_S640000_S640000x1_0 (shapeCast _ (extractStridedSlice S1x640000 ![0, 0] (x1) slices_S2x640000_S1x640000_0_0) shapeCasts_S1x640000_S640000)) (broadcastInDim S640000 ![] bcast_S_S640000 (constant S_ .f32 0x3F800000#32))) (broadcastInDim S100000 ![] bcast_S_S100000 (constant S_ .f32 0x3F800000#32))) (broadcastInDim S100000 ![] bcast_S_S100000 (constant S_ .f32 0xBF000000#32))) (broadcastInDim S640000x1 ![0] bcast_S640000_S640000x1_0 (select (cmpi .slt (shapeCast _ (extractStridedSlice S1x640000 ![0, 0] (x1) slices_S2x640000_S1x640000_0_0) shapeCasts_S1x640000_S640000) (broadcastInDim S640000 ![] bcast_S_S640000 (constantI S_ 32 0#32))) (addi (shapeCast _ (extractStridedSlice S1x640000 ![0, 0] (x1) slices_S2x640000_S1x640000_0_0) shapeCasts_S1x640000_S640000) (broadcastInDim S640000 ![] bcast_S_S640000 (constantI S_ 32 100000#32))) (shapeCast _ (extractStridedSlice S1x640000 ![0, 0] (x1) slices_S2x640000_S1x640000_0_0) shapeCasts_S1x640000_S640000)))) (Host.gather gather_S100000_S640000x1_S640000_n_0_n_n_0_1_1 (Host.powf (addf (Host.scatterAdd scatter_S100000_S640000x1_S640000_n_0_0_1 (broadcastInDim S100000 ![] bcast_S_S100000 (constant S_ .f32 0x00000000#32)) (broadcastInDim S640000x1 ![0] bcast_S640000_S640000x1_0 (shapeCast _ (extractStridedSlice S1x640000 ![0, 0] (x1) slices_S2x640000_S1x640000_0_0) shapeCasts_S1x640000_S640000)) (broadcastInDim S640000 ![] bcast_S_S640000 (constant S_ .f32 0x3F800000#32))) (broadcastInDim S100000 ![] bcast_S_S100000 (constant S_ .f32 0x3F800000#32))) (broadcastInDim S100000 ![] bcast_S_S100000 (constant S_ .f32 0xBF000000#32))) (broadcastInDim S640000x1 ![0] bcast_S640000_S640000x1_0 (select (cmpi .slt (shapeCast _ (extractStridedSlice S1x640000 ![1, 0] (x1) slices_S2x640000_S1x640000_1_0) shapeCasts_S1x640000_S640000) (broadcastInDim S640000 ![] bcast_S_S640000 (constantI S_ 32 0#32))) (addi (shapeCast _ (extractStridedSlice S1x640000 ![1, 0] (x1) slices_S2x640000_S1x640000_1_0) shapeCasts_S1x640000_S640000) (broadcastInDim S640000 ![] bcast_S_S640000 (constantI S_ 32 100000#32))) (shapeCast _ (extractStridedSlice S1x640000 ![1, 0] (x1) slices_S2x640000_S1x640000_1_0) shapeCasts_S1x640000_S640000))))))) (Host.gather gather_S100000x128_S640000x1_S640000x128_1_0_n_n_0_1_1128 h (broadcastInDim S640000x1 ![0] bcast_S640000_S640000x1_0 (select (cmpi .slt (shapeCast _ (extractStridedSlice S1x640000 ![0, 0] (x1) slices_S2x640000_S1x640000_0_0) shapeCasts_S1x640000_S640000) (broadcastInDim S640000 ![] bcast_S_S640000 (constantI S_ 32 0#32))) (addi (shapeCast _ (extractStridedSlice S1x640000 ![0, 0] (x1) slices_S2x640000_S1x640000_0_0) shapeCasts_S1x640000_S640000) (broadcastInDim S640000 ![] bcast_S_S640000 (constantI S_ 32 100000#32))) (shapeCast _ (extractStridedSlice S1x640000 ![0, 0] (x1) slices_S2x640000_S1x640000_0_0) shapeCasts_S1x640000_S640000))))))

/-- Batch normalisation over the node axis, centred form, then scale `x4`, shift `x5` and `max · 0`. -/
def bnRelu (a : (⟨S100000x128, .f32⟩ : BufTy).Contents (Elt F)) (x4 x5 : (⟨S128, .f32⟩ : BufTy).Contents (Elt F)) : (⟨S100000x128, .f32⟩ : BufTy).Contents (Elt F) :=
  (maximumf (addf (mulf (mulf (subf a (broadcastInDim S100000x128 ![0, 1] bcast_S1x128_S100000x128_0_1 (broadcastInDim S1x128 ![1] bcast_S128_S1x128_1 (Host.divf (Host.reduceAdd a (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (Host.divf (Host.reduceAdd (mulf (subf a (broadcastInDim S100000x128 ![0, 1] bcast_S1x128_S100000x128_0_1 (broadcastInDim S1x128 ![1] bcast_S128_S1x128_1 (Host.divf (Host.reduceAdd a (constant S_ .f32 0x00000000#32) reducesTo_S100000x128_S128_d0 h_S_) (broadcastInDim S128 ![] bcast_S_S128 (constant S_ .f32 0x47C35000#32)))))) (subf a (broadcastInDim S100000x128 ![0, 1] bcast_S1x128_S100000x128_0_1 (broadcastInDim S1x128 ![1] bcast_S128_S1x128_1 (Host.divf (Host.reduceAdd a (constant S_ .f32 0x00000000#32) reducesTo_S100000x128_S128_d0 h_S_) (broadcastInDim S128 ![] bcast_S_S128 (constant S_ .f32 0x47C35000#32))))))) (constant S_ .f32 0x00000000#32) reducesTo_S100000x128_S128_d0 h_S_) (broadcastInDim S128 ![] bcast_S_S128 (constant S_ .f32 0x47C35000#32))) (broadcastInDim S128 ![] bcast_S_S128 (constant S_ .f32 0x3727C5AC#32))))))) (broadcastInDim S100000x128 ![0, 1] bcast_S1x128_S100000x128_0_1 (broadcastInDim S1x128 ![1] bcast_S128_S1x128_1 (x4)))) (broadcastInDim S100000x128 ![0, 1] bcast_S1x128_S100000x128_0_1 (broadcastInDim S1x128 ![1] bcast_S128_S1x128_1 (x5)))) (broadcastInDim S100000x128 ![] bcast_S_S100000x128 (constant S_ .f32 0x00000000#32)))

/-- Mean pooling per graph (`x2` names each node's graph), two dense layers and the log-softmax. -/
def tail (a : (⟨S100000x128, .f32⟩ : BufTy).Contents (Elt F)) (x2 : (⟨S100000, .i32⟩ : BufTy).Contents (Elt F)) (x10 : (⟨S128x128, .f32⟩ : BufTy).Contents (Elt F)) (x11 : (⟨S128, .f32⟩ : BufTy).Contents (Elt F)) (x12 : (⟨S128x40, .f32⟩ : BufTy).Contents (Elt F)) (x13 : (⟨S40, .f32⟩ : BufTy).Contents (Elt F)) : (⟨S128x40, .f32⟩ : BufTy).Contents (Elt F) :=
  (subf (subf (addf (Host.dotGeneral dot_S128x128_S128x40_S128x40_1_0_0_1_n_n none (maximumf (addf (Host.dotGeneral dot_S128x128_S128x128_S128x128_1_0_0_1_n_n none (Host.divf (Host.scatterAdd scatter_S128x128_S100000x1_S100000x128_1_0_0_1 (broadcastInDim S128x128 ![] bcast_S_S128x128 (constant S_ .f32 0x00000000#32)) (broadcastInDim S100000x1 ![0] bcast_S100000_S100000x1_0 (x2)) a) (broadcastInDim S128x128 ![0, 1] bcast_S128x1_S128x128_0_1 (broadcastInDim S128x1 ![0] bcast_S128_S128x1_0 (maximumf (Host.scatterAdd scatter_S128_S100000x1_S100000_n_0_0_1 (broadcastInDim S128 ![] bcast_S_S128 (constant S_ .f32 0x00000000#32)) (broadcastInDim S100000x1 ![0] bcast_S100000_S100000x1_0 (x2)) (broadcastInDim S100000 ![] bcast_S_S100000 (constant S_ .f32 0x3F800000#32))) (broadcastInDim S128 ![] bcast_S_S128 (constant S_ .f32 0x3F800000#32)))))) (x10)) (broadcastInDim S128x128 ![0, 1] bcast_S1x128_S128x128_0_1 (broadcastInDim S1x128 ![1] bcast_S128_S1x128_1 (x11)))) (broadcastInDim S128x128 ![] bcast_S_S128x128 (constant S_ .f32 0x00000000#32))) (x12)) (broadcastInDim S128x40 ![0, 1] bcast_S1x40_S128x40_0_1 (broadcastInDim S1x40 ![1] bcast_S40_S1x40_1 (x13)))) (broadcastInDim S128x40 ![0, 1] bcast_S128x1_S128x40_0_1 (broadcastInDim S128x1 ![0] bcast_S128_S128x1_0 (maximumf (broadcastInDim S128 ![] bcast_S_S128 (constant S_ .f32 0xFF800000#32)) (Host.reduce FloatOps.maximumf (addf (Host.dotGeneral dot_S128x128_S128x40_S128x40_1_0_0_1_n_n none (maximumf (addf (Host.dotGeneral dot_S128x128_S128x128_S128x128_1_0_0_1_n_n none (Host.divf (Host.scatterAdd scatter_S128x128_S100000x1_S100000x128_1_0_0_1 (broadcastInDim S128x128 ![] bcast_S_S128x128 (constant S_ .f32 0x00000000#32)) (broadcastInDim S100000x1 ![0] bcast_S100000_S100000x1_0 (x2)) a) (broadcastInDim S128x128 ![0, 1] bcast_S128x1_S128x128_0_1 (broadcastInDim S128x1 ![0] bcast_S128_S128x1_0 (maximumf (Host.scatterAdd scatter_S128_S100000x1_S100000_n_0_0_1 (broadcastInDim S128 ![] bcast_S_S128 (constant S_ .f32 0x00000000#32)) (broadcastInDim S100000x1 ![0] bcast_S100000_S100000x1_0 (x2)) (broadcastInDim S100000 ![] bcast_S_S100000 (constant S_ .f32 0x3F800000#32))) (broadcastInDim S128 ![] bcast_S_S128 (constant S_ .f32 0x3F800000#32)))))) (x10)) (broadcastInDim S128x128 ![0, 1] bcast_S1x128_S128x128_0_1 (broadcastInDim S1x128 ![1] bcast_S128_S1x128_1 (x11)))) (broadcastInDim S128x128 ![] bcast_S_S128x128 (constant S_ .f32 0x00000000#32))) (x12)) (broadcastInDim S128x40 ![0, 1] bcast_S1x40_S128x40_0_1 (broadcastInDim S1x40 ![1] bcast_S40_S1x40_1 (x13)))) (constant S_ .f32 0xFF800000#32) reducesTo_S128x40_S128_d1 h_S_))))) (broadcastInDim S128x40 ![0, 1] bcast_S128x1_S128x40_0_1 (Host.log (broadcastInDim S128x1 ![0] bcast_S128_S128x1_0 (Host.reduceAdd (Host.exp (subf (addf (Host.dotGeneral dot_S128x128_S128x40_S128x40_1_0_0_1_n_n none (maximumf (addf (Host.dotGeneral dot_S128x128_S128x128_S128x128_1_0_0_1_n_n none (Host.divf (Host.scatterAdd scatter_S128x128_S100000x1_S100000x128_1_0_0_1 (broadcastInDim S128x128 ![] bcast_S_S128x128 (constant S_ .f32 0x00000000#32)) (broadcastInDim S100000x1 ![0] bcast_S100000_S100000x1_0 (x2)) a) (broadcastInDim S128x128 ![0, 1] bcast_S128x1_S128x128_0_1 (broadcastInDim S128x1 ![0] bcast_S128_S128x1_0 (maximumf (Host.scatterAdd scatter_S128_S100000x1_S100000_n_0_0_1 (broadcastInDim S128 ![] bcast_S_S128 (constant S_ .f32 0x00000000#32)) (broadcastInDim S100000x1 ![0] bcast_S100000_S100000x1_0 (x2)) (broadcastInDim S100000 ![] bcast_S_S100000 (constant S_ .f32 0x3F800000#32))) (broadcastInDim S128 ![] bcast_S_S128 (constant S_ .f32 0x3F800000#32)))))) (x10)) (broadcastInDim S128x128 ![0, 1] bcast_S1x128_S128x128_0_1 (broadcastInDim S1x128 ![1] bcast_S128_S1x128_1 (x11)))) (broadcastInDim S128x128 ![] bcast_S_S128x128 (constant S_ .f32 0x00000000#32))) (x12)) (broadcastInDim S128x40 ![0, 1] bcast_S1x40_S128x40_0_1 (broadcastInDim S1x40 ![1] bcast_S40_S1x40_1 (x13)))) (broadcastInDim S128x40 ![0, 1] bcast_S128x1_S128x40_0_1 (broadcastInDim S128x1 ![0] bcast_S128_S128x1_0 (maximumf (broadcastInDim S128 ![] bcast_S_S128 (constant S_ .f32 0xFF800000#32)) (Host.reduce FloatOps.maximumf (addf (Host.dotGeneral dot_S128x128_S128x40_S128x40_1_0_0_1_n_n none (maximumf (addf (Host.dotGeneral dot_S128x128_S128x128_S128x128_1_0_0_1_n_n none (Host.divf (Host.scatterAdd scatter_S128x128_S100000x1_S100000x128_1_0_0_1 (broadcastInDim S128x128 ![] bcast_S_S128x128 (constant S_ .f32 0x00000000#32)) (broadcastInDim S100000x1 ![0] bcast_S100000_S100000x1_0 (x2)) a) (broadcastInDim S128x128 ![0, 1] bcast_S128x1_S128x128_0_1 (broadcastInDim S128x1 ![0] bcast_S128_S128x1_0 (maximumf (Host.scatterAdd scatter_S128_S100000x1_S100000_n_0_0_1 (broadcastInDim S128 ![] bcast_S_S128 (constant S_ .f32 0x00000000#32)) (broadcastInDim S100000x1 ![0] bcast_S100000_S100000x1_0 (x2)) (broadcastInDim S100000 ![] bcast_S_S100000 (constant S_ .f32 0x3F800000#32))) (broadcastInDim S128 ![] bcast_S_S128 (constant S_ .f32 0x3F800000#32)))))) (x10)) (broadcastInDim S128x128 ![0, 1] bcast_S1x128_S128x128_0_1 (broadcastInDim S1x128 ![1] bcast_S128_S1x128_1 (x11)))) (broadcastInDim S128x128 ![] bcast_S_S128x128 (constant S_ .f32 0x00000000#32))) (x12)) (broadcastInDim S128x40 ![0, 1] bcast_S1x40_S128x40_0_1 (broadcastInDim S1x40 ![1] bcast_S40_S1x40_1 (x13)))) (constant S_ .f32 0xFF800000#32) reducesTo_S128x40_S128_d1 h_S_)))))) (constant S_ .f32 0x00000000#32) reducesTo_S128x40_S128_d1 h_S_)))))

/-- The whole network: three convolutions, the first two normalised, then the head. -/
def net (x0 : (⟨S100000x128, .f32⟩ : BufTy).Contents (Elt F)) (x1 : (⟨S2x640000, .i32⟩ : BufTy).Contents (Elt F)) (x2 : (⟨S100000, .i32⟩ : BufTy).Contents (Elt F)) (x3 : (⟨S128x128, .f32⟩ : BufTy).Contents (Elt F)) (x4 x5 : (⟨S128, .f32⟩ : BufTy).Contents (Elt F)) (x6 : (⟨S128x128, .f32⟩ : BufTy).Contents (Elt F)) (x7 x8 : (⟨S128, .f32⟩ : BufTy).Contents (Elt F)) (x9 : (⟨S128x128, .f32⟩ : BufTy).Contents (Elt F))
    (x10 : (⟨S128x128, .f32⟩ : BufTy).Contents (Elt F)) (x11 : (⟨S128, .f32⟩ : BufTy).Contents (Elt F)) (x12 : (⟨S128x40, .f32⟩ : BufTy).Contents (Elt F)) (x13 : (⟨S40, .f32⟩ : BufTy).Contents (Elt F)) : (⟨S128x40, .f32⟩ : BufTy).Contents (Elt F) :=
  tail (agg x1 (mm (bnRelu (agg x1 (mm (bnRelu (agg x1 (mm x0 x3)) x4 x5) x6)) x7 x8) x9)) x2 x10 x11 x12 x13

end Cert.Layers

end
-- ==== Proof.RefStages.lean ====
/-
  The reference program's result is the network of `Cert.Layers` applied to its fourteen arguments.

  The reference's run ends with its result buffer at one composed term of the arguments: the host operations of @main
  nested in program order. `Cert.Layers.net` is spelt with the same operations, layer by layer, so the two terms are one
  by unfolding the layer functions.
-/
import proofs.«107305_j88502096101881_1_alg».proof.Proof.RefRun
import proofs.«107305_j88502096101881_1_alg».proof.Proof.Layers

noncomputable section

namespace Cert.RefStages

open Cert.ReferenceIdeal Cert.ReferenceIdeal.Gen Cert.Layers
open Idealize.ShloMosaic Idealize.ShloMosaic.TcCoe Idealize.SL.Sem Idealize.ShloMosaic.StableHlo

variable {F : FTy → Type} [FloatOps F]

set_option maxRecDepth 16384 in
set_option maxHeartbeats 102400000 in
/-- The reference's composed result term is the network of the launch contents of its arguments. -/
theorem result_eq_net (m : (ℓ : Loc nD τ sig) → Buf (Elt F) ℓ) (c : Dev nD) :
    Cert.ReferenceIdeal.ValueP.res_main_v188 (F := F) m c
      = net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.ValueP.res_main_v188 net tail agg bnRelu mm
  rfl

end Cert.RefStages

end
-- ==== Proof.KLayers.lean ====
/-
  What the kernel's three kinds of launch compute, index by index, on the extended reals.

  `sumCols a` and `sumSqCols a` are, for each of the 128 feature columns, the sum over the 100000 nodes of the column's
  entries and of their squares, laid out as a 1 × 128 row. `bnPoint a μ v g b` is the normalisation the kernel applies to
  entry (n, j):  max (((a (n, j) − μ j) · rsqrt (v j + ε)) · g j + b j) 0,  with μ, v, g, b rows of 128 and ε the
  float 1e-5. The linear map `x · w` is `Cert.Layers.mm`.
-/
import proofs.«107305_j88502096101881_1_alg».proof.Proof.Gen.KernelIdeal
import Idealize.ShloMosaic.Lib.ValueIdx
import Idealize.ShloMosaic.PureOps.Ideal.Laws

noncomputable section

namespace Cert.KLayers

open Cert.KernelIdeal Cert.KernelIdeal.Gen Idealize.ShloMosaic Idealize.ShloMosaic.TcCoe Idealize.ShloMosaic.ValueIdx
open scoped BigOperators

/-- Column `j` of a 1 × 128 row. -/
abbrev rowAt (j : Fin 128) : S1x128.Idx := ix2 (0 : Fin 1) j

/-- The feature column of an entry of the 100000 × 128 array. -/
abbrev colOf (i : S100000x128.Idx) : Fin 128 := ⟨(i 1).val, (i 1).isLt⟩

/-- The feature column of an entry of a 1 × 128 row. -/
abbrev colOfRow (y : S1x128.Idx) : Fin 128 := ⟨(y 1).val, (y 1).isLt⟩

/-- Per feature column, the sum of the column over the 100000 nodes. -/
def sumCols (a : S100000x128.Idx → EReal) : S1x128.Idx → EReal :=
  fun y => ∑ r : Fin 100000, a (ix2 r (colOfRow y))

/-- Per feature column, the sum of the squares of the column over the 100000 nodes. -/
def sumSqCols (a : S100000x128.Idx → EReal) : S1x128.Idx → EReal :=
  fun y => ∑ r : Fin 100000, a (ix2 r (colOfRow y)) * a (ix2 r (colOfRow y))

/-- The kernel's normalisation of one entry from the column's mean `μ`, variance `v`, scale `g` and shift `b`. -/
def bnPoint (a : S100000x128.Idx → EReal) (μ v g b : S1x128.Idx → EReal) : S100000x128.Idx → EReal :=
  fun i => max ((((a i - μ (rowAt (colOf i))) * Ideal.rsqrt (v (rowAt (colOf i)) + Ideal.ofBits .f32 0x3727C5AC#32))
      * g (rowAt (colOf i))) + b (rowAt (colOf i))) (Ideal.ofBits .f32 0x00000000#32)

end Cert.KLayers

end
-- ==== Proof.KNet.lean ====
/-
  The kernel's network, layer by layer, on the extended reals.

  The kernel normalises a layer `a` from the two column sums its statistics launch accumulates:  the mean row is
  `sumCols a / 100000`, the variance row  `sumSqCols a / 100000 − mean · mean`  (the uncentred form), and each entry is
  then normalised, scaled by `g`, shifted by `b` and clamped at 0 (`bnPoint`). Everything else — the linear maps, the
  aggregation over edges, the head — is the same function as in `Cert.Layers`. `netK` is the kernel's composition.
-/
import proofs.«107305_j88502096101881_1_alg».proof.Proof.Layers
import proofs.«107305_j88502096101881_1_alg».proof.Proof.KLayers

noncomputable section

namespace Cert.KNet

open Cert.KernelIdeal Cert.KernelIdeal.Gen Idealize.ShloMosaic Idealize.ShloMosaic.TcCoe Idealize.SL.Sem Idealize.ShloMosaic.StableHlo
open Cert.Layers Cert.KLayers

/-- A row of 128 column sums divided by the node count 100000 (the host's quotient by the splat literal). -/
def meanRow (s : (⟨S1x128, .f32⟩ : BufTy).Contents (Elt Ideal)) : (⟨S1x128, .f32⟩ : BufTy).Contents (Elt Ideal) :=
  Host.divf (F := Ideal) s (broadcastInDim S1x128 ![] bcast_S_S1x128 (constant (F := Ideal) S_ .f32 0x47C35000#32))

/-- The uncentred variance row: the mean of the squares minus the square of the mean. -/
def varRow (s q : (⟨S1x128, .f32⟩ : BufTy).Contents (Elt Ideal)) : (⟨S1x128, .f32⟩ : BufTy).Contents (Elt Ideal) :=
  subf (F := Ideal) (φ := .f32) (meanRow q) (mulf (F := Ideal) (φ := .f32) (meanRow s) (meanRow s))

/-- A vector of 128 laid out as a 1 × 128 row. -/
def asRow (g : (⟨S128, .f32⟩ : BufTy).Contents (Elt Ideal)) : (⟨S1x128, .f32⟩ : BufTy).Contents (Elt Ideal) :=
  shapeCast _ g shapeCasts_S128_S1x128

/-- The kernel's normalised layer: `bnPoint` at the kernel's mean and variance rows. -/
def bnK (a : (⟨S100000x128, .f32⟩ : BufTy).Contents (Elt Ideal)) (g b : (⟨S128, .f32⟩ : BufTy).Contents (Elt Ideal)) : (⟨S100000x128, .f32⟩ : BufTy).Contents (Elt Ideal) :=
  bnPoint a (meanRow (sumCols a)) (varRow (sumCols a) (sumSqCols a)) (asRow g) (asRow b)

/-- The kernel's whole network. -/
def netK (x0 : (⟨S100000x128, .f32⟩ : BufTy).Contents (Elt Ideal)) (x1 : (⟨S2x640000, .i32⟩ : BufTy).Contents (Elt Ideal)) (x2 : (⟨S100000, .i32⟩ : BufTy).Contents (Elt Ideal)) (x3 : (⟨S128x128, .f32⟩ : BufTy).Contents (Elt Ideal)) (x4 x5 : (⟨S128, .f32⟩ : BufTy).Contents (Elt Ideal)) (x6 : (⟨S128x128, .f32⟩ : BufTy).Contents (Elt Ideal)) (x7 x8 : (⟨S128, .f32⟩ : BufTy).Contents (Elt Ideal)) (x9 : (⟨S128x128, .f32⟩ : BufTy).Contents (Elt Ideal))
    (x10 : (⟨S128x128, .f32⟩ : BufTy).Contents (Elt Ideal)) (x11 : (⟨S128, .f32⟩ : BufTy).Contents (Elt Ideal)) (x12 : (⟨S128x40, .f32⟩ : BufTy).Contents (Elt Ideal)) (x13 : (⟨S40, .f32⟩ : BufTy).Contents (Elt Ideal)) : (⟨S128x40, .f32⟩ : BufTy).Contents (Elt Ideal) :=
  tail (F := Ideal) (agg (F := Ideal) x1 (mm (F := Ideal) (bnK (agg (F := Ideal) x1 (mm (F := Ideal) (bnK (agg (F := Ideal) x1 (mm (F := Ideal) x0 x3)) x4 x5) x6)) x7 x8) x9)) x2 x10 x11 x12 x13

end Cert.KNet

end
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.FinArr.lean ====
/-
  An array of extended reals is FINITE when every entry is a real number.
-/
import proofs.«107305_j88502096101881_1_alg».proof.Proof.LibERealSums

namespace Cert

/-- Every entry of the array is a finite extended real. -/
def FinArr {ι : Type*} (a : ι → EReal) : Prop := ∀ i, Cert.LibERealSums.IsFin (a i)

end Cert
-- ==== Proof.LibBatchNorm.lean ====
/-
  General facts about the extended reals used by a normalisation over a batch: division by a nonzero real, the
  maximum, the power and the reciprocal square root keep finite values finite; the two forms of the (biased)
  variance,  E[x²] - E[x]²  and  E[(x - E[x])²],  agree on finite data; the centred form is a finite nonnegative
  real, so its reciprocal square root after adding a positive real is finite; and a few single-precision literals
  as the reals they denote.
-/
import proofs.«107305_j88502096101881_1_alg».proof.Proof.LibERealSums
import Idealize.ShloMosaic.PureOps.Ideal

noncomputable section

open scoped BigOperators

namespace Cert.LibBatchNorm

open Cert.LibERealSums Idealize.ShloMosaic

/-! ## Operations that keep finite values finite -/

/-- A finite extended real divided by a nonzero real is finite. -/
theorem isFin_div_coe {x : EReal} (hx : IsFin x) {y : ℝ} (hy : y ≠ 0) : IsFin (Ideal.div x (y : EReal)) := by
  rw [Ideal.div_coe hy]
  exact hx.mul (isFin_coe _)

/-- The maximum of two finite extended reals is finite. -/
theorem isFin_max {x y : EReal} (hx : IsFin x) (hy : IsFin y) : IsFin (max x y) := by
  rcases max_choice x y with h | h <;> rw [h] <;> assumption

/-- A finite extended real raised to a finite extended real power is finite (it is the real power). -/
theorem isFin_pow {x y : EReal} (hx : IsFin x) (hy : IsFin y) : IsFin (Ideal.pow x y) := by
  obtain ⟨r, rfl⟩ := hx.exists_coe
  obtain ⟨s, rfl⟩ := hy.exists_coe
  rw [Ideal.pow_coe_coe]
  exact isFin_coe _

/-- The reciprocal square root of a positive real is finite. -/
theorem isFin_rsqrt_of_pos {r : ℝ} (hr : 0 < r) : IsFin (Ideal.rsqrt (r : EReal)) := by
  rw [Ideal.rsqrt_coe, if_neg (not_lt.mpr hr.le), if_neg hr.ne']
  exact isFin_coe _

/-! ## Single-precision literals -/

/-- The single-precision word `0x47C35000` denotes `100000`. -/
theorem ofBits_1e5 : Ideal.ofBits .f32 0x47C35000#32 = ((100000 : ℝ) : EReal) := by
  simp [Ideal.ofBits, Ideal.ieee, -EReal.coe_mul]; norm_num

/-- The single-precision word `0x3F800000` denotes `1`. -/
theorem ofBits_one : Ideal.ofBits .f32 0x3F800000#32 = ((1 : ℝ) : EReal) := by
  simp [Ideal.ofBits, Ideal.ieee, -EReal.coe_mul]; norm_num

/-- The single-precision word `0xBF000000` denotes `-1/2`. -/
theorem ofBits_neg_half : Ideal.ofBits .f32 0xBF000000#32 = ((-(1/2) : ℝ) : EReal) := by
  simp [Ideal.ofBits, Ideal.ieee, -EReal.coe_mul]; norm_num

/-- The single-precision word `0x3727C5AC` denotes a positive real (about `1e-5`). -/
theorem ofBits_eps : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-! ## The two forms of the variance -/

/-- The coercion of the reals into the extended reals commutes with a finite sum. -/
theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert i s hi ih => rw [Finset.sum_insert hi, Finset.sum_insert hi, EReal.coe_add, ih]

/-- Over the reals: the sum of the squared deviations from `m` is  `∑ u² - 2·m·∑ u + n·m²`,  `n` the number of terms. -/
theorem real_sum_centred {ι : Type*} [Fintype ι] (u : ι → ℝ) (m : ℝ) :
    ∑ i, (u i - m) * (u i - m) = (∑ i, u i * u i) - 2 * m * (∑ i, u i) + (Fintype.card ι : ℝ) * (m * m) := by
  have h1 : ∀ i, (u i - m) * (u i - m) = u i * u i - 2 * m * u i + m * m := fun i => by ring
  simp only [h1]
  rw [Finset.sum_add_distrib, Finset.sum_sub_distrib, ← Finset.mul_sum, Finset.sum_const, Finset.card_univ,
    nsmul_eq_mul]

/-- Over the reals: the mean of the squares minus the square of the mean is the mean of the squared deviations
    from the mean. -/
theorem real_var_two_forms {ι : Type*} [Fintype ι] (u : ι → ℝ) (M : ℝ) (hM : M ≠ 0)
    (hcard : (Fintype.card ι : ℝ) = M) :
    (∑ i, u i * u i) * (1 / M) - (∑ i, u i) * (1 / M) * ((∑ i, u i) * (1 / M))
      = (∑ i, (u i - (∑ i, u i) * (1 / M)) * (u i - (∑ i, u i) * (1 / M))) * (1 / M) := by
  rw [real_sum_centred, hcard]
  field_simp
  ring

/-- The two forms of the (biased) variance agree on finite data:
    `(∑ x²)/M - ((∑ x)/M)² = (∑ (x - (∑ x)/M)²)/M`  when `M` is the number of terms. -/
theorem var_two_forms {ι : Type*} [Fintype ι] (x : ι → EReal) (hx : ∀ i, IsFin (x i)) (M : ℝ) (hM : M ≠ 0)
    (hcard : (Fintype.card ι : ℝ) = M) :
    Ideal.div (∑ i, x i * x i) (M : EReal) - Ideal.div (∑ i, x i) (M : EReal) * Ideal.div (∑ i, x i) (M : EReal)
      = Ideal.div (∑ i, (x i - Ideal.div (∑ i, x i) (M : EReal)) * (x i - Ideal.div (∑ i, x i) (M : EReal)))
          (M : EReal) := by
  choose u hu using fun i => (hx i).exists_coe
  simp only [hu, Ideal.div_coe hM, ← EReal.coe_mul, coe_sum, ← EReal.coe_sub]
  rw [real_var_two_forms u M hM hcard]

/-- The centred form of the variance of finite data is a finite nonnegative real, so after adding a positive real
    its reciprocal square root is finite. -/
theorem isFin_rsqrt_var_add {ι : Type*} [Fintype ι] (x : ι → EReal) (hx : ∀ i, IsFin (x i)) (M : ℝ) (hM : 0 < M)
    (e : ℝ) (he : 0 < e) :
    IsFin (Ideal.rsqrt (Ideal.div (∑ i, (x i - Ideal.div (∑ i, x i) (M : EReal))
      * (x i - Ideal.div (∑ i, x i) (M : EReal))) (M : EReal) + (e : EReal))) := by
  choose u hu using fun i => (hx i).exists_coe
  simp only [hu, Ideal.div_coe hM.ne', ← EReal.coe_mul, coe_sum, ← EReal.coe_sub, ← EReal.coe_add]
  apply isFin_rsqrt_of_pos
  have h0 : 0 ≤ ∑ i, (u i - (∑ i, u i) * (1 / M)) * (u i - (∑ i, u i) * (1 / M)) :=
    Finset.sum_nonneg fun i _ => mul_self_nonneg _
  have h1 : 0 ≤ (∑ i, (u i - (∑ i, u i) * (1 / M)) * (u i - (∑ i, u i) * (1 / M))) * (1 / M) :=
    mul_nonneg h0 (by positivity)
  linarith

end Cert.LibBatchNorm

end
-- ==== Proof.Bridge.lean ====
/-
  The kernel's network is the reference's network on finite inputs.

  Finiteness (every entry a real number) passes through a product of matrices, through the degree-normalised sum over
  edges, and through the normalisation over the node axis. On a finite layer the kernel's normalisation — from the
  mean of the squares minus the square of the mean — is the reference's, from the mean of the squared deviations:
  the two forms of the variance agree on finite data. So the two compositions agree.
-/
import proofs.«107305_j88502096101881_1_alg».proof.Proof.KNet
import proofs.«107305_j88502096101881_1_alg».proof.Proof.FinArr
import proofs.«107305_j88502096101881_1_alg».proof.Proof.LibBatchNorm
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Bridge

open Cert.ReferenceIdeal Cert.ReferenceIdeal.Gen Idealize.ShloMosaic Idealize.ShloMosaic.TcCoe Idealize.SL.Sem
  Idealize.ShloMosaic.StableHlo Idealize.ShloMosaic.ValueIdx
open Cert.LibERealSums Cert.LibBatchNorm

/-! ## Finiteness through the entrywise and indexing operations -/

section Generic
variable {s t : Shape} {φ : FTy}

/-- A broadcast of a finite array is finite: each entry is an entry of the operand. -/
theorem fin_bcast (dims : Fin s.rank → Fin t.rank) (h : s.BroadcastsInDim t dims) (x : s.Idx → EReal) (hx : FinArr x) :
    FinArr (broadcastInDim t dims h x) := fun _ => hx _

/-- A gather from a finite array is finite: each entry is an entry of the operand. -/
theorem fin_gather {si : Shape} {w : Nat} (d : GatherDims s si t) (x : s.Idx → EReal) (idx : IVec si w) (hx : FinArr x) :
    FinArr (Host.gather d x idx) := fun _ => hx _

/-- A constant array whose word denotes a finite value is finite. -/
theorem fin_constant (b : BitVec φ.bits) (hb : IsFin (Ideal.ofBits φ b)) : FinArr (constant (F := Ideal) s φ b) :=
  fun _ => hb

/-- The entrywise product of finite arrays is finite. -/
theorem fin_mulf (x y : FVec Ideal s φ) (hx : FinArr x) (hy : FinArr y) : FinArr (mulf x y) :=
  fun i => (hx i).mul (hy i)

/-- The entrywise sum of finite arrays is finite. -/
theorem fin_addf (x y : FVec Ideal s φ) (hx : FinArr x) (hy : FinArr y) : FinArr (addf x y) :=
  fun i => (hx i).add (hy i)

/-- The entrywise power of finite arrays is finite: it is the real power. -/
theorem fin_powf (x y : FVec Ideal s φ) (hx : FinArr x) (hy : FinArr y) : FinArr (Host.powf x y) :=
  fun i => isFin_pow (hx i) (hy i)

/-- A scatter that adds finite updates into a finite array is finite: each entry is the operand's plus a finite sum
    of updates. -/
theorem fin_scatterAdd {si u : Shape} {w : Nat} (d : ScatterDims s si u) (x : FVec Ideal s φ) (idx : IVec si w)
    (upd : FVec Ideal u φ) (hx : FinArr x) (hu : FinArr upd) : FinArr (Host.scatterAdd d x idx upd) :=
  fun i => (hx i).add (isFin_sum _ _ fun j _ => hu j)

end Generic

/-- The word `0x00000000` denotes the finite value `0`. -/
theorem isFin_ofBits_zero : IsFin (Ideal.ofBits .f32 0x00000000#32) := by
  rw [Ideal.ofBits_zero_f32]; exact isFin_zero

/-- The word `0x3F800000` denotes the finite value `1`. -/
theorem isFin_ofBits_one : IsFin (Ideal.ofBits .f32 0x3F800000#32) := by
  rw [ofBits_one]; exact isFin_coe _

/-- The word `0xBF000000` denotes the finite value `-1/2`. -/
theorem isFin_ofBits_neg_half : IsFin (Ideal.ofBits .f32 0xBF000000#32) := by
  rw [ofBits_neg_half]; exact isFin_coe _

/-! ## Finiteness through the linear map and the aggregation -/

/-- A product of finite matrices is finite: each entry is a finite sum of products. -/
theorem fin_mm (x : (⟨S100000x128, .f32⟩ : BufTy).Contents (Elt Ideal)) (w : (⟨S128x128, .f32⟩ : BufTy).Contents (Elt Ideal))
    (hx : FinArr x) (hw : FinArr w) : FinArr (Cert.Layers.mm (F := Ideal) x w) := by
  intro j
  show IsFin (FloatOps.dotGeneral (F := Ideal) dot_S100000x128_S128x128_S100000x128_1_0_0_1_n_n none .single x w j)
  rw [Ideal.dotGeneral_apply]
  exact isFin_sum_univ _ fun k => (hx _).mul (hw _)

/-- The degree-normalised sum over edges of a finite layer is finite: the coefficients are real powers of finite
    degrees, and each entry is a finite sum of products. -/
theorem fin_agg (E : (⟨S2x640000, .i32⟩ : BufTy).Contents (Elt Ideal)) (h : (⟨S100000x128, .f32⟩ : BufTy).Contents (Elt Ideal))
    (hh : FinArr h) : FinArr (Cert.Layers.agg (F := Ideal) E h) := by
  unfold Cert.Layers.agg
  have hdeg : ∀ (idx : IVec S640000x1 32), FinArr (Host.powf (addf (Host.scatterAdd scatter_S100000_S640000x1_S640000_n_0_0_1
      (broadcastInDim S100000 ![] bcast_S_S100000 (constant (F := Ideal) S_ .f32 0x00000000#32)) idx
      (broadcastInDim S640000 ![] bcast_S_S640000 (constant S_ .f32 0x3F800000#32)))
      (broadcastInDim S100000 ![] bcast_S_S100000 (constant S_ .f32 0x3F800000#32)))
      (broadcastInDim S100000 ![] bcast_S_S100000 (constant S_ .f32 0xBF000000#32))) := fun idx =>
    fin_powf _ _
      (fin_addf _ _
        (fin_scatterAdd _ _ _ _ (fin_bcast _ _ _ (fin_constant _ isFin_ofBits_zero))
          (fin_bcast _ _ _ (fin_constant _ isFin_ofBits_one)))
        (fin_bcast _ _ _ (fin_constant _ isFin_ofBits_one)))
      (fin_bcast _ _ _ (fin_constant _ isFin_ofBits_neg_half))
  refine fin_scatterAdd _ _ _ _ (fin_bcast _ _ _ (fin_constant _ isFin_ofBits_zero)) ?_
  refine fin_mulf _ _ (fin_bcast _ _ _ (fin_bcast _ _ _ (fin_mulf _ _ ?_ ?_))) (fin_gather _ _ _ hh)
  · exact fin_gather _ _ _ (hdeg _)
  · exact fin_gather _ _ _ (hdeg _)

/-! ## The reference's normalisation, read at an entry -/

/-- A scalar broadcast reads the scalar everywhere. -/
theorem bc_scalar {α : Type} {t : Shape} (h : S_.BroadcastsInDim t (![] : Fin 0 → Fin t.rank)) (y : S_.Idx → α) (k : t.Idx) :
    broadcastInDim t ![] h y k = y ix0 :=
  broadcastInDim_apply _ h y k ix0 (fun a => a.elim0)

/-- A vector of 128 broadcast to a 1 × 128 row reads, at column `c`, its entry `c`. -/
theorem bc_vec_row {α : Type} (y : S128.Idx → α) (k : S1x128.Idx) :
    broadcastInDim S1x128 ![1] bcast_S128_S1x128_1 y k = y (ix1 (⟨(k 1).val, (k 1).isLt⟩ : Fin 128)) :=
  broadcastInDim_apply _ bcast_S128_S1x128_1 y k _ (fun a => match a with
    | ⟨0, _⟩ => by show (k 1).val = if (128 : Nat) = 1 then 0 else (k 1).val; rw [if_neg (by decide)])

/-- A 1 × 128 row broadcast over the 100000 nodes reads, at entry (n, c), the row's column `c`. -/
theorem bc_row_mat {α : Type} (y : S1x128.Idx → α) (i : S100000x128.Idx) :
    broadcastInDim S100000x128 ![0, 1] bcast_S1x128_S100000x128_0_1 y i
      = y (ix2 (0 : Fin 1) (⟨(i 1).val, (i 1).isLt⟩ : Fin 128)) :=
  broadcastInDim_apply _ bcast_S1x128_S100000x128_0_1 y i _ (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A vector of 128 broadcast to a row and then over the nodes reads, at entry (n, c), its entry `c`. -/
theorem bc_vec_mat {α : Type} (y : S128.Idx → α) (i : S100000x128.Idx) :
    broadcastInDim S100000x128 ![0, 1] bcast_S1x128_S100000x128_0_1 (broadcastInDim S1x128 ![1] bcast_S128_S1x128_1 y) i
      = y (ix1 (⟨(i 1).val, (i 1).isLt⟩ : Fin 128)) := by
  rw [bc_row_mat, bc_vec_row]

/-- The sum over the node axis with an initial value reads, at column `c`, the initial value plus the sum of the
    column's entries. -/
theorem reduce_col (y : FVec Ideal S100000x128 .f32) (init : S_.Idx → EReal) (j : S128.Idx) :
    Host.reduceAdd (F := Ideal) y init reducesTo_S100000x128_S128_d0 h_S_ j
      = init (Shape.Idx.first h_S_) + ∑ r : Fin 100000, y (ix2 r (⟨(j 0).val, (j 0).isLt⟩ : Fin 128)) := by
  simp only [Host.reduceAdd, Ideal.hostReduceAdd_def]
  rw [Ideal.hostReduceAdd_single reducesTo_S100000x128_S128_d0 (by decide)]
  refine congrArg (_ + ·) (Finset.sum_congr rfl fun k _ => ?_)
  exact congrArg y (funext fun a => Fin.ext (by match a with | ⟨0, _⟩ => rfl | ⟨1, _⟩ => rfl))

/-- The mean of column `c` as the reference takes it: the sum of the column, started from the zero word's value,
    divided by the word for 100000. -/
def mu (a : S100000x128.Idx → EReal) (c : Fin 128) : EReal :=
  Ideal.div (Ideal.ofBits .f32 0x00000000#32 + ∑ r : Fin 100000, a (ix2 r c)) (Ideal.ofBits .f32 0x47C35000#32)

/-- The centred variance of column `c` as the reference takes it: the mean of the squared deviations from `mu`. -/
def cvar (a : S100000x128.Idx → EReal) (c : Fin 128) : EReal :=
  Ideal.div (Ideal.ofBits .f32 0x00000000#32 + ∑ r : Fin 100000, (a (ix2 r c) - mu a c) * (a (ix2 r c) - mu a c))
    (Ideal.ofBits .f32 0x47C35000#32)

/-- The reference's vector of column means. -/
def meanVec (a : FVec Ideal S100000x128 .f32) : FVec Ideal S128 .f32 :=
  Host.divf (Host.reduceAdd a (constant S_ .f32 0x00000000#32) reducesTo_S100000x128_S128_d0 h_S_)
    (broadcastInDim S128 ![] bcast_S_S128 (constant S_ .f32 0x47C35000#32))

/-- The reference's array of deviations from the column means. -/
def centred (a : FVec Ideal S100000x128 .f32) : FVec Ideal S100000x128 .f32 :=
  subf a (broadcastInDim S100000x128 ![0, 1] bcast_S1x128_S100000x128_0_1
    (broadcastInDim S1x128 ![1] bcast_S128_S1x128_1 (meanVec a)))

/-- The reference's vector of centred column variances. -/
def varVec (a : FVec Ideal S100000x128 .f32) : FVec Ideal S128 .f32 :=
  Host.divf (Host.reduceAdd (mulf (centred a) (centred a)) (constant S_ .f32 0x00000000#32) reducesTo_S100000x128_S128_d0 h_S_)
    (broadcastInDim S128 ![] bcast_S_S128 (constant S_ .f32 0x47C35000#32))

/-- The reference's vector of reciprocal standard deviations. -/
def rstdVec (a : FVec Ideal S100000x128 .f32) : FVec Ideal S128 .f32 :=
  Host.rsqrt (addf (varVec a) (broadcastInDim S128 ![] bcast_S_S128 (constant S_ .f32 0x3727C5AC#32)))

/-- The reference's normalisation in terms of its mean, deviation and reciprocal-deviation arrays. -/
theorem bnRelu_unfold (a : (⟨S100000x128, .f32⟩ : BufTy).Contents (Elt Ideal)) (g b : (⟨S128, .f32⟩ : BufTy).Contents (Elt Ideal)) :
    Cert.Layers.bnRelu (F := Ideal) a g b
      = maximumf (addf (mulf (mulf (centred a)
            (broadcastInDim S100000x128 ![0, 1] bcast_S1x128_S100000x128_0_1 (broadcastInDim S1x128 ![1] bcast_S128_S1x128_1 (rstdVec a))))
            (broadcastInDim S100000x128 ![0, 1] bcast_S1x128_S100000x128_0_1 (broadcastInDim S1x128 ![1] bcast_S128_S1x128_1 g)))
            (broadcastInDim S100000x128 ![0, 1] bcast_S1x128_S100000x128_0_1 (broadcastInDim S1x128 ![1] bcast_S128_S1x128_1 b)))
          (broadcastInDim S100000x128 ![] bcast_S_S100000x128 (constant S_ .f32 0x00000000#32)) := rfl

/-- The reference's mean vector at column `c` is `mu`. -/
theorem meanVec_apply (a : FVec Ideal S100000x128 .f32) (j : S128.Idx) :
    meanVec a j = mu a (⟨(j 0).val, (j 0).isLt⟩ : Fin 128) := by
  show Ideal.div (Host.reduceAdd (F := Ideal) a (constant S_ .f32 0x00000000#32) reducesTo_S100000x128_S128_d0 h_S_ j)
    (broadcastInDim S128 ![] bcast_S_S128 (constant (F := Ideal) S_ .f32 0x47C35000#32) j) = _
  rw [reduce_col, bc_scalar]
  rfl

/-- The reference's deviation at entry (n, c) is the entry minus `mu` of its column. -/
theorem centred_apply (a : FVec Ideal S100000x128 .f32) (i : S100000x128.Idx) :
    centred a i = a i - mu a (⟨(i 1).val, (i 1).isLt⟩ : Fin 128) := by
  show a i - broadcastInDim S100000x128 ![0, 1] bcast_S1x128_S100000x128_0_1
    (broadcastInDim S1x128 ![1] bcast_S128_S1x128_1 (meanVec a)) i = _
  rw [bc_vec_mat, meanVec_apply]

/-- The reference's variance vector at column `c` is `cvar`. -/
theorem varVec_apply (a : FVec Ideal S100000x128 .f32) (j : S128.Idx) :
    varVec a j = cvar a (⟨(j 0).val, (j 0).isLt⟩ : Fin 128) := by
  show Ideal.div (Host.reduceAdd (F := Ideal) (mulf (centred a) (centred a)) (constant S_ .f32 0x00000000#32)
      reducesTo_S100000x128_S128_d0 h_S_ j)
    (broadcastInDim S128 ![] bcast_S_S128 (constant (F := Ideal) S_ .f32 0x47C35000#32) j) = _
  rw [reduce_col, bc_scalar]
  simp only [mulf_apply, centred_apply]
  rfl

/-- The reference's reciprocal deviation at column `c` is the reciprocal square root of `cvar` plus the small word. -/
theorem rstdVec_apply (a : FVec Ideal S100000x128 .f32) (j : S128.Idx) :
    rstdVec a j = Ideal.rsqrt (cvar a (⟨(j 0).val, (j 0).isLt⟩ : Fin 128) + Ideal.ofBits .f32 0x3727C5AC#32) := by
  show Ideal.rsqrt (varVec a j + broadcastInDim S128 ![] bcast_S_S128 (constant (F := Ideal) S_ .f32 0x3727C5AC#32) j) = _
  rw [varVec_apply, bc_scalar]
  rfl

/-- THE REFERENCE'S NORMALISATION AT AN ENTRY (n, c):
    `max (((a (n,c) − μ) · rsqrt (V + ε)) · g c + b c) 0`,  μ and V the mean and centred variance of column `c`. -/
theorem bnRelu_apply (a : (⟨S100000x128, .f32⟩ : BufTy).Contents (Elt Ideal)) (g b : (⟨S128, .f32⟩ : BufTy).Contents (Elt Ideal))
    (i : S100000x128.Idx) :
    Cert.Layers.bnRelu (F := Ideal) a g b i
      = max ((((a i - mu a (⟨(i 1).val, (i 1).isLt⟩ : Fin 128))
            * Ideal.rsqrt (cvar a (⟨(i 1).val, (i 1).isLt⟩ : Fin 128) + Ideal.ofBits .f32 0x3727C5AC#32))
            * g (ix1 (⟨(i 1).val, (i 1).isLt⟩ : Fin 128))) + b (ix1 (⟨(i 1).val, (i 1).isLt⟩ : Fin 128)))
          (Ideal.ofBits .f32 0x00000000#32) := by
  rw [bnRelu_unfold]
  show max (((centred a i
      * broadcastInDim S100000x128 ![0, 1] bcast_S1x128_S100000x128_0_1 (broadcastInDim S1x128 ![1] bcast_S128_S1x128_1 (rstdVec a)) i)
      * broadcastInDim S100000x128 ![0, 1] bcast_S1x128_S100000x128_0_1 (broadcastInDim S1x128 ![1] bcast_S128_S1x128_1 g) i)
      + broadcastInDim S100000x128 ![0, 1] bcast_S1x128_S100000x128_0_1 (broadcastInDim S1x128 ![1] bcast_S128_S1x128_1 b) i)
      (broadcastInDim S100000x128 ![] bcast_S_S100000x128 (constant (F := Ideal) S_ .f32 0x00000000#32) i) = _
  rw [centred_apply, bc_vec_mat, bc_vec_mat, bc_vec_mat, rstdVec_apply, bc_scalar]
  rfl

/-! ## Finiteness through the normalisation -/

/-- The column mean of a finite layer is finite. -/
theorem isFin_mu (a : S100000x128.Idx → EReal) (ha : FinArr a) (c : Fin 128) : IsFin (mu a c) := by
  unfold mu
  rw [ofBits_1e5]
  exact isFin_div_coe (isFin_ofBits_zero.add (isFin_sum_univ _ fun r => ha _)) (by norm_num)

/-- On a finite layer `mu` is the sum of the column divided by 100000. -/
theorem mu_eq (a : S100000x128.Idx → EReal) (c : Fin 128) :
    mu a c = Ideal.div (∑ r : Fin 100000, a (ix2 r c)) ((100000 : ℝ) : EReal) := by
  unfold mu
  rw [Ideal.ofBits_zero_f32, zero_add, ofBits_1e5]

/-- On a finite layer `cvar` is the sum of the squared deviations divided by 100000. -/
theorem cvar_eq (a : S100000x128.Idx → EReal) (c : Fin 128) :
    cvar a c = Ideal.div (∑ r : Fin 100000, (a (ix2 r c) - Ideal.div (∑ r : Fin 100000, a (ix2 r c)) ((100000 : ℝ) : EReal))
      * (a (ix2 r c) - Ideal.div (∑ r : Fin 100000, a (ix2 r c)) ((100000 : ℝ) : EReal))) ((100000 : ℝ) : EReal) := by
  unfold cvar
  rw [Ideal.ofBits_zero_f32, zero_add, ofBits_1e5, mu_eq]

/-- The reciprocal deviation of a column of a finite layer is finite: the centred variance is a nonnegative real. -/
theorem isFin_rstd (a : S100000x128.Idx → EReal) (ha : FinArr a) (c : Fin 128) :
    IsFin (Ideal.rsqrt (cvar a c + Ideal.ofBits .f32 0x3727C5AC#32)) := by
  obtain ⟨e, he, hE⟩ := ofBits_eps
  rw [cvar_eq, hE]
  exact isFin_rsqrt_var_add (fun r : Fin 100000 => a (ix2 r c)) (fun r => ha _) 100000 (by norm_num) e he

/-- The normalisation of a finite layer with finite scale and shift is finite. -/
theorem fin_bnRelu (a : (⟨S100000x128, .f32⟩ : BufTy).Contents (Elt Ideal)) (g b : (⟨S128, .f32⟩ : BufTy).Contents (Elt Ideal))
    (ha : FinArr a) (hg : FinArr g) (hb : FinArr b) : FinArr (Cert.Layers.bnRelu (F := Ideal) a g b) := by
  intro i
  rw [bnRelu_apply]
  exact isFin_max (((((ha i).sub (isFin_mu a ha _)).mul (isFin_rstd a ha _)).mul (hg _)).add (hb _)) isFin_ofBits_zero

/-! ## The kernel's normalisation, read at an entry -/

/-- The kernel's mean row at column `c` is the row's entry divided by the word for 100000. -/
theorem meanRow_apply (s : (⟨S1x128, .f32⟩ : BufTy).Contents (Elt Ideal)) (y : S1x128.Idx) :
    Cert.KNet.meanRow s y = Ideal.div (s y) (Ideal.ofBits .f32 0x47C35000#32) := by
  show Ideal.div (s y) (broadcastInDim _ ![] Cert.KernelIdeal.Gen.bcast_S_S1x128
    (constant (F := Ideal) Cert.KernelIdeal.S_ .f32 0x47C35000#32) y) = _
  rw [bc_scalar]
  rfl

/-- A vector of 128 laid out as a row reads, at column `c`, its entry `c`. -/
theorem asRow_apply (g : (⟨S128, .f32⟩ : BufTy).Contents (Elt Ideal)) (c : Fin 128) :
    Cert.KNet.asRow g (ix2 (0 : Fin 1) c) = g (ix1 c) :=
  shapeCast_a_1a_apply g _ (0 : Fin 1) c

/-- THE KERNEL'S NORMALISATION AT AN ENTRY (n, c):
    `max (((a (n,c) − m) · rsqrt ((q − m·m) + ε)) · g c + b c) 0`,  m the column's sum over 100000 and q the column's
    sum of squares over 100000. -/
theorem bnK_apply (a : (⟨S100000x128, .f32⟩ : BufTy).Contents (Elt Ideal)) (g b : (⟨S128, .f32⟩ : BufTy).Contents (Elt Ideal))
    (i : S100000x128.Idx) :
    Cert.KNet.bnK a g b i
      = max ((((a i - Ideal.div (∑ r : Fin 100000, a (ix2 r (⟨(i 1).val, (i 1).isLt⟩ : Fin 128))) (Ideal.ofBits .f32 0x47C35000#32))
            * Ideal.rsqrt ((Ideal.div (∑ r : Fin 100000, a (ix2 r (⟨(i 1).val, (i 1).isLt⟩ : Fin 128)) * a (ix2 r (⟨(i 1).val, (i 1).isLt⟩ : Fin 128)))
                  (Ideal.ofBits .f32 0x47C35000#32)
                - Ideal.div (∑ r : Fin 100000, a (ix2 r (⟨(i 1).val, (i 1).isLt⟩ : Fin 128))) (Ideal.ofBits .f32 0x47C35000#32)
                  * Ideal.div (∑ r : Fin 100000, a (ix2 r (⟨(i 1).val, (i 1).isLt⟩ : Fin 128))) (Ideal.ofBits .f32 0x47C35000#32))
                + Ideal.ofBits .f32 0x3727C5AC#32))
            * g (ix1 (⟨(i 1).val, (i 1).isLt⟩ : Fin 128))) + b (ix1 (⟨(i 1).val, (i 1).isLt⟩ : Fin 128)))
          (Ideal.ofBits .f32 0x00000000#32) := by
  show max ((((a i - Cert.KNet.meanRow (Cert.KLayers.sumCols a) (ix2 (0 : Fin 1) (⟨(i 1).val, (i 1).isLt⟩ : Fin 128)))
      * Ideal.rsqrt ((Cert.KNet.meanRow (Cert.KLayers.sumSqCols a) (ix2 (0 : Fin 1) (⟨(i 1).val, (i 1).isLt⟩ : Fin 128))
          - Cert.KNet.meanRow (Cert.KLayers.sumCols a) (ix2 (0 : Fin 1) (⟨(i 1).val, (i 1).isLt⟩ : Fin 128))
            * Cert.KNet.meanRow (Cert.KLayers.sumCols a) (ix2 (0 : Fin 1) (⟨(i 1).val, (i 1).isLt⟩ : Fin 128)))
          + Ideal.ofBits .f32 0x3727C5AC#32))
      * Cert.KNet.asRow g (ix2 (0 : Fin 1) (⟨(i 1).val, (i 1).isLt⟩ : Fin 128)))
      + Cert.KNet.asRow b (ix2 (0 : Fin 1) (⟨(i 1).val, (i 1).isLt⟩ : Fin 128)))
      (Ideal.ofBits .f32 0x00000000#32) = _
  rw [asRow_apply, asRow_apply, meanRow_apply, meanRow_apply]
  rfl

/-! ## The two normalisations agree on a finite layer -/

/-- On a finite layer the kernel's normalisation is the reference's: the two forms of the variance agree. -/
theorem bnK_eq (a : (⟨S100000x128, .f32⟩ : BufTy).Contents (Elt Ideal)) (g b : (⟨S128, .f32⟩ : BufTy).Contents (Elt Ideal))
    (ha : FinArr a) : Cert.KNet.bnK a g b = Cert.Layers.bnRelu (F := Ideal) a g b := by
  funext i
  rw [bnK_apply, bnRelu_apply, mu_eq, cvar_eq, ofBits_1e5]
  rw [var_two_forms (fun r : Fin 100000 => a (ix2 r (⟨(i 1).val, (i 1).isLt⟩ : Fin 128))) (fun r => ha _) 100000
    (by norm_num) (by simp)]

/-! ## The two networks agree on finite inputs -/

/-- On finite features, weights, scales and shifts, the kernel's network is the reference's. -/
theorem netK_eq_net (x0 : (⟨S100000x128, .f32⟩ : BufTy).Contents (Elt Ideal)) (x1 : (⟨S2x640000, .i32⟩ : BufTy).Contents (Elt Ideal))
    (x2 : (⟨S100000, .i32⟩ : BufTy).Contents (Elt Ideal)) (x3 : (⟨S128x128, .f32⟩ : BufTy).Contents (Elt Ideal))
    (x4 x5 : (⟨S128, .f32⟩ : BufTy).Contents (Elt Ideal)) (x6 : (⟨S128x128, .f32⟩ : BufTy).Contents (Elt Ideal))
    (x7 x8 : (⟨S128, .f32⟩ : BufTy).Contents (Elt Ideal)) (x9 : (⟨S128x128, .f32⟩ : BufTy).Contents (Elt Ideal))
    (x10 : (⟨S128x128, .f32⟩ : BufTy).Contents (Elt Ideal)) (x11 : (⟨S128, .f32⟩ : BufTy).Contents (Elt Ideal))
    (x12 : (⟨S128x40, .f32⟩ : BufTy).Contents (Elt Ideal)) (x13 : (⟨S40, .f32⟩ : BufTy).Contents (Elt Ideal))
    (h0 : FinArr x0) (h3 : FinArr x3) (h4 : FinArr x4) (h5 : FinArr x5) (h6 : FinArr x6) (h7 : FinArr x7)
    (h8 : FinArr x8) (h9 : FinArr x9) :
    Cert.KNet.netK x0 x1 x2 x3 x4 x5 x6 x7 x8 x9 x10 x11 x12 x13
      = Cert.Layers.net (F := Ideal) x0 x1 x2 x3 x4 x5 x6 x7 x8 x9 x10 x11 x12 x13 := by
  unfold Cert.KNet.netK Cert.Layers.net
  have e1 : Cert.KNet.bnK (Cert.Layers.agg (F := Ideal) x1 (Cert.Layers.mm x0 x3)) x4 x5
      = Cert.Layers.bnRelu (F := Ideal) (Cert.Layers.agg x1 (Cert.Layers.mm x0 x3)) x4 x5 :=
    bnK_eq _ x4 x5 (fin_agg x1 _ (fin_mm x0 x3 h0 h3))
  rw [e1]
  have e2 : Cert.KNet.bnK (Cert.Layers.agg (F := Ideal) x1
        (Cert.Layers.mm (Cert.Layers.bnRelu (Cert.Layers.agg x1 (Cert.Layers.mm x0 x3)) x4 x5) x6)) x7 x8
      = Cert.Layers.bnRelu (F := Ideal) (Cert.Layers.agg x1
        (Cert.Layers.mm (Cert.Layers.bnRelu (Cert.Layers.agg x1 (Cert.Layers.mm x0 x3)) x4 x5) x6)) x7 x8 :=
    bnK_eq _ x7 x8 (fin_agg x1 _ (fin_mm _ x6 (fin_bnRelu _ x4 x5 (fin_agg x1 _ (fin_mm x0 x3 h0 h3)) h4 h5) h6))
  rw [e2]

end Cert.Bridge

end
-- ==== Proof.PreFin.lean ====
/-
  The precondition, decoded.

  The precondition states that a predicate of the fourteen argument arrays is 1. The predicate is the conjunction,
  over the twelve float arrays (arguments 0 and 3 to 13; arguments 1 and 2 are integer arrays and are not
  constrained), of  "every entry has absolute value below plus infinity":  each conjunct is a reduction by `and`,
  over all axes, of the entrywise comparison  |a i| < +∞ ,  and the conjuncts are joined by `and`. On the extended
  reals  |a| = max a (-a)  is below  ⊤  exactly when  a  is neither  ⊥  nor  ⊤ . Hence, if the predicate is 1, every
  entry of every float argument is a real number (`fin_of_fn`); in particular this holds of the arrays that an
  initial memory satisfying the kernel's precondition has at the kernel's argument locations (`fin_of_pre`).
-/
import proofs.«107305_j88502096101881_1_alg».proof.Defs
import proofs.«107305_j88502096101881_1_alg».proof.Proof.Gen.Pre_finite_inputs
import proofs.«107305_j88502096101881_1_alg».proof.Proof.Gen.KernelIdeal
import proofs.«107305_j88502096101881_1_alg».proof.Proof.FinArr
import Idealize.ShloMosaic.Lib.ReduceAll
import Idealize.ShloMosaic.Lib.ValueIdx
import Idealize.ShloMosaic.PureOps.Ideal.Laws

noncomputable section

namespace Cert.PreFin

open Idealize.ShloMosaic Idealize.ShloMosaic.ValueIdx Idealize.SL.Sem
open Cert.Pre_finite_inputs Cert.LibERealSums

/-- The scalar shape has one index. -/
instance subsingleton_S_ : Subsingleton S_.Idx := ⟨fun a b => funext fun d => d.elim0⟩

/-- The f32 pattern 0x7F800000 denotes plus infinity. -/
theorem ofBits_inf : Ideal.ofBits .f32 0x7F800000#32 = (⊤ : EReal) := by
  simp [Ideal.ofBits, Ideal.ieee]

/-- An extended real whose absolute value  max x (-x)  compares below plus infinity is finite. -/
theorem isFin_of_abs_lt (x : EReal) (h : Ideal.cmp .olt (max x (-x)) (Ideal.ofBits .f32 0x7F800000#32) = 1#1) :
    IsFin x := by
  rw [ofBits_inf] at h
  induction x using EReal.rec with
  | bot => simp [Ideal.cmp] at h
  | coe r => exact isFin_coe r
  | top => simp [Ideal.cmp] at h

/-- One conjunct of the predicate: if the reduction by `and`, over all axes, of  |x i| < +∞  is 1, then every entry
    of `x` is finite. -/
theorem finArr_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi (cmpf .olt (Host.absf x) (broadcastInDim s ![] hb (constant S_ .f32 0x7F800000#32)))
          (constantI S_ 1 1#1) hr hu j = 1#1) : FinArr x := by
  intro i
  have h := Host.reduce_andi_all _ _ hr hu j e i
  exact isFin_of_abs_lt (x i) h

/-- The predicate is 1 only if every entry of each of the twelve float arguments is finite. -/
theorem fin_of_fn (x0 : FVec Ideal S100000x128 .f32) (x1 : IVec S2x640000 32) (x2 : IVec S100000 32) (x3 : FVec Ideal S128x128 .f32) (x4 : FVec Ideal S128 .f32) (x5 : FVec Ideal S128 .f32) (x6 : FVec Ideal S128x128 .f32) (x7 : FVec Ideal S128 .f32) (x8 : FVec Ideal S128 .f32) (x9 : FVec Ideal S128x128 .f32) (x10 : FVec Ideal S128x128 .f32) (x11 : FVec Ideal S128 .f32) (x12 : FVec Ideal S128x40 .f32) (x13 : FVec Ideal S40 .f32)
    (h : Cert.Pre_finite_inputs.fn (F := Ideal) x0 x1 x2 x3 x4 x5 x6 x7 x8 x9 x10 x11 x12 x13 = (fun _ => 1#1)) :
    FinArr x0 ∧ FinArr x3 ∧ FinArr x4 ∧ FinArr x5 ∧ FinArr x6 ∧ FinArr x7 ∧ FinArr x8 ∧ FinArr x9 ∧ FinArr x10 ∧ FinArr x11 ∧ FinArr x12 ∧ FinArr x13 := by
  have h0 := congrFun h ix0
  dsimp only [fn, fn_part1, fn_part2, fn_part3] at h0
  obtain ⟨g0, e_x13⟩ := IntOp.andi_eq_one.1 h0
  obtain ⟨g1, e_x12⟩ := IntOp.andi_eq_one.1 g0
  obtain ⟨g2, e_x11⟩ := IntOp.andi_eq_one.1 g1
  obtain ⟨g3, e_x10⟩ := IntOp.andi_eq_one.1 g2
  obtain ⟨g4, e_x9⟩ := IntOp.andi_eq_one.1 g3
  obtain ⟨g5, e_x8⟩ := IntOp.andi_eq_one.1 g4
  obtain ⟨g6, e_x7⟩ := IntOp.andi_eq_one.1 g5
  obtain ⟨g7, e_x6⟩ := IntOp.andi_eq_one.1 g6
  obtain ⟨g8, e_x5⟩ := IntOp.andi_eq_one.1 g7
  obtain ⟨g9, e_x4⟩ := IntOp.andi_eq_one.1 g8
  obtain ⟨g10, e_x3⟩ := IntOp.andi_eq_one.1 g9
  exact ⟨finArr_of_all _ _ _ _ ix0 g10,
    finArr_of_all _ _ _ _ ix0 e_x3,
    finArr_of_all _ _ _ _ ix0 e_x4,
    finArr_of_all _ _ _ _ ix0 e_x5,
    finArr_of_all _ _ _ _ ix0 e_x6,
    finArr_of_all _ _ _ _ ix0 e_x7,
    finArr_of_all _ _ _ _ ix0 e_x8,
    finArr_of_all _ _ _ _ ix0 e_x9,
    finArr_of_all _ _ _ _ ix0 e_x10,
    finArr_of_all _ _ _ _ ix0 e_x11,
    finArr_of_all _ _ _ _ ix0 e_x12,
    finArr_of_all _ _ _ _ ix0 e_x13⟩

/-- Under the kernel's precondition every entry of each float argument array of the initial memory is finite. -/
theorem fin_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    FinArr (m ((c.tc : Thread Cert.KernelIdeal.nD Cert.KernelIdeal.τ).loc Cert.KernelIdeal.main_arg0))
      ∧ FinArr (m ((c.tc : Thread Cert.KernelIdeal.nD Cert.KernelIdeal.τ).loc Cert.KernelIdeal.main_arg3))
      ∧ FinArr (m ((c.tc : Thread Cert.KernelIdeal.nD Cert.KernelIdeal.τ).loc Cert.KernelIdeal.main_arg4))
      ∧ FinArr (m ((c.tc : Thread Cert.KernelIdeal.nD Cert.KernelIdeal.τ).loc Cert.KernelIdeal.main_arg5))
      ∧ FinArr (m ((c.tc : Thread Cert.KernelIdeal.nD Cert.KernelIdeal.τ).loc Cert.KernelIdeal.main_arg6))
      ∧ FinArr (m ((c.tc : Thread Cert.KernelIdeal.nD Cert.KernelIdeal.τ).loc Cert.KernelIdeal.main_arg7))
      ∧ FinArr (m ((c.tc : Thread Cert.KernelIdeal.nD Cert.KernelIdeal.τ).loc Cert.KernelIdeal.main_arg8))
      ∧ FinArr (m ((c.tc : Thread Cert.KernelIdeal.nD Cert.KernelIdeal.τ).loc Cert.KernelIdeal.main_arg9))
      ∧ FinArr (m ((c.tc : Thread Cert.KernelIdeal.nD Cert.KernelIdeal.τ).loc Cert.KernelIdeal.main_arg10))
      ∧ FinArr (m ((c.tc : Thread Cert.KernelIdeal.nD Cert.KernelIdeal.τ).loc Cert.KernelIdeal.main_arg11))
      ∧ FinArr (m ((c.tc : Thread Cert.KernelIdeal.nD Cert.KernelIdeal.τ).loc Cert.KernelIdeal.main_arg12))
      ∧ FinArr (m ((c.tc : Thread Cert.KernelIdeal.nD Cert.KernelIdeal.τ).loc Cert.KernelIdeal.main_arg13)) :=
  fin_of_fn _ _ _ _ _ _ _ _ _ _ _ _ _ _ (hpre c)

end Cert.PreFin
-- ==== Proof.Assemble.lean ====
/-
  The certificate's claims, assembled.

  Each program runs and leaves its arguments unchanged (the three frame claims). At the ideal instance the kernel's run
  ends with its result at the kernel's network of its arguments (the hypothesis `hfold`, the kernel's segments folded),
  the reference's run with its result at the reference's network; on finite arguments — which the precondition
  gives — the two networks agree, so from memories that agree on the arguments both results are one array.
-/
import proofs.«107305_j88502096101881_1_alg».proof.Defs
import proofs.«107305_j88502096101881_1_alg».proof.Proof.Gen.Kernel.Frame
import proofs.«107305_j88502096101881_1_alg».proof.Proof.KernelRun
import proofs.«107305_j88502096101881_1_alg».proof.Proof.RefStages
import proofs.«107305_j88502096101881_1_alg».proof.Proof.Bridge
import proofs.«107305_j88502096101881_1_alg».proof.Proof.PreFin

noncomputable section

open Idealize.ShloMosaic Idealize.ShloMosaic.TcCoe Idealize.SL.Sem

namespace Cert.Assemble

/-- The kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged. -/
theorem frame_ri : Cert.frame_ReferenceIdeal := fun m ρ _ =>
  (θ_run Cert.ReferenceIdeal.defs _ _).mono (fun _ h c => (h c).2) (Cert.ReferenceIdeal.ValueP.run (F := Ideal) m ρ)

/-- If the kernel's run leaves its result at the kernel's network of the arguments, then from memories that agree on
    the arguments the kernel and the reference end with equal results and unchanged arguments: on the finite
    arguments the precondition gives, the kernel's network is the reference's. -/
theorem algebraic_of
    (hfold : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
        Cert.KernelIdeal.Gen.W16 m ρ c (Proc.devRef .tc Cert.KernelIdeal.main_v156)
          = Cert.KNet.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) :
    Cert.algebraic_KernelIdeal_ReferenceIdeal := by
  intro m ρ m' ρ' hpre hagree
  refine ⟨fun c => Cert.Layers.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelRun.run_result (F := Ideal) m ρ)
    obtain ⟨f0, f3, f4, f5, f6, f7, f8, f9, -⟩ := Cert.PreFin.fin_of_pre m hpre c
    exact ⟨(h c).1.trans ((hfold m ρ c).trans
      (Cert.Bridge.netK_eq_net _ _ _ _ _ _ _ _ _ _ _ _ _ _ f0 f3 f4 f5 f6 f7 f8 f9)), (h c).2⟩
  · refine (θ_run Cert.ReferenceIdeal.defs _ _).mono (fun r h c =>
      ⟨(h c).1.trans ((Cert.RefStages.result_eq_net m' c).trans ?_), (h c).2⟩)
      (Cert.ReferenceIdeal.ValueP.run (F := Ideal) m' ρ')
    obtain ⟨a0, a1, a2, a3, a4, a5, a6, a7, a8, a9, a10, a11, a12, a13⟩ := hagree c
    rw [a0, a1, a2, a3, a4, a5, a6, a7, a8, a9, a10, a11, a12, a13]

end Cert.Assemble

end
-- ==== Proof.MatmulSpec.lean ====
/-
  The linear map of a layer, entry by entry, on the extended reals.

  `product X W` is the 100000 × 128 array whose entry (n, j) is the sum over k of X (n, k) · W (k, j). Two readings of it:
  the product of one 10000 × 128 row block with the whole 128 × 128 weight matrix into a zero accumulator is, entry by
  entry, the same sum over the block's rows (`blockMatmul_apply`, `blockEntry`); and the host's product of the whole
  arrays, `Cert.Layers.mm`, is `product` (`mm_eq_product`).
-/
import proofs.«107305_j88502096101881_1_alg».proof.Proof.Gen.KernelIdeal
import proofs.«107305_j88502096101881_1_alg».proof.Proof.Layers
import Idealize.ShloMosaic.Lib.ValueIdx
import Idealize.ShloMosaic.PureOps.Ideal.Laws

noncomputable section

namespace Cert.MatmulSpec

open Cert.KernelIdeal Cert.KernelIdeal.Gen
open Idealize.ShloMosaic Idealize.ShloMosaic.TcCoe
open Idealize.ShloMosaic.ValueIdx
open scoped BigOperators

/-- Entry (n, j) of the product of the whole arrays: the sum over k of X (n, k) · W (k, j). -/
def product (X : S100000x128.Idx → EReal) (W : S128x128.Idx → EReal) : S100000x128.Idx → EReal :=
  fun i => ∑ k : Fin 128, X (ix2 (⟨(i 0).val, (i 0).isLt⟩ : Fin 100000) k) * W (ix2 k (⟨(i 1).val, (i 1).isLt⟩ : Fin 128))

/-! ## One row block times the weight matrix -/

/-- The left operand's entry for output entry i and contraction index s is (i 0, s): its row, -/
theorem lhsRow (i : S10000x128.Idx) (s : dot_S10000x128_S128x128_S10000x128_1_0_0_1_n_n.contr.Idx) :
    (dot_S10000x128_S128x128_S10000x128_1_0_0_1_n_n.lhsIdx i s 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- and its column. -/
theorem lhsCol (i : S10000x128.Idx) (s : dot_S10000x128_S128x128_S10000x128_1_0_0_1_n_n.contr.Idx) :
    (dot_S10000x128_S128x128_S10000x128_1_0_0_1_n_n.lhsIdx i s 1).val = (s ⟨0, by decide⟩).val :=
  dot_S10000x128_S128x128_S10000x128_1_0_0_1_n_n.lhsIdx_val_of_single rfl i s
/-- The right operand's entry for output entry i and contraction index s is (s, i 1): its row, -/
theorem rhsRow (i : S10000x128.Idx) (s : dot_S10000x128_S128x128_S10000x128_1_0_0_1_n_n.contr.Idx) :
    (dot_S10000x128_S128x128_S10000x128_1_0_0_1_n_n.rhsIdx i s 0).val = (s ⟨0, by decide⟩).val :=
  dot_S10000x128_S128x128_S10000x128_1_0_0_1_n_n.rhsIdx_val_of_single rfl i s
/-- and its column. -/
theorem rhsCol (i : S10000x128.Idx) (s : dot_S10000x128_S128x128_S10000x128_1_0_0_1_n_n.contr.Idx) :
    (dot_S10000x128_S128x128_S10000x128_1_0_0_1_n_n.rhsIdx i s 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product into a zero accumulator at entry (p, q): the sum over k of a (p, k) · b (k, q). -/
theorem blockMatmul_apply (a : FVec Ideal S10000x128 .bf16) (b : FVec Ideal S128x128 .bf16) (p : Fin 10000) (q : Fin 128) :
    matmul dot_S10000x128_S128x128_S10000x128_1_0_0_1_n_n none a b (constant (F := Ideal) S10000x128 .f32 0x00000000#32) (ix2 p q)
      = ∑ k : Fin 128, a (ix2 p k) * b (ix2 k q) := by
  refine (Ideal.matmul_constant_zero_apply dot_S10000x128_S128x128_S10000x128_1_0_0_1_n_n none a b (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun x => Fin.ext (by
    match x with
    | ⟨0, _⟩ => exact lhsRow _ _
    | ⟨1, _⟩ => exact (lhsCol _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun x => Fin.ext (by
    match x with
    | ⟨0, _⟩ => exact (rhsRow _ _).trans hk
    | ⟨1, _⟩ => exact rhsCol _ _)
  rw [el, er]

/-- When row p of the block a is row n of X and the block b is W, the block's sum at (p, q) is entry (n, q) of the
    product of the arrays. -/
theorem blockEntry (a : S10000x128.Idx → EReal) (b : S128x128.Idx → EReal) (X : S100000x128.Idx → EReal) (W : S128x128.Idx → EReal)
    (p : Fin 10000) (q : Fin 128) (n : Fin 100000)
    (ha : ∀ k : Fin 128, a (ix2 p k) = X (ix2 n k)) (hb : ∀ k : Fin 128, b (ix2 k q) = W (ix2 k q)) :
    (∑ k : Fin 128, a (ix2 p k) * b (ix2 k q)) = product X W (ix2 n q) := by
  unfold product
  refine Finset.sum_congr rfl fun k _ => ?_
  rw [ha k, hb k]

/-! ## The host's product of the whole arrays -/

/-- The host's left operand entry for output entry i and contraction index s is (i 0, s): its row, -/
theorem hostLhsRow (i : S100000x128.Idx) (s : Cert.ReferenceIdeal.dot_S100000x128_S128x128_S100000x128_1_0_0_1_n_n.contr.Idx) :
    (Cert.ReferenceIdeal.dot_S100000x128_S128x128_S100000x128_1_0_0_1_n_n.lhsIdx i s 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
/-- and its column. -/
theorem hostLhsCol (i : S100000x128.Idx) (s : Cert.ReferenceIdeal.dot_S100000x128_S128x128_S100000x128_1_0_0_1_n_n.contr.Idx) :
    (Cert.ReferenceIdeal.dot_S100000x128_S128x128_S100000x128_1_0_0_1_n_n.lhsIdx i s 1).val = (s ⟨0, by decide⟩).val :=
  Cert.ReferenceIdeal.dot_S100000x128_S128x128_S100000x128_1_0_0_1_n_n.lhsIdx_val_of_single rfl i s
/-- The host's right operand entry for output entry i and contraction index s is (s, i 1): its row, -/
theorem hostRhsRow (i : S100000x128.Idx) (s : Cert.ReferenceIdeal.dot_S100000x128_S128x128_S100000x128_1_0_0_1_n_n.contr.Idx) :
    (Cert.ReferenceIdeal.dot_S100000x128_S128x128_S100000x128_1_0_0_1_n_n.rhsIdx i s 0).val = (s ⟨0, by decide⟩).val :=
  Cert.ReferenceIdeal.dot_S100000x128_S128x128_S100000x128_1_0_0_1_n_n.rhsIdx_val_of_single rfl i s
/-- and its column. -/
theorem hostRhsCol (i : S100000x128.Idx) (s : Cert.ReferenceIdeal.dot_S100000x128_S128x128_S100000x128_1_0_0_1_n_n.contr.Idx) :
    (Cert.ReferenceIdeal.dot_S100000x128_S128x128_S100000x128_1_0_0_1_n_n.rhsIdx i s 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The host's product of the whole arrays is, entry by entry, the same sum. -/
theorem mm_eq_product (X : S100000x128.Idx → EReal) (W : S128x128.Idx → EReal) :
    Cert.Layers.mm (F := Ideal) X W = product X W := by
  funext i
  unfold Cert.Layers.mm
  simp only [Host.dotGeneral]
  rw [Ideal.dotGeneral_apply, ← Equiv.sum_comp (contrEquiv1 Cert.ReferenceIdeal.dot_S100000x128_S128x128_S100000x128_1_0_0_1_n_n 128 rfl rfl).symm]
  unfold product
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((contrEquiv1 Cert.ReferenceIdeal.dot_S100000x128_S128x128_S100000x128_1_0_0_1_n_n 128 rfl rfl).symm k) = ix2 (⟨(i 0).val, (i 0).isLt⟩ : Fin 100000) k := funext fun x => Fin.ext (by
    match x with
    | ⟨0, _⟩ => exact hostLhsRow _ _
    | ⟨1, _⟩ => exact (hostLhsCol _ _).trans hk)
  have er : Cert.ReferenceIdeal.dot_S100000x128_S128x128_S100000x128_1_0_0_1_n_n.rhsIdx i ((contrEquiv1 Cert.ReferenceIdeal.dot_S100000x128_S128x128_S100000x128_1_0_0_1_n_n 128 rfl rfl).symm k) = ix2 k (⟨(i 1).val, (i 1).isLt⟩ : Fin 128) := funext fun x => Fin.ext (by
    match x with
    | ⟨0, _⟩ => exact (hostRhsRow _ _).trans hk
    | ⟨1, _⟩ => exact hostRhsCol _ _)
  rw [el, er]

end Cert.MatmulSpec

end
-- ==== Proof.RegionMatmul0.lean ====
/-
  Region 0, a linear map: what its result array holds after the whole grid.

  Each of the 10 grid points multiplies one 10000 × 128 row block of the feature array by the whole 128 × 128 weight
  matrix into a zero accumulator and writes the 10000 × 128 result block back to the same rows. Read entry by entry,
  point t's block is rows 10000·t … 10000·t + 9999 of the product of the whole arrays; the 10 blocks cover the rows, so
  the result array ends as the host's product `Cert.Layers.mm` of the arrays the region found.
-/
import proofs.«107305_j88502096101881_1_alg».proof.Proof.Gen.KernelIdeal.Frame
import proofs.«107305_j88502096101881_1_alg».proof.Proof.MatmulSpec
import Idealize.ShloMosaic.Lib.Pipeline.Value
import Idealize.ShloMosaic.Lib.ValueIdx
import Idealize.ShloMosaic.PureOps.Ideal.Laws

set_option maxRecDepth 16384

noncomputable section

namespace Cert.RegionMatmul0

open Cert.KernelIdeal Cert.KernelIdeal.Gen Cert.MatmulSpec
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

theorem zeroOffsets : (![0, 0] : Fin 2 → Nat) = fun _ => 0 := funext fun a => by fin_cases a <;> rfl

/-- The block indices at point t: the feature and result windows sit at row block t, the weight window at (0, 0). -/
theorem pointIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's block product at entry (p, q): the sum over k of a (p, k) · b (k, q) (the narrowing of the operands
    changes nothing on the extended reals). -/
theorem blockProduct_apply (a : Vec Ideal S10000x128 .f32) (b : Vec Ideal S128x128 .f32) (p : Fin 10000) (q : Fin 128) :
    k0_pay1 (F := Ideal) a b (ix2 p q) = ∑ k : Fin 128, a (ix2 p k) * b (ix2 k q) := by
  unfold k0_pay1
  exact blockMatmul_apply _ _ p q

variable (V : (c : Dev nD) → (b : Ref sig .tc) → Buf (Elt Ideal) ((c : Thread nD τ).loc b))

/-- Row p of the feature block at point t is row 10000·t + p of the feature array. -/
theorem featureBlock_apply (c : Dev nD) (t : Fin cfg0.N) (p : Fin 10000) (k : Fin 128) (n : Fin 100000)
    (hn : n.val = 10000 * t.val + p.val) :
    (iblk0 V c 0 t : Vec Ideal S10000x128 .f32) (ix2 p k) = (V c (Pipeline.arrRef spec0 0) : S100000x128.Idx → EReal) (ix2 n k) := by
  obtain ⟨e0, e1, -⟩ := pointIndex t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- The weight block at every point is the whole weight array. -/
theorem weightBlock_apply (c : Dev nD) (t : Fin cfg0.N) (k : Fin 128) (q : Fin 128) :
    (iblk0 V c 1 t : Vec Ideal S128x128 .f32) (ix2 k q) = (V c (Pipeline.arrRef spec0 1) : S128x128.Idx → EReal) (ix2 k q) := by
  obtain ⟨-, -, e0, e1, -⟩ := pointIndex t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- What point t writes back is block t of the product of the arrays. -/
theorem writtenBack_eq (c : Dev nD) (t : Fin cfg0.N) :
    (dat0 (F := Ideal) V c).flushed 2 t = ((cfg0.win 2).blk t).view.read (Elt Ideal)
      (product (V c (Pipeline.arrRef spec0 0)) (V c (Pipeline.arrRef spec0 1))) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x128) zeroOffsets]
  have hN : cfg0.N = 10 := N_0
  have ht := t.isLt
  obtain ⟨-, -, -, -, e0, e1⟩ := pointIndex t
  funext j
  obtain ⟨p, q, rfl⟩ : ∃ (p : Fin 10000) (q : Fin 128), j = ix2 p q := ⟨j 0, j 1, eq_ix2 j⟩
  have hemb : ((cfg0.win 2).blk t).view.emb (ix2 p q) = ix2 (⟨10000 * t.val + p.val, by omega⟩ : Fin 100000) q := by
    funext a; apply Fin.ext
    match a with
    | ⟨0, _⟩ => show win0_2.index t (0 : Fin 2) * 10000 + 1 * p.val = 10000 * t.val + p.val; rw [e0]; omega
    | ⟨1, _⟩ => show win0_2.index t (1 : Fin 2) * 128 + 1 * q.val = q.val; rw [e1]; omega
  rw [View.read_apply, hemb]
  exact (blockProduct_apply _ _ p q).trans
    (blockEntry _ _ _ _ p q _ (fun k => featureBlock_apply V c t p k _ rfl) (fun k => weightBlock_apply V c t k q))

/-- An entry of the result array lies in point t's block iff each coordinate lies in the block's range on its axis. -/
theorem mem_resultBlock (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- Row n of the result lies in the block of point n / 10000. -/
theorem covered (i : S100000x128.Idx) : ∃ t : Fin cfg0.N, (cfg0.win 2).flush t = true ∧ i ∈ ((cfg0.win 2).blk t).view.set := by
  have hN : cfg0.N = 10 := N_0
  have hi0 : (i 0).val < 100000 := (i 0).isLt
  have hi1 : (i 1).val < 128 := (i 1).isLt
  obtain ⟨t, ht⟩ : ∃ t : Fin cfg0.N, t.val = (i 0).val / 10000 := ⟨⟨(i 0).val / 10000, by rw [hN]; omega⟩, rfl⟩
  obtain ⟨-, -, -, -, e0, e1⟩ := pointIndex t
  refine ⟨t, flush0_2 t, ?_⟩
  rw [mem_resultBlock]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 128 ≤ (i 1).val ∧ (i 1).val < win0_2.index t (1 : Fin 2) * 128 + 128; rw [e1]; omega

/-- The result array after the whole grid is the product of the feature and weight arrays, -/
theorem value_product (c : Dev nD) :
    (dat0 (F := Ideal) V c).arrAt 2 cfg0.N = product (V c (Pipeline.arrRef spec0 0)) (V c (Pipeline.arrRef spec0 1)) :=
  (dat0 V c).arrAt_eq_of_cover 2 _ (fun t _ => writtenBack_eq V c t) covered

/-- which is the host's product of the two arrays. -/
theorem value (c : Dev nD) :
    (dat0 (F := Ideal) V c).arrAt 2 cfg0.N
      = Cert.Layers.mm (F := Ideal) (V c (Pipeline.arrRef spec0 0)) (V c (Pipeline.arrRef spec0 1)) :=
  (value_product V c).trans (mm_eq_product _ _).symm

end Cert.RegionMatmul0

end
-- ==== Proof.RegionMatmul3.lean ====
/-
  Region 3, a linear map: what its result array holds after the whole grid.

  Each of the 10 grid points multiplies one 10000 × 128 row block of the feature array by the whole 128 × 128 weight
  matrix into a zero accumulator and writes the 10000 × 128 result block back to the same rows. Read entry by entry,
  point t's block is rows 10000·t … 10000·t + 9999 of the product of the whole arrays; the 10 blocks cover the rows, so
  the result array ends as the host's product `Cert.Layers.mm` of the arrays the region found.
-/
import proofs.«107305_j88502096101881_1_alg».proof.Proof.Gen.KernelIdeal.Frame
import proofs.«107305_j88502096101881_1_alg».proof.Proof.MatmulSpec
import Idealize.ShloMosaic.Lib.Pipeline.Value
import Idealize.ShloMosaic.Lib.ValueIdx
import Idealize.ShloMosaic.PureOps.Ideal.Laws

set_option maxRecDepth 16384

noncomputable section

namespace Cert.RegionMatmul3

open Cert.KernelIdeal Cert.KernelIdeal.Gen Cert.MatmulSpec
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

theorem zeroOffsets : (![0, 0] : Fin 2 → Nat) = fun _ => 0 := funext fun a => by fin_cases a <;> rfl

/-- The block indices at point t: the feature and result windows sit at row block t, the weight window at (0, 0). -/
theorem pointIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's block product at entry (p, q): the sum over k of a (p, k) · b (k, q) (the narrowing of the operands
    changes nothing on the extended reals). -/
theorem blockProduct_apply (a : Vec Ideal S10000x128 .f32) (b : Vec Ideal S128x128 .f32) (p : Fin 10000) (q : Fin 128) :
    k3_pay1 (F := Ideal) a b (ix2 p q) = ∑ k : Fin 128, a (ix2 p k) * b (ix2 k q) := by
  unfold k3_pay1
  rw [shapeCast_self]
  exact blockMatmul_apply _ _ p q

variable (V : (c : Dev nD) → (b : Ref sig .tc) → Buf (Elt Ideal) ((c : Thread nD τ).loc b))

/-- Row p of the feature block at point t is row 10000·t + p of the feature array. -/
theorem featureBlock_apply (c : Dev nD) (t : Fin cfg3.N) (p : Fin 10000) (k : Fin 128) (n : Fin 100000)
    (hn : n.val = 10000 * t.val + p.val) :
    (iblk3 V c 0 t : Vec Ideal S10000x128 .f32) (ix2 p k) = (V c (Pipeline.arrRef spec3 0) : S100000x128.Idx → EReal) (ix2 n k) := by
  obtain ⟨e0, e1, -⟩ := pointIndex t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 10000 + 1 * p.val = n.val; rw [e0, hn]; omega
  | ⟨1, _⟩ => show win3_0.index t (1 : Fin 2) * 128 + 1 * k.val = k.val; rw [e1]; omega

/-- The weight block at every point is the whole weight array. -/
theorem weightBlock_apply (c : Dev nD) (t : Fin cfg3.N) (k : Fin 128) (q : Fin 128) :
    (iblk3 V c 1 t : Vec Ideal S128x128 .f32) (ix2 k q) = (V c (Pipeline.arrRef spec3 1) : S128x128.Idx → EReal) (ix2 k q) := by
  obtain ⟨-, -, e0, e1, -⟩ := pointIndex t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 128 + 1 * k.val = k.val; rw [e0]; omega
  | ⟨1, _⟩ => show win3_1.index t (1 : Fin 2) * 128 + 1 * q.val = q.val; rw [e1]; omega

/-- What point t writes back is block t of the product of the arrays. -/
theorem writtenBack_eq (c : Dev nD) (t : Fin cfg3.N) :
    (dat3 (F := Ideal) V c).flushed 2 t = ((cfg3.win 2).blk t).view.read (Elt Ideal)
      (product (V c (Pipeline.arrRef spec3 0)) (V c (Pipeline.arrRef spec3 1))) := by
  show (cfg3.win 2).cut (grid3.coords t) ((dat3 V c).after 2 t) = _
  rw [after3_2]
  unfold out3_2
  rw [View.canon_unit_zero zeroOffsets]
  simp only [View.ld_unit_zero (S := S10000x128) zeroOffsets, View.ld_unit_zero (S := S128x128) zeroOffsets]
  have hN : cfg3.N = 10 := N_3
  have ht := t.isLt
  obtain ⟨-, -, -, -, e0, e1⟩ := pointIndex t
  funext j
  obtain ⟨p, q, rfl⟩ : ∃ (p : Fin 10000) (q : Fin 128), j = ix2 p q := ⟨j 0, j 1, eq_ix2 j⟩
  have hemb : ((cfg3.win 2).blk t).view.emb (ix2 p q) = ix2 (⟨10000 * t.val + p.val, by omega⟩ : Fin 100000) q := by
    funext a; apply Fin.ext
    match a with
    | ⟨0, _⟩ => show win3_2.index t (0 : Fin 2) * 10000 + 1 * p.val = 10000 * t.val + p.val; rw [e0]; omega
    | ⟨1, _⟩ => show win3_2.index t (1 : Fin 2) * 128 + 1 * q.val = q.val; rw [e1]; omega
  rw [View.read_apply, hemb]
  exact (blockProduct_apply _ _ p q).trans
    (blockEntry _ _ _ _ p q _ (fun k => featureBlock_apply V c t p k _ rfl) (fun k => weightBlock_apply V c t k q))

/-- An entry of the result array lies in point t's block iff each coordinate lies in the block's range on its axis. -/
theorem mem_resultBlock (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v51).slice (win3_2.rect t)).set ↔ _
  rw [View.set_slice_whole, Rect.mem_set_unit]
  exact Iff.rfl

/-- Row n of the result lies in the block of point n / 10000. -/
theorem covered (i : S100000x128.Idx) : ∃ t : Fin cfg3.N, (cfg3.win 2).flush t = true ∧ i ∈ ((cfg3.win 2).blk t).view.set := by
  have hN : cfg3.N = 10 := N_3
  have hi0 : (i 0).val < 100000 := (i 0).isLt
  have hi1 : (i 1).val < 128 := (i 1).isLt
  obtain ⟨t, ht⟩ : ∃ t : Fin cfg3.N, t.val = (i 0).val / 10000 := ⟨⟨(i 0).val / 10000, by rw [hN]; omega⟩, rfl⟩
  obtain ⟨-, -, -, -, e0, e1⟩ := pointIndex t
  refine ⟨t, flush3_2 t, ?_⟩
  rw [mem_resultBlock]
  intro a
  match a with
  | ⟨0, _⟩ => show win3_2.index t (0 : Fin 2) * 10000 ≤ (i 0).val ∧ (i 0).val < win3_2.index t (0 : Fin 2) * 10000 + 10000; rw [e0, ht]; omega
  | ⟨1, _⟩ => show win3_2.index t (1 : Fin 2) * 128 ≤ (i 1).val ∧ (i 1).val < win3_2.index t (1 : Fin 2) * 128 + 128; rw [e1]; omega

/-- The result array after the whole grid is the product of the feature and weight arrays, -/
theorem value_product (c : Dev nD) :
    (dat3 (F := Ideal) V c).arrAt 2 cfg3.N = product (V c (Pipeline.arrRef spec3 0)) (V c (Pipeline.arrRef spec3 1)) :=
  (dat3 V c).arrAt_eq_of_cover 2 _ (fun t _ => writtenBack_eq V c t) covered

/-- which is the host's product of the two arrays. -/
theorem value (c : Dev nD) :
    (dat3 (F := Ideal) V c).arrAt 2 cfg3.N
      = Cert.Layers.mm (F := Ideal) (V c (Pipeline.arrRef spec3 0)) (V c (Pipeline.arrRef spec3 1)) :=
  (value_product V c).trans (mm_eq_product _ _).symm

end Cert.RegionMatmul3

end
-- ==== Proof.RegionMatmul6.lean ====
/-
  Region 6, a linear map: what its result array holds after the whole grid.

  Each of the 10 grid points multiplies one 10000 × 128 row block of the feature array by the whole 128 × 128 weight
  matrix into a zero accumulator and writes the 10000 × 128 result block back to the same rows. Read entry by entry,
  point t's block is rows 10000·t … 10000·t + 9999 of the product of the whole arrays; the 10 blocks cover the rows, so
  the result array ends as the host's product `Cert.Layers.mm` of the arrays the region found.
-/
import proofs.«107305_j88502096101881_1_alg».proof.Proof.Gen.KernelIdeal.Frame
import proofs.«107305_j88502096101881_1_alg».proof.Proof.MatmulSpec
import Idealize.ShloMosaic.Lib.Pipeline.Value
import Idealize.ShloMosaic.Lib.ValueIdx
import Idealize.ShloMosaic.PureOps.Ideal.Laws

set_option maxRecDepth 16384

noncomputable section

namespace Cert.RegionMatmul6

open Cert.KernelIdeal Cert.KernelIdeal.Gen Cert.MatmulSpec
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

theorem zeroOffsets : (![0, 0] : Fin 2 → Nat) = fun _ => 0 := funext fun a => by fin_cases a <;> rfl

/-- The block indices at point t: the feature and result windows sit at row block t, the weight window at (0, 0). -/
theorem pointIndex : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The body's block product at entry (p, q): the sum over k of a (p, k) · b (k, q) (the narrowing of the operands
    changes nothing on the extended reals). -/
theorem blockProduct_apply (a : Vec Ideal S10000x128 .f32) (b : Vec Ideal S128x128 .f32) (p : Fin 10000) (q : Fin 128) :
    k6_pay1 (F := Ideal) a b (ix2 p q) = ∑ k : Fin 128, a (ix2 p k) * b (ix2 k q) := by
  unfold k6_pay1
  rw [shapeCast_self]
  exact blockMatmul_apply _ _ p q

variable (V : (c : Dev nD) → (b : Ref sig .tc) → Buf (Elt Ideal) ((c : Thread nD τ).loc b))

/-- Row p of the feature block at point t is row 10000·t + p of the feature array. -/
theorem featureBlock_apply (c : Dev nD) (t : Fin cfg6.N) (p : Fin 10000) (k : Fin 128) (n : Fin 100000)
    (hn : n.val = 10000 * t.val + p.val) :
    (iblk6 V c 0 t : Vec Ideal S10000x128 .f32) (ix2 p k) = (V c (Pipeline.arrRef spec6 0) : S100000x128.Idx → EReal) (ix2 n k) := by
  obtain ⟨e0, e1, -⟩ := pointIndex t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 10000 + 1 * p.val = n.val; rw [e0, hn]; omega
  | ⟨1, _⟩ => show win6_0.index t (1 : Fin 2) * 128 + 1 * k.val = k.val; rw [e1]; omega

/-- The weight block at every point is the whole weight array. -/
theorem weightBlock_apply (c : Dev nD) (t : Fin cfg6.N) (k : Fin 128) (q : Fin 128) :
    (iblk6 V c 1 t : Vec Ideal S128x128 .f32) (ix2 k q) = (V c (Pipeline.arrRef spec6 1) : S128x128.Idx → EReal) (ix2 k q) := by
  obtain ⟨-, -, e0, e1, -⟩ := pointIndex t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 128 + 1 * k.val = k.val; rw [e0]; omega
  | ⟨1, _⟩ => show win6_1.index t (1 : Fin 2) * 128 + 1 * q.val = q.val; rw [e1]; omega

/-- What point t writes back is block t of the product of the arrays. -/
theorem writtenBack_eq (c : Dev nD) (t : Fin cfg6.N) :
    (dat6 (F := Ideal) V c).flushed 2 t = ((cfg6.win 2).blk t).view.read (Elt Ideal)
      (product (V c (Pipeline.arrRef spec6 0)) (V c (Pipeline.arrRef spec6 1))) := by
  show (cfg6.win 2).cut (grid6.coords t) ((dat6 V c).after 2 t) = _
  rw [after6_2]
  unfold out6_2
  rw [View.canon_unit_zero zeroOffsets]
  simp only [View.ld_unit_zero (S := S10000x128) zeroOffsets, View.ld_unit_zero (S := S128x128) zeroOffsets]
  have hN : cfg6.N = 10 := N_6
  have ht := t.isLt
  obtain ⟨-, -, -, -, e0, e1⟩ := pointIndex t
  funext j
  obtain ⟨p, q, rfl⟩ : ∃ (p : Fin 10000) (q : Fin 128), j = ix2 p q := ⟨j 0, j 1, eq_ix2 j⟩
  have hemb : ((cfg6.win 2).blk t).view.emb (ix2 p q) = ix2 (⟨10000 * t.val + p.val, by omega⟩ : Fin 100000) q := by
    funext a; apply Fin.ext
    match a with
    | ⟨0, _⟩ => show win6_2.index t (0 : Fin 2) * 10000 + 1 * p.val = 10000 * t.val + p.val; rw [e0]; omega
    | ⟨1, _⟩ => show win6_2.index t (1 : Fin 2) * 128 + 1 * q.val = q.val; rw [e1]; omega
  rw [View.read_apply, hemb]
  exact (blockProduct_apply _ _ p q).trans
    (blockEntry _ _ _ _ p q _ (fun k => featureBlock_apply V c t p k _ rfl) (fun k => weightBlock_apply V c t k q))

/-- An entry of the result array lies in point t's block iff each coordinate lies in the block's range on its axis. -/
theorem mem_resultBlock (t : Fin cfg6.N) (i : S100000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v98).slice (win6_2.rect t)).set ↔ _
  rw [View.set_slice_whole, Rect.mem_set_unit]
  exact Iff.rfl

/-- Row n of the result lies in the block of point n / 10000. -/
theorem covered (i : S100000x128.Idx) : ∃ t : Fin cfg6.N, (cfg6.win 2).flush t = true ∧ i ∈ ((cfg6.win 2).blk t).view.set := by
  have hN : cfg6.N = 10 := N_6
  have hi0 : (i 0).val < 100000 := (i 0).isLt
  have hi1 : (i 1).val < 128 := (i 1).isLt
  obtain ⟨t, ht⟩ : ∃ t : Fin cfg6.N, t.val = (i 0).val / 10000 := ⟨⟨(i 0).val / 10000, by rw [hN]; omega⟩, rfl⟩
  obtain ⟨-, -, -, -, e0, e1⟩ := pointIndex t
  refine ⟨t, flush6_2 t, ?_⟩
  rw [mem_resultBlock]
  intro a
  match a with
  | ⟨0, _⟩ => show win6_2.index t (0 : Fin 2) * 10000 ≤ (i 0).val ∧ (i 0).val < win6_2.index t (0 : Fin 2) * 10000 + 10000; rw [e0, ht]; omega
  | ⟨1, _⟩ => show win6_2.index t (1 : Fin 2) * 128 ≤ (i 1).val ∧ (i 1).val < win6_2.index t (1 : Fin 2) * 128 + 128; rw [e1]; omega

/-- The result array after the whole grid is the product of the feature and weight arrays, -/
theorem value_product (c : Dev nD) :
    (dat6 (F := Ideal) V c).arrAt 2 cfg6.N = product (V c (Pipeline.arrRef spec6 0)) (V c (Pipeline.arrRef spec6 1)) :=
  (dat6 V c).arrAt_eq_of_cover 2 _ (fun t _ => writtenBack_eq V c t) covered

/-- which is the host's product of the two arrays. -/
theorem value (c : Dev nD) :
    (dat6 (F := Ideal) V c).arrAt 2 cfg6.N
      = Cert.Layers.mm (F := Ideal) (V c (Pipeline.arrRef spec6 0)) (V c (Pipeline.arrRef spec6 1)) :=
  (value_product V c).trans (mm_eq_product _ _).symm

end Cert.RegionMatmul6

end
-- ==== Proof.RegionStats1.lean ====
/-
  The two rows of column statistics that the statistics launch leaves behind.

  The launch walks the 100000 × 128 array in 10 blocks of 10000 rows. It carries two 1 × 128 rows from block to block:
  at the first block both rows are set to zero and the block's column sums, resp. column sums of squares, are added;
  at every later block the block's column sums, resp. sums of squares, are added to what the block before left.
  The rows are written back once, after the last block.

  On the extended reals every addition is exact, `0 + x = x`, and addition is commutative and associative, so after
  block `n` each row holds, per column, the sum over the first `n + 1` blocks (`sumRow_after`, `sqRow_after`, by
  induction on `n`), and ten blocks of 10000 rows are the 100000 rows (`blockSum_total`, `blockSumSq_total`). Hence
  after the launch the first array is, per feature column `j`, `∑ n, a (n, j)` and the second `∑ n, a (n, j)²`
  (`sum_value`, `sumsq_value`). No finiteness of the entries is needed.
-/
import proofs.«107305_j88502096101881_1_alg».proof.Proof.Gen.KernelIdeal.Frame
import proofs.«107305_j88502096101881_1_alg».proof.Proof.LibERealSums
import proofs.«107305_j88502096101881_1_alg».proof.Proof.KLayers
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.RegionStats1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The zero offsets of a whole-block store or load. -/
theorem hz : (![0, 0] : Fin 2 → Nat) = fun _ => 0 := funext fun a => by fin_cases a <;> rfl

section Pieces
variable {F : FTy → Type} [FloatOps F]

/-- At a later point the row of sums is left at the old row plus the block's column sums. -/
theorem sumRow_later (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S10000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S10000x128) hz,
    View.ld_unit_zero (S := S1x128) hz]

/-- At a later point the row of sums of squares is left at the old row plus the block's column sums of squares. -/
theorem sqRow_later (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S10000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S10000x128) hz,
    View.ld_unit_zero (S := S1x128) hz]

/-- At the first point the row of sums is left at the zero row plus the block's column sums. -/
theorem sumRow_first (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S10000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S10000x128) hz]

/-- At the first point the row of sums of squares is left at the zero row plus the block's column sums of squares. -/
theorem sqRow_first (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S10000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S10000x128) hz]

end Pieces

/-! ## The payloads read at a column, on the extended reals -/

/-- The sum over the rows of a 10000 × 128 block, read at column `j`. -/
theorem colSum_apply (src : FVec Ideal S10000x128 .f32) (hφ : FKind.Formats .f32)
    (hacc : (0x00000000#32 : BitVec 32) = FKind.add.neutral .f32 hφ) (j : Fin 128) :
    multiReduction .add [0] S128 src 0x00000000#32 reduces_S10000x128_S128 hφ hacc (ix1 j)
      = ∑ r : Fin 10000, src (ix2 r j) :=
  (Ideal.multiReduction_add_single src 0x00000000#32 reduces_S10000x128_S128 hφ hacc (ix1 j)).trans
    (Finset.sum_congr rfl fun r _ => congrArg src (funext fun a => Fin.ext (by
      match a with
      | ⟨0, _⟩ => rfl
      | ⟨1, _⟩ => rfl)))

/-- A vector of 128 columns viewed as a 1 × 128 row, read at column `j`. -/
theorem asRow_apply (v : FVec Ideal S128 .f32) (j : Fin 128) :
    shapeCast S1x128 v shapeCasts_S128_S1x128 (ix2 (0 : Fin 1) j) = v (ix1 j) :=
  (shapeCast_addUnit_apply ![128] v shapeCasts_S128_S1x128 (ix2 (0 : Fin 1) j)).trans
    (congrArg v (funext fun a => by match a with | ⟨0, _⟩ => rfl))

/-- The row of sums after a point: the row before plus the block's column sums. -/
theorem sumPay_apply (x : Vec Ideal S10000x128 .f32) (acc : Vec Ideal S1x128 .f32) (j : Fin 128) :
    k1_pay4 x acc (ix2 (0 : Fin 1) j) = acc (ix2 (0 : Fin 1) j) + ∑ r : Fin 10000, x (ix2 r j) := by
  unfold k1_pay4 k1_pay3
  dsimp only
  refine (addf_apply _ _ _).trans ?_
  refine congrArg₂ (· + ·) (congrFun (shapeCast_self acc _) _) ?_
  refine (asRow_apply _ j).trans ?_
  refine (colSum_apply _ _ _ j).trans ?_
  exact Finset.sum_congr rfl fun r _ => congrFun (shapeCast_self x _) _

/-- The row of sums of squares after a point: the row before plus the block's column sums of squares. -/
theorem sqPay_apply (x : Vec Ideal S10000x128 .f32) (acc : Vec Ideal S1x128 .f32) (j : Fin 128) :
    k1_pay5 x acc (ix2 (0 : Fin 1) j)
      = acc (ix2 (0 : Fin 1) j) + ∑ r : Fin 10000, x (ix2 r j) * x (ix2 r j) := by
  unfold k1_pay5 k1_pay3
  dsimp only
  refine (addf_apply _ _ _).trans ?_
  refine congrArg₂ (· + ·) (congrFun (shapeCast_self acc _) _) ?_
  refine (asRow_apply _ j).trans ?_
  refine (colSum_apply _ _ _ j).trans ?_
  refine Finset.sum_congr rfl fun r _ => ?_
  refine (mulf_apply _ _ _).trans ?_
  exact congrArg₂ (· * ·) (congrFun (shapeCast_self x _) _) (congrFun (shapeCast_self x _) _)

/-- The zero row the first point stores for the sums, read at a column. -/
theorem zeroRow1_apply (y : S1x128.Idx) : (k1_pay1 (F := Ideal)) y = 0 := by
  unfold k1_pay1
  exact Ideal.ofBits_zero_f32

/-- The zero row the first point stores for the sums of squares, read at a column. -/
theorem zeroRow2_apply (y : S1x128.Idx) : (k1_pay2 (F := Ideal)) y = 0 := by
  unfold k1_pay2
  exact Ideal.ofBits_zero_f32

/-! ## The input block at a point, and the running sums -/

section Running
variable (V : (c : Dev nD) → (b : Ref sig .tc) → Buf (Elt Ideal) ((c : Thread nD τ).loc b))

/-- The input window's block index at point `t` is `(t, 0)`. -/
theorem inBlk_index : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row `r` of the input block at point `t` is row `10000 t + r` of the array. -/
theorem inBlk_apply (c : Dev nD) (t : Fin cfg1.N) (x : S10000x128.Idx) (k : S100000x128.Idx)
    (hk0 : (k 0).val = t.val * 10000 + (x 0).val) (hk1 : (k 1).val = (x 1).val) :
    (iblk1 V c 0 t : Vec Ideal S10000x128 .f32) x
      = (V c (Pipeline.arrRef spec1 0) : S100000x128.Idx → Elt Ideal .f32) k := by
  have hi := inBlk_index t
  unfold iblk1
  rw [View.read_apply]
  show V c (Pipeline.arrRef spec1 0) _ = V c (Pipeline.arrRef spec1 0) _
  congr 1
  funext a
  apply Fin.ext
  match a with
  | ⟨0, _⟩ => show win1_0.index t 0 * 10000 + 1 * (x 0).val = (k 0).val; rw [hi.1, hk0]; omega
  | ⟨1, _⟩ => show win1_0.index t 1 * 128 + 1 * (x 1).val = (k 1).val; rw [hi.2, hk1]; omega

/-- The sum of column `j` over the rows of block `s` of a 100000 × 128 array (zero past the last block). -/
def blockSum (X : S100000x128.Idx → EReal) (j : Fin 128) (s : ℕ) : EReal :=
  ∑ l : Fin 10000, if h : s * 10000 + l.val < 100000 then X (ix2 ⟨s * 10000 + l.val, h⟩ j) else 0

/-- The same for the squares. -/
def blockSumSq (X : S100000x128.Idx → EReal) (j : Fin 128) (s : ℕ) : EReal :=
  ∑ l : Fin 10000, if h : s * 10000 + l.val < 100000 then X (ix2 ⟨s * 10000 + l.val, h⟩ j) * X (ix2 ⟨s * 10000 + l.val, h⟩ j) else 0

/-- A block whose rows are rows `10000 t + r` of an array has, per column, the array's sum over block `t`. -/
theorem colSum_of_rows (x : S10000x128.Idx → EReal) (X : S100000x128.Idx → EReal) (t : ℕ) (ht : t < 10)
    (hx : ∀ (r : Fin 10000) (j : Fin 128) (hr : t * 10000 + r.val < 100000), x (ix2 r j) = X (ix2 ⟨t * 10000 + r.val, hr⟩ j))
    (j : Fin 128) : ∑ r : Fin 10000, x (ix2 r j) = blockSum X j t := by
  unfold blockSum
  refine Finset.sum_congr rfl fun r _ => ?_
  have hr : t * 10000 + r.val < 100000 := by have := r.isLt; omega
  rw [dif_pos hr]
  exact hx r j hr

/-- … and the array's sum of squares over block `t`. -/
theorem colSumSq_of_rows (x : S10000x128.Idx → EReal) (X : S100000x128.Idx → EReal) (t : ℕ) (ht : t < 10)
    (hx : ∀ (r : Fin 10000) (j : Fin 128) (hr : t * 10000 + r.val < 100000), x (ix2 r j) = X (ix2 ⟨t * 10000 + r.val, hr⟩ j))
    (j : Fin 128) : ∑ r : Fin 10000, x (ix2 r j) * x (ix2 r j) = blockSumSq X j t := by
  unfold blockSumSq
  refine Finset.sum_congr rfl fun r _ => ?_
  have hr : t * 10000 + r.val < 100000 := by have := r.isLt; omega
  rw [dif_pos hr, hx r j hr]

/-- The rows of the input block at point `t` are rows `10000 t + r` of the array. -/
theorem inBlk_rows (c : Dev nD) (t : Fin cfg1.N) (r : Fin 10000) (j : Fin 128) (hr : t.val * 10000 + r.val < 100000) :
    (iblk1 V c 0 t : S10000x128.Idx → EReal) (ix2 r j)
      = (V c (Pipeline.arrRef spec1 0) : S100000x128.Idx → EReal) (ix2 ⟨t.val * 10000 + r.val, hr⟩ j) :=
  inBlk_apply V c t (ix2 r j) (ix2 ⟨t.val * 10000 + r.val, hr⟩ j) rfl rfl

/-- What the two rows hold after the first point. -/
theorem rows_first (c : Dev nD) (t : Fin cfg1.N) (h0 : t.val % 10 = 0) :
    (outsAt1 V c t.val t.isLt).1 = k1_pay4 (iblk1 V c 0 t) (k1_pay1 (F := Ideal))
      ∧ (outsAt1 V c t.val t.isLt).2 = k1_pay5 (iblk1 V c 0 t) (k1_pay2 (F := Ideal)) :=
  ⟨(congrArg Prod.fst (outsAt1_A V c t h0)).trans
      (sumRow_first c (grid1.coords t) (ms1_0 t) (hs1_0 t) (ms1_1 t) (hs1_1 t) (ms1_2 t) (hs1_2 t) ((hcond1_0 t).mpr h0) (iblk1 V c 0 t)),
   (congrArg Prod.snd (outsAt1_A V c t h0)).trans
      (sqRow_first c (grid1.coords t) (ms1_0 t) (hs1_0 t) (ms1_1 t) (hs1_1 t) (ms1_2 t) (hs1_2 t) ((hcond1_0 t).mpr h0) (iblk1 V c 0 t))⟩

/-- What the two rows hold after a later point, from what the point before left. -/
theorem rows_later (c : Dev nD) (t : Fin cfg1.N) (h0 : ¬t.val % 10 = 0) :
    (outsAt1 V c t.val t.isLt).1
        = k1_pay4 (iblk1 V c 0 t) (outsAt1 V c (t.val - 1) (Nat.lt_of_le_of_lt (Nat.sub_le _ _) t.isLt)).1
      ∧ (outsAt1 V c t.val t.isLt).2
        = k1_pay5 (iblk1 V c 0 t) (outsAt1 V c (t.val - 1) (Nat.lt_of_le_of_lt (Nat.sub_le _ _) t.isLt)).2 :=
  ⟨(congrArg Prod.fst (outsAt1_B V c t h0)).trans
      (sumRow_later c (grid1.coords t) (ms1_0 t) (hs1_0 t) (ms1_1 t) (hs1_1 t) (ms1_2 t) (hs1_2 t) (fun h => h0 ((hcond1_0 t).mp h)) (iblk1 V c 0 t)
        (outsAt1 V c (t.val - 1) (Nat.lt_of_le_of_lt (Nat.sub_le _ _) t.isLt)).1 (outsAt1 V c (t.val - 1) (Nat.lt_of_le_of_lt (Nat.sub_le _ _) t.isLt)).2),
   (congrArg Prod.snd (outsAt1_B V c t h0)).trans
      (sqRow_later c (grid1.coords t) (ms1_0 t) (hs1_0 t) (ms1_1 t) (hs1_1 t) (ms1_2 t) (hs1_2 t) (fun h => h0 ((hcond1_0 t).mp h)) (iblk1 V c 0 t)
        (outsAt1 V c (t.val - 1) (Nat.lt_of_le_of_lt (Nat.sub_le _ _) t.isLt)).1 (outsAt1 V c (t.val - 1) (Nat.lt_of_le_of_lt (Nat.sub_le _ _) t.isLt)).2)⟩

/-- After point `n` the row of sums holds, per column, the sum over the first `n + 1` blocks. -/
theorem sumRow_after (c : Dev nD) : ∀ (n : ℕ) (h : n < cfg1.N) (j : Fin 128),
    ((outsAt1 V c n h).1 : Vec Ideal S1x128 .f32) (ix2 (0 : Fin 1) j)
      = ∑ s ∈ Finset.range (n + 1), blockSum (V c (Pipeline.arrRef spec1 0)) j s
  | 0, h, j => by
    rw [(rows_first V c ⟨0, h⟩ rfl).1, sumPay_apply, zeroRow1_apply, zero_add, Finset.sum_range_one]
    exact colSum_of_rows _ _ 0 (by omega) (inBlk_rows V c ⟨0, h⟩) j
  | n + 1, h, j => by
    have hN : n + 1 < 10 := lt_of_lt_of_eq h (show cfg1.N = 10 from N_1)
    have hB : ¬(⟨n + 1, h⟩ : Fin cfg1.N).val % 10 = 0 := by dsimp only; omega
    rw [(rows_later V c ⟨n + 1, h⟩ hB).1, sumPay_apply, Finset.sum_range_succ _ (n + 1)]
    refine congrArg₂ (· + ·) ?_ (colSum_of_rows _ _ (n + 1) hN (inBlk_rows V c ⟨n + 1, h⟩) j)
    exact sumRow_after c n (Nat.lt_of_succ_lt h) j

/-- After point `n` the row of sums of squares holds, per column, the sum of squares over the first `n + 1` blocks. -/
theorem sqRow_after (c : Dev nD) : ∀ (n : ℕ) (h : n < cfg1.N) (j : Fin 128),
    ((outsAt1 V c n h).2 : Vec Ideal S1x128 .f32) (ix2 (0 : Fin 1) j)
      = ∑ s ∈ Finset.range (n + 1), blockSumSq (V c (Pipeline.arrRef spec1 0)) j s
  | 0, h, j => by
    rw [(rows_first V c ⟨0, h⟩ rfl).2, sqPay_apply, zeroRow2_apply, zero_add, Finset.sum_range_one]
    exact colSumSq_of_rows _ _ 0 (by omega) (inBlk_rows V c ⟨0, h⟩) j
  | n + 1, h, j => by
    have hN : n + 1 < 10 := lt_of_lt_of_eq h (show cfg1.N = 10 from N_1)
    have hB : ¬(⟨n + 1, h⟩ : Fin cfg1.N).val % 10 = 0 := by dsimp only; omega
    rw [(rows_later V c ⟨n + 1, h⟩ hB).2, sqPay_apply, Finset.sum_range_succ _ (n + 1)]
    refine congrArg₂ (· + ·) ?_ (colSumSq_of_rows _ _ (n + 1) hN (inBlk_rows V c ⟨n + 1, h⟩) j)
    exact sqRow_after c n (Nat.lt_of_succ_lt h) j

end Running

/-! ## The rows after the last point, and the arrays after the grid -/

/-- A sum over the 100000 nodes is the sum over the 10 blocks of 10000 consecutive nodes. -/
theorem sum_blocks_10_10000 {M : Type*} [AddCommMonoid M] (f : Fin 100000 → M) (F : ℕ → Fin 10000 → M)
    (hF : ∀ (s : ℕ) (hs : s < 10) (l : Fin 10000), F s l = f ⟨s * 10000 + l.val, by have := l.isLt; omega⟩) :
    ∑ s ∈ Finset.range 10, ∑ l : Fin 10000, F s l = ∑ n, f n :=
  Cert.LibERealSums.sum_blocks_range (a := 10) (b := 10000) f F hF

/-- The ten block sums of a column add up to the column's sum. -/
theorem blockSum_total (X : S100000x128.Idx → EReal) (j : Fin 128) :
    ∑ s ∈ Finset.range 10, blockSum X j s = ∑ n : Fin 100000, X (ix2 n j) := by
  unfold blockSum
  exact sum_blocks_10_10000 (fun n => X (ix2 n j))
    (fun s l => if h : s * 10000 + l.val < 100000 then X (ix2 ⟨s * 10000 + l.val, h⟩ j) else 0)
    fun s hs l => dif_pos (by have := l.isLt; omega)

/-- The ten block sums of squares of a column add up to the column's sum of squares. -/
theorem blockSumSq_total (X : S100000x128.Idx → EReal) (j : Fin 128) :
    ∑ s ∈ Finset.range 10, blockSumSq X j s = ∑ n : Fin 100000, X (ix2 n j) * X (ix2 n j) := by
  unfold blockSumSq
  exact sum_blocks_10_10000 (fun n => X (ix2 n j) * X (ix2 n j))
    (fun s l => if h : s * 10000 + l.val < 100000 then X (ix2 ⟨s * 10000 + l.val, h⟩ j) * X (ix2 ⟨s * 10000 + l.val, h⟩ j) else 0)
    fun s hs l => dif_pos (by have := l.isLt; omega)

section Final
variable (V : (c : Dev nD) → (b : Ref sig .tc) → Buf (Elt Ideal) ((c : Thread nD τ).loc b))

/-- After the last point the row of sums is the column sums of the whole array. -/
theorem sumRow_last (c : Dev nD) :
    ((outsAt1 V c t1_9.val t1_9.isLt).1 : S1x128.Idx → EReal) = Cert.KLayers.sumCols (V c (Pipeline.arrRef spec1 0)) := by
  funext y
  obtain ⟨p, q, rfl⟩ : ∃ (p : Fin 1) (q : Fin 128), y = ix2 p q := ⟨y 0, y 1, eq_ix2 y⟩
  obtain rfl : p = 0 := Subsingleton.elim _ _
  refine (sumRow_after V c 9 t1_9.isLt q).trans ?_
  unfold Cert.KLayers.sumCols
  exact blockSum_total _ q

/-- After the last point the row of sums of squares is the column sums of squares of the whole array. -/
theorem sqRow_last (c : Dev nD) :
    ((outsAt1 V c t1_9.val t1_9.isLt).2 : S1x128.Idx → EReal) = Cert.KLayers.sumSqCols (V c (Pipeline.arrRef spec1 0)) := by
  funext y
  obtain ⟨p, q, rfl⟩ : ∃ (p : Fin 1) (q : Fin 128), y = ix2 p q := ⟨y 0, y 1, eq_ix2 y⟩
  obtain rfl : p = 0 := Subsingleton.elim _ _
  refine (sqRow_after V c 9 t1_9.isLt q).trans ?_
  unfold Cert.KLayers.sumSqCols
  exact blockSumSq_total _ q

/-- The one write-back of the row of sums, at the last point, writes the column sums of the whole array. -/
theorem sum_flushed (c : Dev nD) (t : Fin cfg1.N) (hf : (cfg1.win 1).flush t = true) :
    (dat1 V c).flushed 1 t
      = ((cfg1.win 1).blk t).view.read (Elt Ideal) (Cert.KLayers.sumCols (V c (Pipeline.arrRef spec1 0))) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1, sumRow_last]
  have hz' : (fun a => win1_1.index t1_9 a * main_v41_0.ty.shape.size a) = fun _ => 0 :=
    funext fun a => by fin_cases a <;> decide
  exact (Memref.read_access_unit_zero (Elt Ideal) main_v41_0 hz' (fun a => by rw [congrFun hz' a]; simp)
    (Cert.KLayers.sumCols (V c (Pipeline.arrRef spec1 0)))).symm

/-- The one write-back of the row of sums of squares, at the last point, writes the column sums of squares. -/
theorem sumsq_flushed (c : Dev nD) (t : Fin cfg1.N) (hf : (cfg1.win 2).flush t = true) :
    (dat1 V c).flushed 2 t
      = ((cfg1.win 2).blk t).view.read (Elt Ideal) (Cert.KLayers.sumSqCols (V c (Pipeline.arrRef spec1 0))) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, sqRow_last]
  have hz' : (fun a => win1_2.index t1_9 a * main_v41_1.ty.shape.size a) = fun _ => 0 :=
    funext fun a => by fin_cases a <;> decide
  exact (Memref.read_access_unit_zero (Elt Ideal) main_v41_1 hz' (fun a => by rw [congrFun hz' a]; simp)
    (Cert.KLayers.sumSqCols (V c (Pipeline.arrRef spec1 0)))).symm

/-- After the grid the first output array holds, per feature column, the sum of the column over the 100000 nodes. -/
theorem sum_value (c : Dev nD) :
    (dat1 (F := Ideal) V c).arrAt 1 cfg1.N = Cert.KLayers.sumCols (V c (Pipeline.arrRef spec1 0)) :=
  (dat1 V c).arrAt_eq_of_cover 1 (Cert.KLayers.sumCols (V c (Pipeline.arrRef spec1 0))) (sum_flushed V c) fun i =>
    ⟨t1_9, (flush1_1 t1_9).mpr rfl, by
      show i ∈ ((View.whole main_v41_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ =>
        show win1_1.index t1_9 0 * win1_1.size 0 ≤ (i 0 : Nat)
          ∧ (i 0 : Nat) < win1_1.index t1_9 0 * win1_1.size 0 + win1_1.xsize (grid1.coords t1_9) 0
        rw [show win1_1.index t1_9 0 * win1_1.size 0 = 0 from by decide +kernel,
          show win1_1.xsize (grid1.coords t1_9) 0 = 1 from by decide +kernel]
        omega
      | ⟨1, _⟩ =>
        show win1_1.index t1_9 1 * win1_1.size 1 ≤ (i 1 : Nat)
          ∧ (i 1 : Nat) < win1_1.index t1_9 1 * win1_1.size 1 + win1_1.xsize (grid1.coords t1_9) 1
        rw [show win1_1.index t1_9 1 * win1_1.size 1 = 0 from by decide +kernel,
          show win1_1.xsize (grid1.coords t1_9) 1 = 128 from by decide +kernel]
        omega⟩

/-- After the grid the second output array holds, per feature column, the sum of the squares of the column. -/
theorem sumsq_value (c : Dev nD) :
    (dat1 (F := Ideal) V c).arrAt 2 cfg1.N = Cert.KLayers.sumSqCols (V c (Pipeline.arrRef spec1 0)) :=
  (dat1 V c).arrAt_eq_of_cover 2 (Cert.KLayers.sumSqCols (V c (Pipeline.arrRef spec1 0))) (sumsq_flushed V c) fun i =>
    ⟨t1_9, (flush1_2 t1_9).mpr rfl, by
      show i ∈ ((View.whole main_v41_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index t1_9 0 * win1_2.size 0 ≤ (i 0 : Nat)
          ∧ (i 0 : Nat) < win1_2.index t1_9 0 * win1_2.size 0 + win1_2.xsize (grid1.coords t1_9) 0
        rw [show win1_2.index t1_9 0 * win1_2.size 0 = 0 from by decide +kernel,
          show win1_2.xsize (grid1.coords t1_9) 0 = 1 from by decide +kernel]
        omega
      | ⟨1, _⟩ =>
        show win1_2.index t1_9 1 * win1_2.size 1 ≤ (i 1 : Nat)
          ∧ (i 1 : Nat) < win1_2.index t1_9 1 * win1_2.size 1 + win1_2.xsize (grid1.coords t1_9) 1
        rw [show win1_2.index t1_9 1 * win1_2.size 1 = 0 from by decide +kernel,
          show win1_2.xsize (grid1.coords t1_9) 1 = 128 from by decide +kernel]
        omega⟩

end Final

end Cert.RegionStats1

end
-- ==== Proof.RegionStats4.lean ====
/-
  The two rows of column statistics that the statistics launch leaves behind.

  The launch walks the 100000 × 128 array in 10 blocks of 10000 rows. It carries two 1 × 128 rows from block to block:
  at the first block both rows are set to zero and the block's column sums, resp. column sums of squares, are added;
  at every later block the block's column sums, resp. sums of squares, are added to what the block before left.
  The rows are written back once, after the last block.

  On the extended reals every addition is exact, `0 + x = x`, and addition is commutative and associative, so after
  block `n` each row holds, per column, the sum over the first `n + 1` blocks (`sumRow_after`, `sqRow_after`, by
  induction on `n`), and ten blocks of 10000 rows are the 100000 rows (`blockSum_total`, `blockSumSq_total`). Hence
  after the launch the first array is, per feature column `j`, `∑ n, a (n, j)` and the second `∑ n, a (n, j)²`
  (`sum_value`, `sumsq_value`). No finiteness of the entries is needed.
-/
import proofs.«107305_j88502096101881_1_alg».proof.Proof.Gen.KernelIdeal.Frame
import proofs.«107305_j88502096101881_1_alg».proof.Proof.LibERealSums
import proofs.«107305_j88502096101881_1_alg».proof.Proof.KLayers
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.RegionStats4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The zero offsets of a whole-block store or load. -/
theorem hz : (![0, 0] : Fin 2 → Nat) = fun _ => 0 := funext fun a => by fin_cases a <;> rfl

section Pieces
variable {F : FTy → Type} [FloatOps F]

/-- At a later point the row of sums is left at the old row plus the block's column sums. -/
theorem sumRow_later (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S10000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S10000x128) hz,
    View.ld_unit_zero (S := S1x128) hz]

/-- At a later point the row of sums of squares is left at the old row plus the block's column sums of squares. -/
theorem sqRow_later (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S10000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S10000x128) hz,
    View.ld_unit_zero (S := S1x128) hz]

/-- At the first point the row of sums is left at the zero row plus the block's column sums. -/
theorem sumRow_first (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S10000x128 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S10000x128) hz]

/-- At the first point the row of sums of squares is left at the zero row plus the block's column sums of squares. -/
theorem sqRow_first (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S10000x128 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S10000x128) hz]

end Pieces

/-! ## The payloads read at a column, on the extended reals -/

/-- The sum over the rows of a 10000 × 128 block, read at column `j`. -/
theorem colSum_apply (src : FVec Ideal S10000x128 .f32) (hφ : FKind.Formats .f32)
    (hacc : (0x00000000#32 : BitVec 32) = FKind.add.neutral .f32 hφ) (j : Fin 128) :
    multiReduction .add [0] S128 src 0x00000000#32 reduces_S10000x128_S128 hφ hacc (ix1 j)
      = ∑ r : Fin 10000, src (ix2 r j) :=
  (Ideal.multiReduction_add_single src 0x00000000#32 reduces_S10000x128_S128 hφ hacc (ix1 j)).trans
    (Finset.sum_congr rfl fun r _ => congrArg src (funext fun a => Fin.ext (by
      match a with
      | ⟨0, _⟩ => rfl
      | ⟨1, _⟩ => rfl)))

/-- A vector of 128 columns viewed as a 1 × 128 row, read at column `j`. -/
theorem asRow_apply (v : FVec Ideal S128 .f32) (j : Fin 128) :
    shapeCast S1x128 v shapeCasts_S128_S1x128 (ix2 (0 : Fin 1) j) = v (ix1 j) :=
  (shapeCast_addUnit_apply ![128] v shapeCasts_S128_S1x128 (ix2 (0 : Fin 1) j)).trans
    (congrArg v (funext fun a => by match a with | ⟨0, _⟩ => rfl))

/-- The row of sums after a point: the row before plus the block's column sums. -/
theorem sumPay_apply (x : Vec Ideal S10000x128 .f32) (acc : Vec Ideal S1x128 .f32) (j : Fin 128) :
    k4_pay4 x acc (ix2 (0 : Fin 1) j) = acc (ix2 (0 : Fin 1) j) + ∑ r : Fin 10000, x (ix2 r j) := by
  unfold k4_pay4 k4_pay3
  dsimp only
  refine (addf_apply _ _ _).trans ?_
  refine congrArg₂ (· + ·) (congrFun (shapeCast_self acc _) _) ?_
  refine (asRow_apply _ j).trans ?_
  refine (colSum_apply _ _ _ j).trans ?_
  exact Finset.sum_congr rfl fun r _ => congrFun (shapeCast_self x _) _

/-- The row of sums of squares after a point: the row before plus the block's column sums of squares. -/
theorem sqPay_apply (x : Vec Ideal S10000x128 .f32) (acc : Vec Ideal S1x128 .f32) (j : Fin 128) :
    k4_pay5 x acc (ix2 (0 : Fin 1) j)
      = acc (ix2 (0 : Fin 1) j) + ∑ r : Fin 10000, x (ix2 r j) * x (ix2 r j) := by
  unfold k4_pay5 k4_pay3
  dsimp only
  refine (addf_apply _ _ _).trans ?_
  refine congrArg₂ (· + ·) (congrFun (shapeCast_self acc _) _) ?_
  refine (asRow_apply _ j).trans ?_
  refine (colSum_apply _ _ _ j).trans ?_
  refine Finset.sum_congr rfl fun r _ => ?_
  refine (mulf_apply _ _ _).trans ?_
  exact congrArg₂ (· * ·) (congrFun (shapeCast_self x _) _) (congrFun (shapeCast_self x _) _)

/-- The zero row the first point stores for the sums, read at a column. -/
theorem zeroRow1_apply (y : S1x128.Idx) : (k4_pay1 (F := Ideal)) y = 0 := by
  unfold k4_pay1
  exact Ideal.ofBits_zero_f32

/-- The zero row the first point stores for the sums of squares, read at a column. -/
theorem zeroRow2_apply (y : S1x128.Idx) : (k4_pay2 (F := Ideal)) y = 0 := by
  unfold k4_pay2
  exact Ideal.ofBits_zero_f32

/-! ## The input block at a point, and the running sums -/

section Running
variable (V : (c : Dev nD) → (b : Ref sig .tc) → Buf (Elt Ideal) ((c : Thread nD τ).loc b))

/-- The input window's block index at point `t` is `(t, 0)`. -/
theorem inBlk_index : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Row `r` of the input block at point `t` is row `10000 t + r` of the array. -/
theorem inBlk_apply (c : Dev nD) (t : Fin cfg4.N) (x : S10000x128.Idx) (k : S100000x128.Idx)
    (hk0 : (k 0).val = t.val * 10000 + (x 0).val) (hk1 : (k 1).val = (x 1).val) :
    (iblk4 V c 0 t : Vec Ideal S10000x128 .f32) x
      = (V c (Pipeline.arrRef spec4 0) : S100000x128.Idx → Elt Ideal .f32) k := by
  have hi := inBlk_index t
  unfold iblk4
  rw [View.read_apply]
  show V c (Pipeline.arrRef spec4 0) _ = V c (Pipeline.arrRef spec4 0) _
  congr 1
  funext a
  apply Fin.ext
  match a with
  | ⟨0, _⟩ => show win4_0.index t 0 * 10000 + 1 * (x 0).val = (k 0).val; rw [hi.1, hk0]; omega
  | ⟨1, _⟩ => show win4_0.index t 1 * 128 + 1 * (x 1).val = (k 1).val; rw [hi.2, hk1]; omega

/-- The sum of column `j` over the rows of block `s` of a 100000 × 128 array (zero past the last block). -/
def blockSum (X : S100000x128.Idx → EReal) (j : Fin 128) (s : ℕ) : EReal :=
  ∑ l : Fin 10000, if h : s * 10000 + l.val < 100000 then X (ix2 ⟨s * 10000 + l.val, h⟩ j) else 0

/-- The same for the squares. -/
def blockSumSq (X : S100000x128.Idx → EReal) (j : Fin 128) (s : ℕ) : EReal :=
  ∑ l : Fin 10000, if h : s * 10000 + l.val < 100000 then X (ix2 ⟨s * 10000 + l.val, h⟩ j) * X (ix2 ⟨s * 10000 + l.val, h⟩ j) else 0

/-- A block whose rows are rows `10000 t + r` of an array has, per column, the array's sum over block `t`. -/
theorem colSum_of_rows (x : S10000x128.Idx → EReal) (X : S100000x128.Idx → EReal) (t : ℕ) (ht : t < 10)
    (hx : ∀ (r : Fin 10000) (j : Fin 128) (hr : t * 10000 + r.val < 100000), x (ix2 r j) = X (ix2 ⟨t * 10000 + r.val, hr⟩ j))
    (j : Fin 128) : ∑ r : Fin 10000, x (ix2 r j) = blockSum X j t := by
  unfold blockSum
  refine Finset.sum_congr rfl fun r _ => ?_
  have hr : t * 10000 + r.val < 100000 := by have := r.isLt; omega
  rw [dif_pos hr]
  exact hx r j hr

/-- … and the array's sum of squares over block `t`. -/
theorem colSumSq_of_rows (x : S10000x128.Idx → EReal) (X : S100000x128.Idx → EReal) (t : ℕ) (ht : t < 10)
    (hx : ∀ (r : Fin 10000) (j : Fin 128) (hr : t * 10000 + r.val < 100000), x (ix2 r j) = X (ix2 ⟨t * 10000 + r.val, hr⟩ j))
    (j : Fin 128) : ∑ r : Fin 10000, x (ix2 r j) * x (ix2 r j) = blockSumSq X j t := by
  unfold blockSumSq
  refine Finset.sum_congr rfl fun r _ => ?_
  have hr : t * 10000 + r.val < 100000 := by have := r.isLt; omega
  rw [dif_pos hr, hx r j hr]

/-- The rows of the input block at point `t` are rows `10000 t + r` of the array. -/
theorem inBlk_rows (c : Dev nD) (t : Fin cfg4.N) (r : Fin 10000) (j : Fin 128) (hr : t.val * 10000 + r.val < 100000) :
    (iblk4 V c 0 t : S10000x128.Idx → EReal) (ix2 r j)
      = (V c (Pipeline.arrRef spec4 0) : S100000x128.Idx → EReal) (ix2 ⟨t.val * 10000 + r.val, hr⟩ j) :=
  inBlk_apply V c t (ix2 r j) (ix2 ⟨t.val * 10000 + r.val, hr⟩ j) rfl rfl

/-- What the two rows hold after the first point. -/
theorem rows_first (c : Dev nD) (t : Fin cfg4.N) (h0 : t.val % 10 = 0) :
    (outsAt4 V c t.val t.isLt).1 = k4_pay4 (iblk4 V c 0 t) (k4_pay1 (F := Ideal))
      ∧ (outsAt4 V c t.val t.isLt).2 = k4_pay5 (iblk4 V c 0 t) (k4_pay2 (F := Ideal)) :=
  ⟨(congrArg Prod.fst (outsAt4_A V c t h0)).trans
      (sumRow_first c (grid4.coords t) (ms4_0 t) (hs4_0 t) (ms4_1 t) (hs4_1 t) (ms4_2 t) (hs4_2 t) ((hcond4_0 t).mpr h0) (iblk4 V c 0 t)),
   (congrArg Prod.snd (outsAt4_A V c t h0)).trans
      (sqRow_first c (grid4.coords t) (ms4_0 t) (hs4_0 t) (ms4_1 t) (hs4_1 t) (ms4_2 t) (hs4_2 t) ((hcond4_0 t).mpr h0) (iblk4 V c 0 t))⟩

/-- What the two rows hold after a later point, from what the point before left. -/
theorem rows_later (c : Dev nD) (t : Fin cfg4.N) (h0 : ¬t.val % 10 = 0) :
    (outsAt4 V c t.val t.isLt).1
        = k4_pay4 (iblk4 V c 0 t) (outsAt4 V c (t.val - 1) (Nat.lt_of_le_of_lt (Nat.sub_le _ _) t.isLt)).1
      ∧ (outsAt4 V c t.val t.isLt).2
        = k4_pay5 (iblk4 V c 0 t) (outsAt4 V c (t.val - 1) (Nat.lt_of_le_of_lt (Nat.sub_le _ _) t.isLt)).2 :=
  ⟨(congrArg Prod.fst (outsAt4_B V c t h0)).trans
      (sumRow_later c (grid4.coords t) (ms4_0 t) (hs4_0 t) (ms4_1 t) (hs4_1 t) (ms4_2 t) (hs4_2 t) (fun h => h0 ((hcond4_0 t).mp h)) (iblk4 V c 0 t)
        (outsAt4 V c (t.val - 1) (Nat.lt_of_le_of_lt (Nat.sub_le _ _) t.isLt)).1 (outsAt4 V c (t.val - 1) (Nat.lt_of_le_of_lt (Nat.sub_le _ _) t.isLt)).2),
   (congrArg Prod.snd (outsAt4_B V c t h0)).trans
      (sqRow_later c (grid4.coords t) (ms4_0 t) (hs4_0 t) (ms4_1 t) (hs4_1 t) (ms4_2 t) (hs4_2 t) (fun h => h0 ((hcond4_0 t).mp h)) (iblk4 V c 0 t)
        (outsAt4 V c (t.val - 1) (Nat.lt_of_le_of_lt (Nat.sub_le _ _) t.isLt)).1 (outsAt4 V c (t.val - 1) (Nat.lt_of_le_of_lt (Nat.sub_le _ _) t.isLt)).2)⟩

/-- After point `n` the row of sums holds, per column, the sum over the first `n + 1` blocks. -/
theorem sumRow_after (c : Dev nD) : ∀ (n : ℕ) (h : n < cfg4.N) (j : Fin 128),
    ((outsAt4 V c n h).1 : Vec Ideal S1x128 .f32) (ix2 (0 : Fin 1) j)
      = ∑ s ∈ Finset.range (n + 1), blockSum (V c (Pipeline.arrRef spec4 0)) j s
  | 0, h, j => by
    rw [(rows_first V c ⟨0, h⟩ rfl).1, sumPay_apply, zeroRow1_apply, zero_add, Finset.sum_range_one]
    exact colSum_of_rows _ _ 0 (by omega) (inBlk_rows V c ⟨0, h⟩) j
  | n + 1, h, j => by
    have hN : n + 1 < 10 := lt_of_lt_of_eq h (show cfg4.N = 10 from N_4)
    have hB : ¬(⟨n + 1, h⟩ : Fin cfg4.N).val % 10 = 0 := by dsimp only; omega
    rw [(rows_later V c ⟨n + 1, h⟩ hB).1, sumPay_apply, Finset.sum_range_succ _ (n + 1)]
    refine congrArg₂ (· + ·) ?_ (colSum_of_rows _ _ (n + 1) hN (inBlk_rows V c ⟨n + 1, h⟩) j)
    exact sumRow_after c n (Nat.lt_of_succ_lt h) j

/-- After point `n` the row of sums of squares holds, per column, the sum of squares over the first `n + 1` blocks. -/
theorem sqRow_after (c : Dev nD) : ∀ (n : ℕ) (h : n < cfg4.N) (j : Fin 128),
    ((outsAt4 V c n h).2 : Vec Ideal S1x128 .f32) (ix2 (0 : Fin 1) j)
      = ∑ s ∈ Finset.range (n + 1), blockSumSq (V c (Pipeline.arrRef spec4 0)) j s
  | 0, h, j => by
    rw [(rows_first V c ⟨0, h⟩ rfl).2, sqPay_apply, zeroRow2_apply, zero_add, Finset.sum_range_one]
    exact colSumSq_of_rows _ _ 0 (by omega) (inBlk_rows V c ⟨0, h⟩) j
  | n + 1, h, j => by
    have hN : n + 1 < 10 := lt_of_lt_of_eq h (show cfg4.N = 10 from N_4)
    have hB : ¬(⟨n + 1, h⟩ : Fin cfg4.N).val % 10 = 0 := by dsimp only; omega
    rw [(rows_later V c ⟨n + 1, h⟩ hB).2, sqPay_apply, Finset.sum_range_succ _ (n + 1)]
    refine congrArg₂ (· + ·) ?_ (colSumSq_of_rows _ _ (n + 1) hN (inBlk_rows V c ⟨n + 1, h⟩) j)
    exact sqRow_after c n (Nat.lt_of_succ_lt h) j

end Running

/-! ## The rows after the last point, and the arrays after the grid -/

/-- A sum over the 100000 nodes is the sum over the 10 blocks of 10000 consecutive nodes. -/
theorem sum_blocks_10_10000 {M : Type*} [AddCommMonoid M] (f : Fin 100000 → M) (F : ℕ → Fin 10000 → M)
    (hF : ∀ (s : ℕ) (hs : s < 10) (l : Fin 10000), F s l = f ⟨s * 10000 + l.val, by have := l.isLt; omega⟩) :
    ∑ s ∈ Finset.range 10, ∑ l : Fin 10000, F s l = ∑ n, f n :=
  Cert.LibERealSums.sum_blocks_range (a := 10) (b := 10000) f F hF

/-- The ten block sums of a column add up to the column's sum. -/
theorem blockSum_total (X : S100000x128.Idx → EReal) (j : Fin 128) :
    ∑ s ∈ Finset.range 10, blockSum X j s = ∑ n : Fin 100000, X (ix2 n j) := by
  unfold blockSum
  exact sum_blocks_10_10000 (fun n => X (ix2 n j))
    (fun s l => if h : s * 10000 + l.val < 100000 then X (ix2 ⟨s * 10000 + l.val, h⟩ j) else 0)
    fun s hs l => dif_pos (by have := l.isLt; omega)

/-- The ten block sums of squares of a column add up to the column's sum of squares. -/
theorem blockSumSq_total (X : S100000x128.Idx → EReal) (j : Fin 128) :
    ∑ s ∈ Finset.range 10, blockSumSq X j s = ∑ n : Fin 100000, X (ix2 n j) * X (ix2 n j) := by
  unfold blockSumSq
  exact sum_blocks_10_10000 (fun n => X (ix2 n j) * X (ix2 n j))
    (fun s l => if h : s * 10000 + l.val < 100000 then X (ix2 ⟨s * 10000 + l.val, h⟩ j) * X (ix2 ⟨s * 10000 + l.val, h⟩ j) else 0)
    fun s hs l => dif_pos (by have := l.isLt; omega)

section Final
variable (V : (c : Dev nD) → (b : Ref sig .tc) → Buf (Elt Ideal) ((c : Thread nD τ).loc b))

/-- After the last point the row of sums is the column sums of the whole array. -/
theorem sumRow_last (c : Dev nD) :
    ((outsAt4 V c t4_9.val t4_9.isLt).1 : S1x128.Idx → EReal) = Cert.KLayers.sumCols (V c (Pipeline.arrRef spec4 0)) := by
  funext y
  obtain ⟨p, q, rfl⟩ : ∃ (p : Fin 1) (q : Fin 128), y = ix2 p q := ⟨y 0, y 1, eq_ix2 y⟩
  obtain rfl : p = 0 := Subsingleton.elim _ _
  refine (sumRow_after V c 9 t4_9.isLt q).trans ?_
  unfold Cert.KLayers.sumCols
  exact blockSum_total _ q

/-- After the last point the row of sums of squares is the column sums of squares of the whole array. -/
theorem sqRow_last (c : Dev nD) :
    ((outsAt4 V c t4_9.val t4_9.isLt).2 : S1x128.Idx → EReal) = Cert.KLayers.sumSqCols (V c (Pipeline.arrRef spec4 0)) := by
  funext y
  obtain ⟨p, q, rfl⟩ : ∃ (p : Fin 1) (q : Fin 128), y = ix2 p q := ⟨y 0, y 1, eq_ix2 y⟩
  obtain rfl : p = 0 := Subsingleton.elim _ _
  refine (sqRow_after V c 9 t4_9.isLt q).trans ?_
  unfold Cert.KLayers.sumSqCols
  exact blockSumSq_total _ q

/-- The one write-back of the row of sums, at the last point, writes the column sums of the whole array. -/
theorem sum_flushed (c : Dev nD) (t : Fin cfg4.N) (hf : (cfg4.win 1).flush t = true) :
    (dat4 V c).flushed 1 t
      = ((cfg4.win 1).blk t).view.read (Elt Ideal) (Cert.KLayers.sumCols (V c (Pipeline.arrRef spec4 0))) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1, sumRow_last]
  have hz' : (fun a => win4_1.index t4_9 a * main_v88_0.ty.shape.size a) = fun _ => 0 :=
    funext fun a => by fin_cases a <;> decide
  exact (Memref.read_access_unit_zero (Elt Ideal) main_v88_0 hz' (fun a => by rw [congrFun hz' a]; simp)
    (Cert.KLayers.sumCols (V c (Pipeline.arrRef spec4 0)))).symm

/-- The one write-back of the row of sums of squares, at the last point, writes the column sums of squares. -/
theorem sumsq_flushed (c : Dev nD) (t : Fin cfg4.N) (hf : (cfg4.win 2).flush t = true) :
    (dat4 V c).flushed 2 t
      = ((cfg4.win 2).blk t).view.read (Elt Ideal) (Cert.KLayers.sumSqCols (V c (Pipeline.arrRef spec4 0))) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2, sqRow_last]
  have hz' : (fun a => win4_2.index t4_9 a * main_v88_1.ty.shape.size a) = fun _ => 0 :=
    funext fun a => by fin_cases a <;> decide
  exact (Memref.read_access_unit_zero (Elt Ideal) main_v88_1 hz' (fun a => by rw [congrFun hz' a]; simp)
    (Cert.KLayers.sumSqCols (V c (Pipeline.arrRef spec4 0)))).symm

/-- After the grid the first output array holds, per feature column, the sum of the column over the 100000 nodes. -/
theorem sum_value (c : Dev nD) :
    (dat4 (F := Ideal) V c).arrAt 1 cfg4.N = Cert.KLayers.sumCols (V c (Pipeline.arrRef spec4 0)) :=
  (dat4 V c).arrAt_eq_of_cover 1 (Cert.KLayers.sumCols (V c (Pipeline.arrRef spec4 0))) (sum_flushed V c) fun i =>
    ⟨t4_9, (flush4_1 t4_9).mpr rfl, by
      show i ∈ ((View.whole main_v88_0).slice (win4_1.rect t4_9)).set
      rw [View.set_slice_whole, Rect.mem_set_unit]
      intro a
      have h0 : (i 0 : Nat) < 1 := (i 0).isLt
      have h1 : (i 1 : Nat) < 128 := (i 1).isLt
      match a with
      | ⟨0, _⟩ =>
        show win4_1.index t4_9 0 * win4_1.size 0 ≤ (i 0 : Nat)
          ∧ (i 0 : Nat) < win4_1.index t4_9 0 * win4_1.size 0 + win4_1.xsize (grid4.coords t4_9) 0
        rw [show win4_1.index t4_9 0 * win4_1.size 0 = 0 from by decide +kernel,
          show win4_1.xsize (grid4.coords t4_9) 0 = 1 from by decide +kernel]
        omega
      | ⟨1, _⟩ =>
        show win4_1.index t4_9 1 * win4_1.size 1 ≤ (i 1 : Nat)
          ∧ (i 1 : Nat) < win4_1.index t4_9 1 * win4_1.size 1 + win4_1.xsize (grid4.coords t4_9) 1
        rw [show win4_1.index t4_9 1 * win4_1.size 1 = 0 from by decide +kernel,
          show win4_1.xsize (grid4.coords t4_9) 1 = 128 from by decide +kernel]
        omega⟩

/-- After the grid the second output array holds, per feature column, the sum of the squares of the column. -/
theorem sumsq_value (c : Dev nD) :
    (dat4 (F := Ideal) V c).arrAt 2 cfg4.N = Cert.KLayers.sumSqCols (V c (Pipeline.arrRef spec4 0)) :=
  (dat4 V c).arrAt_eq_of_cover 2 (Cert.KLayers.sumSqCols (V c (Pipeline.arrRef spec4 0))) (sumsq_flushed V c) fun i =>
    ⟨t4_9, (flush4_2 t4_9).mpr rfl, by
      show i ∈ ((View.whole main_v88_1).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ =>
        show win4_2.index t4_9 0 * win4_2.size 0 ≤ (i 0 : Nat)
          ∧ (i 0 : Nat) < win4_2.index t4_9 0 * win4_2.size 0 + win4_2.xsize (grid4.coords t4_9) 0
        rw [show win4_2.index t4_9 0 * win4_2.size 0 = 0 from by decide +kernel,
          show win4_2.xsize (grid4.coords t4_9) 0 = 1 from by decide +kernel]
        omega
      | ⟨1, _⟩ =>
        show win4_2.index t4_9 1 * win4_2.size 1 ≤ (i 1 : Nat)
          ∧ (i 1 : Nat) < win4_2.index t4_9 1 * win4_2.size 1 + win4_2.xsize (grid4.coords t4_9) 1
        rw [show win4_2.index t4_9 1 * win4_2.size 1 = 0 from by decide +kernel,
          show win4_2.xsize (grid4.coords t4_9) 1 = 128 from by decide +kernel]
        omega⟩

end Final

end Cert.RegionStats4

end
-- ==== Proof.RegionBn2.lean ====
/-
  The first normalisation launch, read as a value. Each of the ten grid points takes a 10000 × 128 block of the input
  array and the four whole 1 × 128 rows (mean, variance, scale, shift), and writes back the block of
  max (((a − μ) · rsqrt (v + ε)) · g + b) 0. The ten blocks tile the 100000 × 128 output, so after the last point the output array
  is that function of the input array, entry by entry.
-/
import proofs.«107305_j88502096101881_1_alg».proof.Proof.Gen.KernelIdeal.Frame
import proofs.«107305_j88502096101881_1_alg».proof.Proof.KLayers
import Idealize.ShloMosaic.Lib.Pipeline.Value
import Idealize.ShloMosaic.Lib.ValueIdx
import Idealize.ShloMosaic.Lib.ValueLayout

set_option maxRecDepth 16384

noncomputable section

namespace Cert.RegionBn2

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-- The two zero offsets, spelt as the constant function. -/
theorem zeroOffsets : (![0, 0] : Fin 2 → Nat) = fun _ => 0 := funext fun a => by fin_cases a <;> rfl

/-- Entry (p, q) of the body's result: the block's entry less the mean of column q, times the reciprocal square root of
    the column's variance plus ε, times the column's scale, plus its shift, clipped below at 0. -/
theorem normalised_apply (x0 : Vec Ideal S10000x128 .f32) (xv xm xg xb : Vec Ideal S1x128 .f32) (p : Fin 10000) (q : Fin 128) :
    k2_pay1 x0 xv xm xg xb (ix2 p q)
      = max ((((x0 (ix2 p q) - xm (ix2 (0 : Fin 1) q)) * Ideal.rsqrt (xv (ix2 (0 : Fin 1) q) + Ideal.ofBits .f32 0x3727C5AC#32))
          * xg (ix2 (0 : Fin 1) q)) + xb (ix2 (0 : Fin 1) q)) (Ideal.ofBits .f32 0x00000000#32) := by
  unfold k2_pay1
  simp only [shapeCast_self]
  simp only [maximumf_apply, addf_apply, mulf_apply, subf_apply, broadcastTo_1b_ab_apply, broadcast_apply]
  rfl

/-- The printed index maps over the ten grid points: the 10000-row input and output blocks sit at block row `t`, block
    column 0; the four 1 × 128 rows are read whole at every point. -/
theorem blockIndex : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- Entry `y` of the input block at point `t` is the array's entry where the output block at `t` puts `y`. -/
theorem inputBlock_read (c : Dev nD) (t : Fin cfg2.N) (y : S10000x128.Idx) :
    (iblk2 V c 0 t : Vec Ideal S10000x128 .f32) y
      = (V c (Pipeline.arrRef spec2 0) : S100000x128.Idx → EReal) (((cfg2.win 5).blk t).view.emb y) := by
  show (V c (Pipeline.arrRef spec2 0) : S100000x128.Idx → EReal) (((cfg2.win 0).blk t).view.emb y) = _
  obtain ⟨e0, e1, e2, e3, -⟩ := blockIndex t
  refine congrArg _ (funext fun a => Fin.ext ?_)
  match a with
  | ⟨0, _⟩ => show win2_0.index t (0 : Fin 2) * 10000 + 1 * (y 0).val = win2_5.index t (0 : Fin 2) * 10000 + 1 * (y 0).val; omega
  | ⟨1, _⟩ => show win2_0.index t (1 : Fin 2) * 128 + 1 * (y 1).val = win2_5.index t (1 : Fin 2) * 128 + 1 * (y 1).val; omega

/-- The mean row's block at every point is the whole row. -/
theorem meanRow_read (c : Dev nD) (t : Fin cfg2.N) :
    (iblk2 V c 1 t : Vec Ideal S1x128 .f32) = (V c (Pipeline.arrRef spec2 1) : S1x128.Idx → EReal) := by
  funext y
  show (V c (Pipeline.arrRef spec2 1) : S1x128.Idx → EReal) (((cfg2.win 1).blk t).view.emb y) = _
  obtain ⟨-, -, -, -, e0, e1, -⟩ := blockIndex t
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The variance row's block at every point is the whole row. -/
theorem varianceRow_read (c : Dev nD) (t : Fin cfg2.N) :
    (iblk2 V c 2 t : Vec Ideal S1x128 .f32) = (V c (Pipeline.arrRef spec2 2) : S1x128.Idx → EReal) := by
  funext y
  show (V c (Pipeline.arrRef spec2 2) : S1x128.Idx → EReal) (((cfg2.win 2).blk t).view.emb y) = _
  obtain ⟨-, -, -, -, -, -, e0, e1, -⟩ := blockIndex t
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The scale row's block at every point is the whole row. -/
theorem scaleRow_read (c : Dev nD) (t : Fin cfg2.N) :
    (iblk2 V c 3 t : Vec Ideal S1x128 .f32) = (V c (Pipeline.arrRef spec2 3) : S1x128.Idx → EReal) := by
  funext y
  show (V c (Pipeline.arrRef spec2 3) : S1x128.Idx → EReal) (((cfg2.win 3).blk t).view.emb y) = _
  obtain ⟨-, -, -, -, -, -, -, -, e0, e1, -⟩ := blockIndex t
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The shift row's block at every point is the whole row. -/
theorem shiftRow_read (c : Dev nD) (t : Fin cfg2.N) :
    (iblk2 V c 4 t : Vec Ideal S1x128 .f32) = (V c (Pipeline.arrRef spec2 4) : S1x128.Idx → EReal) := by
  funext y
  show (V c (Pipeline.arrRef spec2 4) : S1x128.Idx → EReal) (((cfg2.win 4).blk t).view.emb y) = _
  obtain ⟨-, -, -, -, -, -, -, -, -, -, e0, e1⟩ := blockIndex t
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The body's result at an entry of the block, when the block's entry is entry `i` of the array `A` in the same
    column and the four rows are the whole rows `μ`, `v`, `g`, `b`: the normalisation of `A` at `i`. -/
theorem payload_eq (A : S100000x128.Idx → EReal) (μ v g b : S1x128.Idx → EReal)
    (x0 : Vec Ideal S10000x128 .f32) (xv xm xg xb : Vec Ideal S1x128 .f32)
    (j : S10000x128.Idx) (i : S100000x128.Idx) (hcol : (i 1).val = (j 1).val)
    (h0 : x0 j = A i) (hm : xm = μ) (hv : xv = v) (hg : xg = g) (hb : xb = b) :
    k2_pay1 x0 xv xm xg xb j = Cert.KLayers.bnPoint A μ v g b i := by
  subst hm hv hg hb
  obtain ⟨p, q, rfl⟩ : ∃ (p : Fin 10000) (q : Fin 128), j = ix2 p q := ⟨j 0, j 1, eq_ix2 j⟩
  have hq : Cert.KLayers.colOf i = q := Fin.ext hcol
  rw [normalised_apply, h0]
  unfold Cert.KLayers.bnPoint
  show _ = max ((((A i - xm (Cert.KLayers.rowAt (Cert.KLayers.colOf i))) * Ideal.rsqrt (xv (Cert.KLayers.rowAt (Cert.KLayers.colOf i)) + Ideal.ofBits .f32 0x3727C5AC#32))
      * xg (Cert.KLayers.rowAt (Cert.KLayers.colOf i))) + xb (Cert.KLayers.rowAt (Cert.KLayers.colOf i))) (Ideal.ofBits .f32 0x00000000#32)
  rw [hq]

/-- What point `t` writes back is block `t` of the normalised array. -/
theorem flushed_eq (c : Dev nD) (t : Fin cfg2.N) :
    (dat2 (F := Ideal) V c).flushed 5 t
      = ((cfg2.win 5).blk t).view.read (Elt Ideal)
          (Cert.KLayers.bnPoint (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero zeroOffsets]
  simp only [View.ld_unit_zero (S := S10000x128) zeroOffsets, View.ld_unit_zero (S := S1x128) zeroOffsets]
  funext j
  obtain ⟨-, -, e2, e3, -⟩ := blockIndex t
  refine payload_eq _ _ _ _ _ _ _ _ _ _ j (((cfg2.win 5).blk t).view.emb j) ?_ (inputBlock_read V c t j)
    (meanRow_read V c t) (varianceRow_read V c t) (scaleRow_read V c t) (shiftRow_read V c t)
  show win2_5.index t (1 : Fin 2) * 128 + 1 * (j 1).val = (j 1).val
  omega

/-- An entry of the array is in point `t`'s output block iff each coordinate is in the block's range on its axis. -/
theorem mem_blk (t : Fin cfg2.N) (i : S100000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v50).slice (win2_5.rect t)).set ↔ _
  rw [View.set_slice_whole, Rect.mem_set_unit]
  exact Iff.rfl

/-- Row `r` of the array is in the block of point `r / 10000`: the ten blocks cover the array. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨-, -, e2, e3, -⟩ := blockIndex t
  have ht : t.val = (i 0).val / 10000 := rfl
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- The output array after the region's ten points is the normalisation, entry by entry, of the input array by the mean,
    variance, scale and shift rows the region finds. -/
theorem value (c : Dev nD) :
    (dat2 (F := Ideal) V c).arrAt 5 cfg2.N
      = Cert.KLayers.bnPoint (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed_eq V c t) cover

end Cert.RegionBn2

end
-- ==== Proof.RegionBn5.lean ====
/-
  The second normalisation launch, read as a value. Each of the ten grid points takes a 10000 × 128 block of the input
  array and the four whole 1 × 128 rows (mean, variance, scale, shift), and writes back the block of
  max (((a − μ) · rsqrt (v + ε)) · g + b) 0. The ten blocks tile the 100000 × 128 output, so after the last point the output array
  is that function of the input array, entry by entry.
-/
import proofs.«107305_j88502096101881_1_alg».proof.Proof.Gen.KernelIdeal.Frame
import proofs.«107305_j88502096101881_1_alg».proof.Proof.KLayers
import Idealize.ShloMosaic.Lib.Pipeline.Value
import Idealize.ShloMosaic.Lib.ValueIdx
import Idealize.ShloMosaic.Lib.ValueLayout

set_option maxRecDepth 16384

noncomputable section

namespace Cert.RegionBn5

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-- The two zero offsets, spelt as the constant function. -/
theorem zeroOffsets : (![0, 0] : Fin 2 → Nat) = fun _ => 0 := funext fun a => by fin_cases a <;> rfl

/-- Entry (p, q) of the body's result: the block's entry less the mean of column q, times the reciprocal square root of
    the column's variance plus ε, times the column's scale, plus its shift, clipped below at 0. -/
theorem normalised_apply (x0 : Vec Ideal S10000x128 .f32) (xv xm xg xb : Vec Ideal S1x128 .f32) (p : Fin 10000) (q : Fin 128) :
    k5_pay1 x0 xv xm xg xb (ix2 p q)
      = max ((((x0 (ix2 p q) - xm (ix2 (0 : Fin 1) q)) * Ideal.rsqrt (xv (ix2 (0 : Fin 1) q) + Ideal.ofBits .f32 0x3727C5AC#32))
          * xg (ix2 (0 : Fin 1) q)) + xb (ix2 (0 : Fin 1) q)) (Ideal.ofBits .f32 0x00000000#32) := by
  unfold k5_pay1
  simp only [shapeCast_self]
  simp only [maximumf_apply, addf_apply, mulf_apply, subf_apply, broadcastTo_1b_ab_apply, broadcast_apply]
  rfl

/-- The printed index maps over the ten grid points: the 10000-row input and output blocks sit at block row `t`, block
    column 0; the four 1 × 128 rows are read whole at every point. -/
theorem blockIndex : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

variable (V : (c : Dev nD) → (b : Ref sig .tc) → Buf (Elt Ideal) ((c : Thread nD τ).loc b))

/-- Entry `y` of the input block at point `t` is the array's entry where the output block at `t` puts `y`. -/
theorem inputBlock_read (c : Dev nD) (t : Fin cfg5.N) (y : S10000x128.Idx) :
    (iblk5 V c 0 t : Vec Ideal S10000x128 .f32) y
      = (V c (Pipeline.arrRef spec5 0) : S100000x128.Idx → EReal) (((cfg5.win 5).blk t).view.emb y) := by
  show (V c (Pipeline.arrRef spec5 0) : S100000x128.Idx → EReal) (((cfg5.win 0).blk t).view.emb y) = _
  obtain ⟨e0, e1, e2, e3, -⟩ := blockIndex t
  refine congrArg _ (funext fun a => Fin.ext ?_)
  match a with
  | ⟨0, _⟩ => show win5_0.index t (0 : Fin 2) * 10000 + 1 * (y 0).val = win5_5.index t (0 : Fin 2) * 10000 + 1 * (y 0).val; omega
  | ⟨1, _⟩ => show win5_0.index t (1 : Fin 2) * 128 + 1 * (y 1).val = win5_5.index t (1 : Fin 2) * 128 + 1 * (y 1).val; omega

/-- The mean row's block at every point is the whole row. -/
theorem meanRow_read (c : Dev nD) (t : Fin cfg5.N) :
    (iblk5 V c 1 t : Vec Ideal S1x128 .f32) = (V c (Pipeline.arrRef spec5 1) : S1x128.Idx → EReal) := by
  funext y
  show (V c (Pipeline.arrRef spec5 1) : S1x128.Idx → EReal) (((cfg5.win 1).blk t).view.emb y) = _
  obtain ⟨-, -, -, -, e0, e1, -⟩ := blockIndex t
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- The variance row's block at every point is the whole row. -/
theorem varianceRow_read (c : Dev nD) (t : Fin cfg5.N) :
    (iblk5 V c 2 t : Vec Ideal S1x128 .f32) = (V c (Pipeline.arrRef spec5 2) : S1x128.Idx → EReal) := by
  funext y
  show (V c (Pipeline.arrRef spec5 2) : S1x128.Idx → EReal) (((cfg5.win 2).blk t).view.emb y) = _
  obtain ⟨-, -, -, -, -, -, e0, e1, -⟩ := blockIndex t
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The scale row's block at every point is the whole row. -/
theorem scaleRow_read (c : Dev nD) (t : Fin cfg5.N) :
    (iblk5 V c 3 t : Vec Ideal S1x128 .f32) = (V c (Pipeline.arrRef spec5 3) : S1x128.Idx → EReal) := by
  funext y
  show (V c (Pipeline.arrRef spec5 3) : S1x128.Idx → EReal) (((cfg5.win 3).blk t).view.emb y) = _
  obtain ⟨-, -, -, -, -, -, -, -, e0, e1, -⟩ := blockIndex t
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- The shift row's block at every point is the whole row. -/
theorem shiftRow_read (c : Dev nD) (t : Fin cfg5.N) :
    (iblk5 V c 4 t : Vec Ideal S1x128 .f32) = (V c (Pipeline.arrRef spec5 4) : S1x128.Idx → EReal) := by
  funext y
  show (V c (Pipeline.arrRef spec5 4) : S1x128.Idx → EReal) (((cfg5.win 4).blk t).view.emb y) = _
  obtain ⟨-, -, -, -, -, -, -, -, -, -, e0, e1⟩ := blockIndex t
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- The body's result at an entry of the block, when the block's entry is entry `i` of the array `A` in the same
    column and the four rows are the whole rows `μ`, `v`, `g`, `b`: the normalisation of `A` at `i`. -/
theorem payload_eq (A : S100000x128.Idx → EReal) (μ v g b : S1x128.Idx → EReal)
    (x0 : Vec Ideal S10000x128 .f32) (xv xm xg xb : Vec Ideal S1x128 .f32)
    (j : S10000x128.Idx) (i : S100000x128.Idx) (hcol : (i 1).val = (j 1).val)
    (h0 : x0 j = A i) (hm : xm = μ) (hv : xv = v) (hg : xg = g) (hb : xb = b) :
    k5_pay1 x0 xv xm xg xb j = Cert.KLayers.bnPoint A μ v g b i := by
  subst hm hv hg hb
  obtain ⟨p, q, rfl⟩ : ∃ (p : Fin 10000) (q : Fin 128), j = ix2 p q := ⟨j 0, j 1, eq_ix2 j⟩
  have hq : Cert.KLayers.colOf i = q := Fin.ext hcol
  rw [normalised_apply, h0]
  unfold Cert.KLayers.bnPoint
  show _ = max ((((A i - xm (Cert.KLayers.rowAt (Cert.KLayers.colOf i))) * Ideal.rsqrt (xv (Cert.KLayers.rowAt (Cert.KLayers.colOf i)) + Ideal.ofBits .f32 0x3727C5AC#32))
      * xg (Cert.KLayers.rowAt (Cert.KLayers.colOf i))) + xb (Cert.KLayers.rowAt (Cert.KLayers.colOf i))) (Ideal.ofBits .f32 0x00000000#32)
  rw [hq]

/-- What point `t` writes back is block `t` of the normalised array. -/
theorem flushed_eq (c : Dev nD) (t : Fin cfg5.N) :
    (dat5 (F := Ideal) V c).flushed 5 t
      = ((cfg5.win 5).blk t).view.read (Elt Ideal)
          (Cert.KLayers.bnPoint (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero zeroOffsets]
  simp only [View.ld_unit_zero (S := S10000x128) zeroOffsets, View.ld_unit_zero (S := S1x128) zeroOffsets]
  funext j
  obtain ⟨-, -, e2, e3, -⟩ := blockIndex t
  refine payload_eq _ _ _ _ _ _ _ _ _ _ j (((cfg5.win 5).blk t).view.emb j) ?_ (inputBlock_read V c t j)
    (meanRow_read V c t) (varianceRow_read V c t) (scaleRow_read V c t) (shiftRow_read V c t)
  show win5_5.index t (1 : Fin 2) * 128 + 1 * (j 1).val = (j 1).val
  omega

/-- An entry of the array is in point `t`'s output block iff each coordinate is in the block's range on its axis. -/
theorem mem_blk (t : Fin cfg5.N) (i : S100000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole main_v97).slice (win5_5.rect t)).set ↔ _
  rw [View.set_slice_whole, Rect.mem_set_unit]
  exact Iff.rfl

/-- Row `r` of the array is in the block of point `r / 10000`: the ten blocks cover the array. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 10 := N_5
  let t : Fin cfg5.N := ⟨(i 0).val / 10000, by rw [hN]; omega⟩
  obtain ⟨-, -, e2, e3, -⟩ := blockIndex t
  have ht : t.val = (i 0).val / 10000 := rfl
  refine ⟨t, flush5_5 t, ?_⟩
  rw [mem_blk]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 128 ≤ (i 1).val ∧ (i 1).val < win5_5.index t (1 : Fin 2) * 128 + 128; omega

/-- The output array after the region's ten points is the normalisation, entry by entry, of the input array by the mean,
    variance, scale and shift rows the region finds. -/
theorem value (c : Dev nD) :
    (dat5 (F := Ideal) V c).arrAt 5 cfg5.N
      = Cert.KLayers.bnPoint (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5 _ (fun t _ => flushed_eq V c t) cover

end Cert.RegionBn5

end
-- ==== Proof.FoldHead.lean ====
/-
  What the last four stretches of host operations leave in the result buffer.

  After the last launch the buffers hold `W12 m ρ c`. The stretches that follow read the third layer's features
  (the last launch's output), the edge rows and columns (row 0 and row 1 of the edge argument, sliced once at the start and
  never written since), each node's graph index and the two dense layers' matrices and biases (all as launched: no stretch
  and no launch writes them), and compute the third aggregation over the edges, the per-graph mean pooling, the two dense
  layers and the log-softmax: `Cert.Layers.tail (Cert.Layers.agg edges features) …` of those contents.
-/
import proofs.«107305_j88502096101881_1_alg».proof.Proof.Gen.KernelIdeal.Frame
import proofs.«107305_j88502096101881_1_alg».proof.Proof.Layers
import Idealize.ShloMosaic.Lib.StableHlo.Run
import Idealize.ShloMosaic.PureOps.Ideal

set_option maxRecDepth 16384

noncomputable section

namespace Cert.FoldHead

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- A buffer that no operation of a stretch writes keeps its contents over the stretch: each operation's written
    buffer is another reference. -/
macro "keep_host " ops:ident : tactic =>
  `(tactic| exact StableHlo.after_of_forall_not_mem (b := _) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))
/-- The edge rows are not written between the first stretch and the third aggregation. -/
theorem rows_kept (c : Dev nD) : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := by keep_host hostOps5
    _ = W8 m ρ c (Proc.devRef .tc main_v1) := W9_of_ne m ρ c main_v1 (by decide)
    _ = W7 m ρ c (Proc.devRef .tc main_v1) := by keep_host hostOps4
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := by keep_host hostOps2
    _ = W3 m ρ c (Proc.devRef .tc main_v1) := W4_of_ne m ρ c main_v1 (by decide)
    _ = W2 m ρ c (Proc.devRef .tc main_v1) := by keep_host hostOps1
    _ = W1 m ρ c (Proc.devRef .tc main_v1) := W2_of_ne m ρ c main_v1 (by decide)

/-- The edge columns are not written between the first stretch and the third aggregation. -/
theorem cols_kept (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by keep_host hostOps5
    _ = W8 m ρ c (Proc.devRef .tc main_v3) := W9_of_ne m ρ c main_v3 (by decide)
    _ = W7 m ρ c (Proc.devRef .tc main_v3) := by keep_host hostOps4
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host hostOps2
    _ = W3 m ρ c (Proc.devRef .tc main_v3) := W4_of_ne m ρ c main_v3 (by decide)
    _ = W2 m ρ c (Proc.devRef .tc main_v3) := by keep_host hostOps1
    _ = W1 m ρ c (Proc.devRef .tc main_v3) := W2_of_ne m ρ c main_v3 (by decide)

/-- The graph index of each node is as launched when the head reads it. -/
theorem graphOf_kept (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := W11_of_ne m ρ c main_arg2 (by decide)
    _ = W9 m ρ c (Proc.devRef .tc main_arg2) := by keep_host hostOps5
    _ = W8 m ρ c (Proc.devRef .tc main_arg2) := W9_of_ne m ρ c main_arg2 (by decide)
    _ = W7 m ρ c (Proc.devRef .tc main_arg2) := by keep_host hostOps4
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by keep_host hostOps2
    _ = W3 m ρ c (Proc.devRef .tc main_arg2) := W4_of_ne m ρ c main_arg2 (by decide)
    _ = W2 m ρ c (Proc.devRef .tc main_arg2) := by keep_host hostOps1
    _ = W1 m ρ c (Proc.devRef .tc main_arg2) := W2_of_ne m ρ c main_arg2 (by decide)
    _ = W0 m ρ c (Proc.devRef .tc main_arg2) := by keep_host hostOps0
    _ = m ((c : Thread nD τ).loc main_arg2) := rfl

/-- The first dense layer's matrix is as launched when the head reads it. -/
theorem dense1_kept (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := W11_of_ne m ρ c main_arg10 (by decide)
    _ = W9 m ρ c (Proc.devRef .tc main_arg10) := by keep_host hostOps5
    _ = W8 m ρ c (Proc.devRef .tc main_arg10) := W9_of_ne m ρ c main_arg10 (by decide)
    _ = W7 m ρ c (Proc.devRef .tc main_arg10) := by keep_host hostOps4
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by keep_host hostOps2
    _ = W3 m ρ c (Proc.devRef .tc main_arg10) := W4_of_ne m ρ c main_arg10 (by decide)
    _ = W2 m ρ c (Proc.devRef .tc main_arg10) := by keep_host hostOps1
    _ = W1 m ρ c (Proc.devRef .tc main_arg10) := W2_of_ne m ρ c main_arg10 (by decide)
    _ = W0 m ρ c (Proc.devRef .tc main_arg10) := by keep_host hostOps0
    _ = m ((c : Thread nD τ).loc main_arg10) := rfl

/-- The first dense layer's bias is as launched when the head reads it. -/
theorem bias1_kept (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := by keep_host hostOps5
    _ = W8 m ρ c (Proc.devRef .tc main_arg11) := W9_of_ne m ρ c main_arg11 (by decide)
    _ = W7 m ρ c (Proc.devRef .tc main_arg11) := by keep_host hostOps4
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by keep_host hostOps2
    _ = W3 m ρ c (Proc.devRef .tc main_arg11) := W4_of_ne m ρ c main_arg11 (by decide)
    _ = W2 m ρ c (Proc.devRef .tc main_arg11) := by keep_host hostOps1
    _ = W1 m ρ c (Proc.devRef .tc main_arg11) := W2_of_ne m ρ c main_arg11 (by decide)
    _ = W0 m ρ c (Proc.devRef .tc main_arg11) := by keep_host hostOps0
    _ = m ((c : Thread nD τ).loc main_arg11) := rfl

/-- The second dense layer's matrix is as launched when the head reads it. -/
theorem dense2_kept (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := W11_of_ne m ρ c main_arg12 (by decide)
    _ = W9 m ρ c (Proc.devRef .tc main_arg12) := by keep_host hostOps5
    _ = W8 m ρ c (Proc.devRef .tc main_arg12) := W9_of_ne m ρ c main_arg12 (by decide)
    _ = W7 m ρ c (Proc.devRef .tc main_arg12) := by keep_host hostOps4
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by keep_host hostOps2
    _ = W3 m ρ c (Proc.devRef .tc main_arg12) := W4_of_ne m ρ c main_arg12 (by decide)
    _ = W2 m ρ c (Proc.devRef .tc main_arg12) := by keep_host hostOps1
    _ = W1 m ρ c (Proc.devRef .tc main_arg12) := W2_of_ne m ρ c main_arg12 (by decide)
    _ = W0 m ρ c (Proc.devRef .tc main_arg12) := by keep_host hostOps0
    _ = m ((c : Thread nD τ).loc main_arg12) := rfl

/-- The second dense layer's bias is as launched when the head reads it. -/
theorem bias2_kept (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := W11_of_ne m ρ c main_arg13 (by decide)
    _ = W9 m ρ c (Proc.devRef .tc main_arg13) := by keep_host hostOps5
    _ = W8 m ρ c (Proc.devRef .tc main_arg13) := W9_of_ne m ρ c main_arg13 (by decide)
    _ = W7 m ρ c (Proc.devRef .tc main_arg13) := by keep_host hostOps4
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := by keep_host hostOps2
    _ = W3 m ρ c (Proc.devRef .tc main_arg13) := W4_of_ne m ρ c main_arg13 (by decide)
    _ = W2 m ρ c (Proc.devRef .tc main_arg13) := by keep_host hostOps1
    _ = W1 m ρ c (Proc.devRef .tc main_arg13) := W2_of_ne m ρ c main_arg13 (by decide)
    _ = W0 m ρ c (Proc.devRef .tc main_arg13) := by keep_host hostOps0
    _ = m ((c : Thread nD τ).loc main_arg13) := rfl

/-- After the first stretch the edge-rows buffer holds row 0 of the edge argument, flattened. -/
theorem rows_first (c : Dev nD) : (W1 m ρ c (Proc.devRef .tc main_v1) : (⟨S640000, .i32⟩ : BufTy).Contents (Elt Ideal)) = shapeCast _ (extractStridedSlice S1x640000 ![0, 0] (m ((c : Thread nD τ).loc main_arg1)) slices_S2x640000_S1x640000_0_0) shapeCasts_S1x640000_S640000 := by
  show StableHlo.after hostOps0 (W0 m ρ c) (Proc.devRef .tc main_v1) = _
  after_results
  rfl

/-- After the first stretch the edge-columns buffer holds row 1 of the edge argument, flattened. -/
theorem cols_first (c : Dev nD) : (W1 m ρ c (Proc.devRef .tc main_v3) : (⟨S640000, .i32⟩ : BufTy).Contents (Elt Ideal)) = shapeCast _ (extractStridedSlice S1x640000 ![1, 0] (m ((c : Thread nD τ).loc main_arg1)) slices_S2x640000_S1x640000_1_0) shapeCasts_S1x640000_S640000 := by
  show StableHlo.after hostOps0 (W0 m ρ c) (Proc.devRef .tc main_v3) = _
  after_results
  rfl

set_option maxHeartbeats 40000000 in
/-- The result buffer at the end: the head (pooling, two dense layers, log-softmax) of the aggregation over the edges of
    the features the last launch left, with the edge list, graph indices, matrices and biases as launched. -/
theorem head_stage (c : Dev nD) :
    W16 m ρ c (Proc.devRef .tc main_v156)
      = Cert.Layers.tail (F := Ideal) (Cert.Layers.agg (F := Ideal) (m ((c : Thread nD τ).loc main_arg1)) (W12 m ρ c (Proc.devRef .tc main_v98)))
          (m ((c : Thread nD τ).loc main_arg2)) (m ((c : Thread nD τ).loc main_arg10)) (m ((c : Thread nD τ).loc main_arg11)) (m ((c : Thread nD τ).loc main_arg12)) (m ((c : Thread nD τ).loc main_arg13)) := by
  have hr : (W12 m ρ c (Proc.devRef .tc main_v1) : (⟨S640000, .i32⟩ : BufTy).Contents (Elt Ideal)) = shapeCast _ (extractStridedSlice S1x640000 ![0, 0] (m ((c : Thread nD τ).loc main_arg1)) slices_S2x640000_S1x640000_0_0) shapeCasts_S1x640000_S640000 :=
    (rows_kept m ρ c).trans (rows_first m ρ c)
  have hc : (W12 m ρ c (Proc.devRef .tc main_v3) : (⟨S640000, .i32⟩ : BufTy).Contents (Elt Ideal)) = shapeCast _ (extractStridedSlice S1x640000 ![1, 0] (m ((c : Thread nD τ).loc main_arg1)) slices_S2x640000_S1x640000_1_0) shapeCasts_S1x640000_S640000 :=
    (cols_kept m ρ c).trans (cols_first m ρ c)
  show StableHlo.after hostOps7_3 (StableHlo.after hostOps7_2 (StableHlo.after hostOps7_1 (StableHlo.after hostOps7 (W12 m ρ c)))) (Proc.devRef .tc main_v156) = _
  after_results_simp
  rw [hr, hc, graphOf_kept m ρ c, dense1_kept m ρ c, bias1_kept m ρ c, dense2_kept m ρ c, bias2_kept m ρ c]
  rfl

end Cert.FoldHead

end
-- ==== Proof.KernelFold.lean ====
/-
  What the kernel's sixteen segments leave in the result buffer.

  The buffer contents after segment k are `Wk m ρ c`. A stretch of host operations leaves a buffer it does not write as
  it was; a launch leaves every buffer that is not one of its arrays, and each of its input arrays, as it was, and its
  output arrays at what its grid points wrote back. Reading the result buffer back through the segments gives, stage by
  stage: the edge rows and columns sliced from the edge argument; the first linear map; its aggregation over the edges;
  the column sums and sums of squares; the mean, variance, scale and shift rows; the normalised layer; and so on for
  the second and third layers, down to the head — in all, the kernel's network `Cert.KNet.netK` of the arguments.
-/
import proofs.«107305_j88502096101881_1_alg».proof.Proof.Gen.KernelIdeal.Frame
import proofs.«107305_j88502096101881_1_alg».proof.Proof.KNet
import Idealize.ShloMosaic.Lib.StableHlo.Run
import proofs.«107305_j88502096101881_1_alg».proof.Proof.RegionMatmul0
import proofs.«107305_j88502096101881_1_alg».proof.Proof.RegionMatmul3
import proofs.«107305_j88502096101881_1_alg».proof.Proof.RegionMatmul6
import proofs.«107305_j88502096101881_1_alg».proof.Proof.RegionStats1
import proofs.«107305_j88502096101881_1_alg».proof.Proof.RegionStats4
import proofs.«107305_j88502096101881_1_alg».proof.Proof.RegionBn2
import proofs.«107305_j88502096101881_1_alg».proof.Proof.RegionBn5
import proofs.«107305_j88502096101881_1_alg».proof.Proof.FoldHead

set_option maxRecDepth 16384

noncomputable section

namespace Cert.KernelFold

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The edge rows are as the first stretch left them at boundary 2. -/
theorem keep_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- The edge columns are as the first stretch left them at boundary 2. -/
theorem keep_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- The edge rows are as the first stretch left them at boundary 7. -/
theorem keep_v1_7_1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := by keep_host hostOps2
    _ = W3 m ρ c (Proc.devRef .tc main_v1) := W4_of_ne m ρ c main_v1 (by decide)
    _ = W2 m ρ c (Proc.devRef .tc main_v1) := by keep_host hostOps1
    _ = W1 m ρ c (Proc.devRef .tc main_v1) := W2_of_ne m ρ c main_v1 (by decide)

/-- The edge columns are as the first stretch left them at boundary 7. -/
theorem keep_v3_7_1 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host hostOps2
    _ = W3 m ρ c (Proc.devRef .tc main_v3) := W4_of_ne m ρ c main_v3 (by decide)
    _ = W2 m ρ c (Proc.devRef .tc main_v3) := by keep_host hostOps1
    _ = W1 m ρ c (Proc.devRef .tc main_v3) := W2_of_ne m ρ c main_v3 (by decide)

/-- The edge rows are as the first stretch left them at boundary 12. -/
theorem keep_v1_12_1 (c : Dev nD) : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := by keep_host hostOps5
    _ = W8 m ρ c (Proc.devRef .tc main_v1) := W9_of_ne m ρ c main_v1 (by decide)
    _ = W7 m ρ c (Proc.devRef .tc main_v1) := by keep_host hostOps4
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := by keep_host hostOps2
    _ = W3 m ρ c (Proc.devRef .tc main_v1) := W4_of_ne m ρ c main_v1 (by decide)
    _ = W2 m ρ c (Proc.devRef .tc main_v1) := by keep_host hostOps1
    _ = W1 m ρ c (Proc.devRef .tc main_v1) := W2_of_ne m ρ c main_v1 (by decide)

/-- The edge columns are as the first stretch left them at boundary 12. -/
theorem keep_v3_12_1 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by keep_host hostOps5
    _ = W8 m ρ c (Proc.devRef .tc main_v3) := W9_of_ne m ρ c main_v3 (by decide)
    _ = W7 m ρ c (Proc.devRef .tc main_v3) := by keep_host hostOps4
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host hostOps2
    _ = W3 m ρ c (Proc.devRef .tc main_v3) := W4_of_ne m ρ c main_v3 (by decide)
    _ = W2 m ρ c (Proc.devRef .tc main_v3) := by keep_host hostOps1
    _ = W1 m ρ c (Proc.devRef .tc main_v3) := W2_of_ne m ρ c main_v3 (by decide)

/-- The first stretch does not write the node features. -/
theorem keep_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by keep_host hostOps0

/-- The first stretch does not write the first weight matrix. -/
theorem keep_arg3_1_0 (c : Dev nD) : W1 m ρ c (Proc.devRef .tc main_arg3) = W0 m ρ c (Proc.devRef .tc main_arg3) :=
  calc W1 m ρ c (Proc.devRef .tc main_arg3)
    _ = W0 m ρ c (Proc.devRef .tc main_arg3) := by keep_host hostOps0

/-- The first aggregated layer is an input of the statistics launch and is not written by the stretch after it. -/
theorem keep_v40_5_3 (c : Dev nD) : W5 m ρ c (Proc.devRef .tc main_v40) = W3 m ρ c (Proc.devRef .tc main_v40) :=
  calc W5 m ρ c (Proc.devRef .tc main_v40)
    _ = W4 m ρ c (Proc.devRef .tc main_v40) := by keep_host hostOps2
    _ = W3 m ρ c (Proc.devRef .tc main_v40) := (W4_arr m ρ c 0).trans (((dat1 (V3 m ρ) c).arrAt_in 0 rfl _).trans (A_eq1 (V3 m ρ) c 0))

/-- The first scale vector is as launched at boundary 4. -/
theorem keep_arg4_4_0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by keep_host hostOps1
    _ = W1 m ρ c (Proc.devRef .tc main_arg4) := W2_of_ne m ρ c main_arg4 (by decide)
    _ = W0 m ρ c (Proc.devRef .tc main_arg4) := by keep_host hostOps0

/-- The first shift vector is as launched at boundary 4. -/
theorem keep_arg5_4_0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := by keep_host hostOps1
    _ = W1 m ρ c (Proc.devRef .tc main_arg5) := W2_of_ne m ρ c main_arg5 (by decide)
    _ = W0 m ρ c (Proc.devRef .tc main_arg5) := by keep_host hostOps0

/-- The second weight matrix is as launched at boundary 6. -/
theorem keep_arg6_6_0 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by keep_host hostOps2
    _ = W3 m ρ c (Proc.devRef .tc main_arg6) := W4_of_ne m ρ c main_arg6 (by decide)
    _ = W2 m ρ c (Proc.devRef .tc main_arg6) := by keep_host hostOps1
    _ = W1 m ρ c (Proc.devRef .tc main_arg6) := W2_of_ne m ρ c main_arg6 (by decide)
    _ = W0 m ρ c (Proc.devRef .tc main_arg6) := by keep_host hostOps0

/-- The second aggregated layer is an input of the statistics launch and is not written by the stretch after it. -/
theorem keep_v87_10_8 (c : Dev nD) : W10 m ρ c (Proc.devRef .tc main_v87) = W8 m ρ c (Proc.devRef .tc main_v87) :=
  calc W10 m ρ c (Proc.devRef .tc main_v87)
    _ = W9 m ρ c (Proc.devRef .tc main_v87) := by keep_host hostOps5
    _ = W8 m ρ c (Proc.devRef .tc main_v87) := (W9_arr m ρ c 0).trans (((dat4 (V8 m ρ) c).arrAt_in 0 rfl _).trans (A_eq4 (V8 m ρ) c 0))

/-- The second scale vector is as launched at boundary 9. -/
theorem keep_arg7_9_0 (c : Dev nD) : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := by keep_host hostOps4
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by keep_host hostOps2
    _ = W3 m ρ c (Proc.devRef .tc main_arg7) := W4_of_ne m ρ c main_arg7 (by decide)
    _ = W2 m ρ c (Proc.devRef .tc main_arg7) := by keep_host hostOps1
    _ = W1 m ρ c (Proc.devRef .tc main_arg7) := W2_of_ne m ρ c main_arg7 (by decide)
    _ = W0 m ρ c (Proc.devRef .tc main_arg7) := by keep_host hostOps0

/-- The second shift vector is as launched at boundary 9. -/
theorem keep_arg8_9_0 (c : Dev nD) : W9 m ρ c (Proc.devRef .tc main_arg8) = W0 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := by keep_host hostOps4
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by keep_host hostOps2
    _ = W3 m ρ c (Proc.devRef .tc main_arg8) := W4_of_ne m ρ c main_arg8 (by decide)
    _ = W2 m ρ c (Proc.devRef .tc main_arg8) := by keep_host hostOps1
    _ = W1 m ρ c (Proc.devRef .tc main_arg8) := W2_of_ne m ρ c main_arg8 (by decide)
    _ = W0 m ρ c (Proc.devRef .tc main_arg8) := by keep_host hostOps0

/-- The third weight matrix is as launched at boundary 11. -/
theorem keep_arg9_11_0 (c : Dev nD) : W11 m ρ c (Proc.devRef .tc main_arg9) = W0 m ρ c (Proc.devRef .tc main_arg9) :=
  calc W11 m ρ c (Proc.devRef .tc main_arg9)
    _ = W10 m ρ c (Proc.devRef .tc main_arg9) := W11_of_ne m ρ c main_arg9 (by decide)
    _ = W9 m ρ c (Proc.devRef .tc main_arg9) := by keep_host hostOps5
    _ = W8 m ρ c (Proc.devRef .tc main_arg9) := W9_of_ne m ρ c main_arg9 (by decide)
    _ = W7 m ρ c (Proc.devRef .tc main_arg9) := by keep_host hostOps4
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by keep_host hostOps2
    _ = W3 m ρ c (Proc.devRef .tc main_arg9) := W4_of_ne m ρ c main_arg9 (by decide)
    _ = W2 m ρ c (Proc.devRef .tc main_arg9) := by keep_host hostOps1
    _ = W1 m ρ c (Proc.devRef .tc main_arg9) := W2_of_ne m ρ c main_arg9 (by decide)
    _ = W0 m ρ c (Proc.devRef .tc main_arg9) := by keep_host hostOps0

/-- After the first stretch the edge-rows buffer holds row 0 of the edge argument, flattened. -/
theorem rows_first (c : Dev nD) : (W1 m ρ c (Proc.devRef .tc main_v1) : (⟨S640000, .i32⟩ : BufTy).Contents (Elt Ideal)) = shapeCast _ (extractStridedSlice S1x640000 ![0, 0] (m ((c : Thread nD τ).loc main_arg1)) slices_S2x640000_S1x640000_0_0) shapeCasts_S1x640000_S640000 := by
  show StableHlo.after hostOps0 (W0 m ρ c) (Proc.devRef .tc main_v1) = _
  after_results
  rfl

/-- After the first stretch the edge-columns buffer holds row 1 of the edge argument, flattened. -/
theorem cols_first (c : Dev nD) : (W1 m ρ c (Proc.devRef .tc main_v3) : (⟨S640000, .i32⟩ : BufTy).Contents (Elt Ideal)) = shapeCast _ (extractStridedSlice S1x640000 ![1, 0] (m ((c : Thread nD τ).loc main_arg1)) slices_S2x640000_S1x640000_1_0) shapeCasts_S1x640000_S640000 := by
  show StableHlo.after hostOps0 (W0 m ρ c) (Proc.devRef .tc main_v3) = _
  after_results
  rfl

/-! ## The stages, as functions of the launch memory -/

/-- The first linear map: node features times the first weight matrix. -/
def lin1 (c : Dev nD) : (⟨S100000x128, .f32⟩ : BufTy).Contents (Elt Ideal) := Cert.Layers.mm (F := Ideal) (m ((c : Thread nD τ).loc main_arg0)) (m ((c : Thread nD τ).loc main_arg3))
/-- The first layer, aggregated over the edges. -/
def agg1 (c : Dev nD) : (⟨S100000x128, .f32⟩ : BufTy).Contents (Elt Ideal) := Cert.Layers.agg (F := Ideal) (m ((c : Thread nD τ).loc main_arg1)) (lin1 m c)
/-- The first layer, normalised the kernel's way. -/
def nrm1 (c : Dev nD) : (⟨S100000x128, .f32⟩ : BufTy).Contents (Elt Ideal) := Cert.KNet.bnK (agg1 m c) (m ((c : Thread nD τ).loc main_arg4)) (m ((c : Thread nD τ).loc main_arg5))
/-- The second linear map. -/
def lin2 (c : Dev nD) : (⟨S100000x128, .f32⟩ : BufTy).Contents (Elt Ideal) := Cert.Layers.mm (F := Ideal) (nrm1 m c) (m ((c : Thread nD τ).loc main_arg6))
/-- The second layer, aggregated over the edges. -/
def agg2 (c : Dev nD) : (⟨S100000x128, .f32⟩ : BufTy).Contents (Elt Ideal) := Cert.Layers.agg (F := Ideal) (m ((c : Thread nD τ).loc main_arg1)) (lin2 m c)
/-- The second layer, normalised the kernel's way. -/
def nrm2 (c : Dev nD) : (⟨S100000x128, .f32⟩ : BufTy).Contents (Elt Ideal) := Cert.KNet.bnK (agg2 m c) (m ((c : Thread nD τ).loc main_arg7)) (m ((c : Thread nD τ).loc main_arg8))
/-- The third linear map. -/
def lin3 (c : Dev nD) : (⟨S100000x128, .f32⟩ : BufTy).Contents (Elt Ideal) := Cert.Layers.mm (F := Ideal) (nrm2 m c) (m ((c : Thread nD τ).loc main_arg9))

/-! ## Layer 1 -/

/-- The first linear map's launch leaves its output array at the product of its two input arrays. -/
theorem stage_lin1 (c : Dev nD) : (W2 m ρ c (Proc.devRef .tc main_v4) : (⟨S100000x128, .f32⟩ : BufTy).Contents (Elt Ideal)) = lin1 m c := by
  refine (W2_arr m ρ c 2).trans ((Cert.RegionMatmul0.value (V1 m ρ) c).trans ?_)
  show Cert.Layers.mm (F := Ideal) (W1 m ρ c (Proc.devRef .tc main_arg0)) (W1 m ρ c (Proc.devRef .tc main_arg3)) = _
  rw [keep_arg0_1_0, keep_arg3_1_0]
  rfl

/-- The stretch after it aggregates that product over the edges. -/
theorem stage_agg1 (c : Dev nD) : (W3 m ρ c (Proc.devRef .tc main_v40) : (⟨S100000x128, .f32⟩ : BufTy).Contents (Elt Ideal)) = agg1 m c := by
  show StableHlo.after hostOps1 (W2 m ρ c) (Proc.devRef .tc main_v40) = _
  after_results_simp
  rw [keep_v1_2_1, rows_first, keep_v3_2_1, cols_first, stage_lin1]
  rfl

/-- The statistics launch leaves the column sums of the aggregated layer in its first output row. -/
theorem stage_sum1 (c : Dev nD) : (W4 m ρ c (Proc.devRef .tc main_v41_0) : (⟨S1x128, .f32⟩ : BufTy).Contents (Elt Ideal)) = Cert.KLayers.sumCols (agg1 m c) := by
  refine (W4_arr m ρ c 1).trans ((Cert.RegionStats1.sum_value (V3 m ρ) c).trans ?_)
  show Cert.KLayers.sumCols (W3 m ρ c (Proc.devRef .tc main_v40)) = _
  rw [stage_agg1]

/-- … and the column sums of squares in its second. -/
theorem stage_sq1 (c : Dev nD) : (W4 m ρ c (Proc.devRef .tc main_v41_1) : (⟨S1x128, .f32⟩ : BufTy).Contents (Elt Ideal)) = Cert.KLayers.sumSqCols (agg1 m c) := by
  refine (W4_arr m ρ c 2).trans ((Cert.RegionStats1.sumsq_value (V3 m ρ) c).trans ?_)
  show Cert.KLayers.sumSqCols (W3 m ρ c (Proc.devRef .tc main_v40)) = _
  rw [stage_agg1]

/-- The aggregated layer is still in its buffer when the normalisation launch reads it. -/
theorem stage_agg1_kept (c : Dev nD) : (W5 m ρ c (Proc.devRef .tc main_v40) : (⟨S100000x128, .f32⟩ : BufTy).Contents (Elt Ideal)) = agg1 m c :=
  (keep_v40_5_3 m ρ c).trans (stage_agg1 m ρ c)

/-- The stretch between the two launches divides the sums by the node count: the mean row. -/
theorem stage_mean1 (c : Dev nD) : (W5 m ρ c (Proc.devRef .tc main_v43) : (⟨S1x128, .f32⟩ : BufTy).Contents (Elt Ideal)) = Cert.KNet.meanRow (Cert.KLayers.sumCols (agg1 m c)) := by
  show StableHlo.after hostOps2 (W4 m ρ c) (Proc.devRef .tc main_v43) = _
  after_results
  rw [stage_sum1]
  rfl

/-- … and forms the mean of the squares minus the square of the mean: the variance row. -/
theorem stage_var1 (c : Dev nD) : (W5 m ρ c (Proc.devRef .tc main_v47) : (⟨S1x128, .f32⟩ : BufTy).Contents (Elt Ideal))
    = Cert.KNet.varRow (Cert.KLayers.sumCols (agg1 m c)) (Cert.KLayers.sumSqCols (agg1 m c)) := by
  show StableHlo.after hostOps2 (W4 m ρ c) (Proc.devRef .tc main_v47) = _
  after_results
  rw [stage_sum1, stage_sq1]
  rfl

/-- The scale vector laid out as a row. -/
theorem stage_scale1 (c : Dev nD) : (W5 m ρ c (Proc.devRef .tc main_v48) : (⟨S1x128, .f32⟩ : BufTy).Contents (Elt Ideal)) = Cert.KNet.asRow (m ((c : Thread nD τ).loc main_arg4)) := by
  show StableHlo.after hostOps2 (W4 m ρ c) (Proc.devRef .tc main_v48) = _
  after_results
  rw [keep_arg4_4_0]
  rfl

/-- The shift vector laid out as a row. -/
theorem stage_shift1 (c : Dev nD) : (W5 m ρ c (Proc.devRef .tc main_v49) : (⟨S1x128, .f32⟩ : BufTy).Contents (Elt Ideal)) = Cert.KNet.asRow (m ((c : Thread nD τ).loc main_arg5)) := by
  show StableHlo.after hostOps2 (W4 m ρ c) (Proc.devRef .tc main_v49) = _
  after_results
  rw [keep_arg5_4_0]
  rfl

/-- The normalisation launch leaves the kernel's normalised layer in its output array. -/
theorem stage_nrm1 (c : Dev nD) : (W6 m ρ c (Proc.devRef .tc main_v50) : (⟨S100000x128, .f32⟩ : BufTy).Contents (Elt Ideal)) = nrm1 m c := by
  refine (W6_arr m ρ c 5).trans ((Cert.RegionBn2.value (V5 m ρ) c).trans ?_)
  show Cert.KLayers.bnPoint (W5 m ρ c (Proc.devRef .tc main_v40)) (W5 m ρ c (Proc.devRef .tc main_v43)) (W5 m ρ c (Proc.devRef .tc main_v47)) (W5 m ρ c (Proc.devRef .tc main_v48)) (W5 m ρ c (Proc.devRef .tc main_v49)) = _
  rw [stage_agg1_kept, stage_mean1, stage_var1, stage_scale1, stage_shift1]
  rfl

/-! ## Layer 2 -/

/-- The second linear map's launch leaves its output array at the product of its two input arrays. -/
theorem stage_lin2 (c : Dev nD) : (W7 m ρ c (Proc.devRef .tc main_v51) : (⟨S100000x128, .f32⟩ : BufTy).Contents (Elt Ideal)) = lin2 m c := by
  refine (W7_arr m ρ c 2).trans ((Cert.RegionMatmul3.value (V6 m ρ) c).trans ?_)
  show Cert.Layers.mm (F := Ideal) (W6 m ρ c (Proc.devRef .tc main_v50)) (W6 m ρ c (Proc.devRef .tc main_arg6)) = _
  rw [stage_nrm1, keep_arg6_6_0]
  rfl

/-- The stretch after it aggregates that product over the edges. -/
theorem stage_agg2 (c : Dev nD) : (W8 m ρ c (Proc.devRef .tc main_v87) : (⟨S100000x128, .f32⟩ : BufTy).Contents (Elt Ideal)) = agg2 m c := by
  show StableHlo.after hostOps4 (W7 m ρ c) (Proc.devRef .tc main_v87) = _
  after_results_simp
  rw [keep_v1_7_1, rows_first, keep_v3_7_1, cols_first, stage_lin2]
  rfl

/-- The statistics launch leaves the column sums of the aggregated layer in its first output row. -/
theorem stage_sum2 (c : Dev nD) : (W9 m ρ c (Proc.devRef .tc main_v88_0) : (⟨S1x128, .f32⟩ : BufTy).Contents (Elt Ideal)) = Cert.KLayers.sumCols (agg2 m c) := by
  refine (W9_arr m ρ c 1).trans ((Cert.RegionStats4.sum_value (V8 m ρ) c).trans ?_)
  show Cert.KLayers.sumCols (W8 m ρ c (Proc.devRef .tc main_v87)) = _
  rw [stage_agg2]

/-- … and the column sums of squares in its second. -/
theorem stage_sq2 (c : Dev nD) : (W9 m ρ c (Proc.devRef .tc main_v88_1) : (⟨S1x128, .f32⟩ : BufTy).Contents (Elt Ideal)) = Cert.KLayers.sumSqCols (agg2 m c) := by
  refine (W9_arr m ρ c 2).trans ((Cert.RegionStats4.sumsq_value (V8 m ρ) c).trans ?_)
  show Cert.KLayers.sumSqCols (W8 m ρ c (Proc.devRef .tc main_v87)) = _
  rw [stage_agg2]

/-- The aggregated layer is still in its buffer when the normalisation launch reads it. -/
theorem stage_agg2_kept (c : Dev nD) : (W10 m ρ c (Proc.devRef .tc main_v87) : (⟨S100000x128, .f32⟩ : BufTy).Contents (Elt Ideal)) = agg2 m c :=
  (keep_v87_10_8 m ρ c).trans (stage_agg2 m ρ c)

/-- The stretch between the two launches divides the sums by the node count: the mean row. -/
theorem stage_mean2 (c : Dev nD) : (W10 m ρ c (Proc.devRef .tc main_v90) : (⟨S1x128, .f32⟩ : BufTy).Contents (Elt Ideal)) = Cert.KNet.meanRow (Cert.KLayers.sumCols (agg2 m c)) := by
  show StableHlo.after hostOps5 (W9 m ρ c) (Proc.devRef .tc main_v90) = _
  after_results
  rw [stage_sum2]
  rfl

/-- … and forms the mean of the squares minus the square of the mean: the variance row. -/
theorem stage_var2 (c : Dev nD) : (W10 m ρ c (Proc.devRef .tc main_v94) : (⟨S1x128, .f32⟩ : BufTy).Contents (Elt Ideal))
    = Cert.KNet.varRow (Cert.KLayers.sumCols (agg2 m c)) (Cert.KLayers.sumSqCols (agg2 m c)) := by
  show StableHlo.after hostOps5 (W9 m ρ c) (Proc.devRef .tc main_v94) = _
  after_results
  rw [stage_sum2, stage_sq2]
  rfl

/-- The scale vector laid out as a row. -/
theorem stage_scale2 (c : Dev nD) : (W10 m ρ c (Proc.devRef .tc main_v95) : (⟨S1x128, .f32⟩ : BufTy).Contents (Elt Ideal)) = Cert.KNet.asRow (m ((c : Thread nD τ).loc main_arg7)) := by
  show StableHlo.after hostOps5 (W9 m ρ c) (Proc.devRef .tc main_v95) = _
  after_results
  rw [keep_arg7_9_0]
  rfl

/-- The shift vector laid out as a row. -/
theorem stage_shift2 (c : Dev nD) : (W10 m ρ c (Proc.devRef .tc main_v96) : (⟨S1x128, .f32⟩ : BufTy).Contents (Elt Ideal)) = Cert.KNet.asRow (m ((c : Thread nD τ).loc main_arg8)) := by
  show StableHlo.after hostOps5 (W9 m ρ c) (Proc.devRef .tc main_v96) = _
  after_results
  rw [keep_arg8_9_0]
  rfl

/-- The normalisation launch leaves the kernel's normalised layer in its output array. -/
theorem stage_nrm2 (c : Dev nD) : (W11 m ρ c (Proc.devRef .tc main_v97) : (⟨S100000x128, .f32⟩ : BufTy).Contents (Elt Ideal)) = nrm2 m c := by
  refine (W11_arr m ρ c 5).trans ((Cert.RegionBn5.value (V10 m ρ) c).trans ?_)
  show Cert.KLayers.bnPoint (W10 m ρ c (Proc.devRef .tc main_v87)) (W10 m ρ c (Proc.devRef .tc main_v90)) (W10 m ρ c (Proc.devRef .tc main_v94)) (W10 m ρ c (Proc.devRef .tc main_v95)) (W10 m ρ c (Proc.devRef .tc main_v96)) = _
  rw [stage_agg2_kept, stage_mean2, stage_var2, stage_scale2, stage_shift2]
  rfl

/-! ## Layer 3 -/

/-- The third linear map's launch leaves its output array at the product of the second normalised layer and the third
    weight matrix. -/
theorem stage_lin3 (c : Dev nD) : (W12 m ρ c (Proc.devRef .tc main_v98) : (⟨S100000x128, .f32⟩ : BufTy).Contents (Elt Ideal)) = lin3 m c := by
  refine (W12_arr m ρ c 2).trans ((Cert.RegionMatmul6.value (V11 m ρ) c).trans ?_)
  show Cert.Layers.mm (F := Ideal) (W11 m ρ c (Proc.devRef .tc main_v97)) (W11 m ρ c (Proc.devRef .tc main_arg9)) = _
  rw [stage_nrm2, keep_arg9_11_0]
  rfl

/-! ## The result -/

/-- What the sixteen segments leave in the result buffer is the kernel's network of the launch contents of the
    fourteen arguments: the head stage over the third linear map, which stands on the second normalised layer, which
    stands on the first. -/
theorem result_eq (c : Dev nD) :
    W16 m ρ c (Proc.devRef .tc main_v156) = Cert.KNet.netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Cert.FoldHead.head_stage m ρ c, stage_lin3]
  rfl

end Cert.KernelFold

end
-- ==== Proof.lean ====
/-
  Both programs compute one graph network over 100000 nodes with 128 features each. A convolution layer is
  agg E (h · W): the node features times a 128 × 128 weight matrix, then, along every edge of E, the row node's
  features scaled by the inverse square roots of the two nodes' degrees and summed into the column node. The first two
  layers are each followed by a normalisation over the node axis (per feature column: subtract the mean, multiply by the
  reciprocal square root of the variance plus 1e-5, scale, shift) and a clamp at 0; the third by the mean over the
  nodes of each graph, two dense layers and a log-softmax.

  The kernel does the three products h · W, the column statistics and the normalisations in seven launches over ten
  blocks of 10000 rows. It forms a column's variance as the mean of the squares minus the square of the mean, from the
  column sums and sums of squares it adds up block by block; the reference forms it as the mean of the squared
  deviations from the mean. Everything else is the same function of the arguments. The two forms of the variance agree
  when every entry is a real number; the precondition makes every float argument finite, and finiteness passes through
  the product, the sum over edges and the normalisation, hence through every layer.

  Where each part lives. The network as the reference spells it: Layers; as the kernel spells it: KLayers, KNet. The
  launches read as values of their input arrays: RegionMatmul0, RegionMatmul3, RegionMatmul6 over MatmulSpec (the
  products), RegionStats1, RegionStats4 (the column sums), RegionBn2, RegionBn5 (the normalisations). The kernel's run and
  its result buffer read back through the sixteen segments as the kernel's network: KernelRun, KernelFold, and for the
  stretches after the last launch FoldHead. The reference's run and its result as the network of Layers: RefRun,
  RefStages. The precondition decoded to "every float entry is a real": PreFin, FinArr. The laws of finite extended reals and of the two variances: LibERealSums,
  LibBatchNorm. The kernel's network is the reference's on finite arguments: Bridge. The three frames and the two runs
  joined into the claim: Assemble.
-/
import proofs.«107305_j88502096101881_1_alg».proof.Defs
import proofs.«107305_j88502096101881_1_alg».proof.Proof.Gen.Kernel
import proofs.«107305_j88502096101881_1_alg».proof.Proof.Gen.Kernel.Skeleton
import proofs.«107305_j88502096101881_1_alg».proof.Proof.Gen.Kernel.Launch
import proofs.«107305_j88502096101881_1_alg».proof.Proof.Gen.Kernel.Points
import proofs.«107305_j88502096101881_1_alg».proof.Proof.Gen.Kernel.Frame
import proofs.«107305_j88502096101881_1_alg».proof.Proof.Gen.KernelIdeal
import proofs.«107305_j88502096101881_1_alg».proof.Proof.Gen.KernelIdeal.Skeleton
import proofs.«107305_j88502096101881_1_alg».proof.Proof.Gen.KernelIdeal.Launch
import proofs.«107305_j88502096101881_1_alg».proof.Proof.Gen.KernelIdeal.Points
import proofs.«107305_j88502096101881_1_alg».proof.Proof.Gen.KernelIdeal.Frame
import proofs.«107305_j88502096101881_1_alg».proof.Proof.Gen.ReferenceIdeal
import proofs.«107305_j88502096101881_1_alg».proof.Proof.Gen.Pre_finite_inputs
import proofs.«107305_j88502096101881_1_alg».proof.Proof.Assemble
import proofs.«107305_j88502096101881_1_alg».proof.Proof.KernelFold
import Idealize.ShloMosaic.Adequacy
import Idealize.ShloMosaic.Init

noncomputable section

namespace Cert.Proof

open Idealize.ShloMosaic Idealize.SL.Sem Cert.Kernel

/-- The programs' stated facts, the three frames, and the two idealized runs ending at one function of the arguments:
    the kernel's result buffer read back as the kernel's network, which on the finite arguments the precondition
    grants is the reference's. -/
theorem claim : Cert.Claim := ⟨Cert.Kernel.Gen.facts, Cert.KernelIdeal.Gen.facts, Cert.ReferenceIdeal.Gen.facts, Cert.Pre_finite_inputs.Gen.facts, Cert.Assemble.frame_k, Cert.Assemble.frame_ki, Cert.Assemble.frame_ri, trivial, Cert.Assemble.algebraic_of (fun m ρ c => Cert.KernelFold.result_eq m ρ c)⟩

end Cert.Proof

end
